-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S2x64x64 : Shape := ⟨3, ![2, 64, 64]⟩
abbrev S2x64 : Shape := ⟨2, ![2, 64]⟩
abbrev S2x8192x64 : Shape := ⟨3, ![2, 8192, 64]⟩
abbrev S2x8192 : Shape := ⟨2, ![2, 8192]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S2x8192x64 : S_.BroadcastsInDim S2x8192x64 (![] : Fin 0 → Fin S2x8192x64.rank)
  reducesTo_S2x8192x64_S_d0_1_2 : S2x8192x64.ReducesTo [0, 1, 2] S_
  bcast_S_S2x8192 : S_.BroadcastsInDim S2x8192 (![] : Fin 0 → Fin S2x8192.rank)
  reducesTo_S2x8192_S_d0_1 : S2x8192.ReducesTo [0, 1] S_

variable [Facts]

def fn_part1 {F : FTy → Type} [FloatOps F] (main_arg4 : FVec F S2x64 .f32) (main_arg5 : FVec F S2x8192x64 .f32) (main_arg6 : FVec F S2x8192 .f32) (main_v13 : IVec S_ 1) (main_v16 : IVec S2x64x64 1) : IVec S_ 1 :=
  let main_c_5 : IVec S_ 1 := constantI S_ 1 1#1
  let main_v17 : IVec S_ 1 := (fun x v => Host.reduce IntOp.andi x v reducesTo_S2x64x64_S_d0_1_2 h_S_) main_v16 main_c_5
  let main_v18 : IVec S_ 1 := andi main_v13 main_v17
  let main_v19 : FVec F S2x64 .f32 := Host.absf main_arg4
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2x8192x64 .f32 := Host.absf main_arg5
  let main_cst_8 : FVec F S_ .f32 := constant S_ .f32 0x7F800000#32
  let main_v25 : FVec F S2x8192x64 .f32 := broadcastInDim S2x8192x64 ![] bcast_S_S2x8192x64 main_cst_8
  let main_v26 : IVec S2x8192x64 1 := cmpf .olt main_v24 main_v25
  let main_c_9 : IVec S_ 1 := constantI S_ 1 1#1
  let main_v27 : IVec S_ 1 := (fun x v => Host.reduce IntOp.andi x v reducesTo_S2x8192x64_S_d0_1_2 h_S_) main_v26 main_c_9
  let main_v28 : IVec S_ 1 := andi main_v23 main_v27
  let main_v29 : FVec F S2x8192 .f32 := Host.absf main_arg6
  let main_cst_10 : FVec F S_ .f32 := constant S_ .f32 0x7F800000#32
  let main_v30 : FVec F S2x8192 .f32 := broadcastInDim S2x8192 ![] bcast_S_S2x8192 main_cst_10
  let main_v31 : IVec S2x8192 1 := cmpf .olt main_v29 main_v30
  let main_c_11 : IVec S_ 1 := constantI S_ 1 1#1
  let main_v32 : IVec S_ 1 := (fun x v => Host.reduce IntOp.andi x v reducesTo_S2x8192_S_d0_1 h_S_) main_v31 main_c_11
  let main_v33 : IVec S_ 1 := andi main_v28 main_v32
  main_v33

def fn {F : FTy → Type} [FloatOps F] (main_arg0 : FVec F S8192x64 .f32) (main_arg1 : FVec F S2x64x64 .f32) (main_arg2 : FVec F S2x64 .f32) (main_arg3 : FVec F S2x64x64 .f32) (main_arg4 : FVec F S2x64 .f32) (main_arg5 : FVec F S2x8192x64 .f32) (main_arg6 : FVec F S2x8192 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S2x64x64 .f32 := Host.absf main_arg1
  let main_cst_0 : FVec F S_ .f32 := constant S_ .f32 0x7F800000#32
  let main_v5 : FVec F S2x64x64 .f32 := broadcastInDim S2x64x64 ![] bcast_S_S2x64x64 main_cst_0
  let main_v6 : IVec S2x64x64 1 := cmpf .olt main_v4 main_v5
  let main_c_1 : IVec S_ 1 := constantI S_ 1 1#1
  let main_v7 : IVec S_ 1 := (fun x v => Host.reduce IntOp.andi x v reducesTo_S2x64x64_S_d0_1_2 h_S_) main_v6 main_c_1
  let main_v8 : IVec S_ 1 := andi main_v3 main_v7
  let main_v9 : FVec F S2x64 .f32 := Host.absf main_arg2
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_v14 : FVec F S2x64x64 .f32 := Host.absf main_arg3
  let main_cst_4 : FVec F S_ .f32 := constant S_ .f32 0x7F800000#32
  let main_v15 : FVec F S2x64x64 .f32 := broadcastInDim S2x64x64 ![] bcast_S_S2x64x64 main_cst_4
  let main_v16 : IVec S2x64x64 1 := cmpf .olt main_v14 main_v15
  fn_part1 (F := F) main_arg4 main_arg5 main_arg6 main_v13 main_v16
-- ==== Kernel.lean ====
abbrev S8192x64 : Shape := ⟨2, ![8192, 64]⟩
abbrev S2x64x64 : Shape := ⟨3, ![2, 64, 64]⟩
abbrev S2x64 : Shape := ⟨2, ![2, 64]⟩
abbrev S2x8192x64 : Shape := ⟨3, ![2, 8192, 64]⟩
abbrev S2x8192 : Shape := ⟨2, ![2, 8192]⟩
abbrev S1024x64 : Shape := ⟨2, ![1024, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1x8192x64 : Shape := ⟨3, ![1, 8192, 64]⟩
abbrev S1x8192 : Shape := ⟨2, ![1, 8192]⟩
abbrev S8192 : Shape := ⟨1, ![8192]⟩
abbrev S512x64 : Shape := ⟨2, ![512, 64]⟩
abbrev S512x512 : Shape := ⟨2, ![512, 512]⟩
abbrev S1x512 : Shape := ⟨2, ![1, 512]⟩
abbrev S64x512 : Shape := ⟨2, ![64, 512]⟩

abbrev nBuf : Space → Nat
  | .hbm => 30
  | .vmem => 24
  | .smem => 0
  | _ => 0

abbrev bufTy : (tb : Table) → Fin (tcTables nBuf tb) → BufTy
  | .hbm, ⟨0, _⟩ => ⟨S8192x64, .f32⟩
  | .hbm, ⟨1, _⟩ => ⟨S2x64x64, .f32⟩
  | .hbm, ⟨2, _⟩ => ⟨S2x64, .f32⟩
  | .hbm, ⟨3, _⟩ => ⟨S2x64x64, .f32⟩
  | .hbm, ⟨4, _⟩ => ⟨S2x64, .f32⟩
  | .hbm, ⟨5, _⟩ => ⟨S2x8192x64, .f32⟩
  | .hbm, ⟨6, _⟩ => ⟨S2x8192, .f32⟩
  | .hbm, ⟨7, _⟩ => ⟨S8192x64, .f32⟩
  | .hbm, ⟨8, _⟩ => ⟨S1x64x64, .f32⟩
  | .hbm, ⟨9, _⟩ => ⟨S64x64, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S1x8192x64, .f32⟩
  | .hbm, ⟨14, _⟩ => ⟨S8192x64, .f32⟩
  | .hbm, ⟨15, _⟩ => ⟨S1x8192, .f32⟩
  | .hbm, ⟨16, _⟩ => ⟨S8192, .f32⟩
  | .hbm, ⟨17, _⟩ => ⟨S1x8192, .f32⟩
  | .hbm, ⟨18, _⟩ => ⟨S8192x64, .f32⟩
  | .hbm, ⟨19, _⟩ => ⟨S1x64x64, .f32⟩
  | .hbm, ⟨20, _⟩ => ⟨S64x64, .f32⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S1x8192x64, .f32⟩
  | .hbm, ⟨25, _⟩ => ⟨S8192x64, .f32⟩
  | .hbm, ⟨26, _⟩ => ⟨S1x8192, .f32⟩
  | .hbm, ⟨27, _⟩ => ⟨S8192, .f32⟩
  | .hbm, ⟨28, _⟩ => ⟨S1x8192, .f32⟩
  | .hbm, ⟨29, _⟩ => ⟨S8192x64, .f32⟩
  | .local _ .vmem, ⟨0, _⟩ => ⟨S1024x64, .f32⟩
  | .local _ .vmem, ⟨1, _⟩ => ⟨S1024x64, .f32⟩
  | .local _ .vmem, ⟨2, _⟩ => ⟨S2x64x64, .f32⟩
  | .local _ .vmem, ⟨3, _⟩ => ⟨S2x64, .f32⟩
  | .local _ .vmem, ⟨4, _⟩ => ⟨S1024x64, .f32⟩
  | .local _ .vmem, ⟨5, _⟩ => ⟨S1024x64, .f32⟩
  | .local _ .vmem, ⟨6, _⟩ => ⟨S512x64, .f32⟩
  | .local _ .vmem, ⟨7, _⟩ => ⟨S512x64, .f32⟩
  | .local _ .vmem, ⟨8, _⟩ => ⟨S64x64, .f32⟩
  | .local _ .vmem, ⟨9, _⟩ => ⟨S1x64, .f32⟩
  | .local _ .vmem, ⟨10, _⟩ => ⟨S8192x64, .f32⟩
  | .local _ .vmem, ⟨11, _⟩ => ⟨S1x8192, .f32⟩
  | .local _ .vmem, ⟨12, _⟩ => ⟨S8192x64, .f32⟩
  | .local _ .vmem, ⟨13, _⟩ => ⟨S512x64, .f32⟩
  | .local _ .vmem, ⟨14, _⟩ => ⟨S512x64, .f32⟩
  | .local _ .vmem, ⟨15, _⟩ => ⟨S512x64, .f32⟩
  | .local _ .vmem, ⟨16, _⟩ => ⟨S512x64, .f32⟩
  | .local _ .vmem, ⟨17, _⟩ => ⟨S64x64, .f32⟩
  | .local _ .vmem, ⟨18, _⟩ => ⟨S1x64, .f32⟩
  | .local _ .vmem, ⟨19, _⟩ => ⟨S8192x64, .f32⟩
  | .local _ .vmem, ⟨20, _⟩ => ⟨S1x8192, .f32⟩
  | .local _ .vmem, ⟨21, _⟩ => ⟨S8192x64, .f32⟩
  | .local _ .vmem, ⟨22, _⟩ => ⟨S512x64, .f32⟩
  | .local _ .vmem, ⟨23, _⟩ => ⟨S512x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def k1_mult1 (i : grid1.Coords) : BitVec 32 :=
  let arg0 : BitVec 32 := BitVec.ofNat 32 (i 0).val
  let c512_i32_7 : BitVec 32 := 512#32
  let v19 : BitVec 32 := Scalar.muli arg0 c512_i32_7
  v19
def k1_off1 (i : grid1.Coords) : Fin 2 → Nat :=
  let arg0 : BitVec 32 := BitVec.ofNat 32 (i 0).val
  let c512_i32_7 : BitVec 32 := 512#32
  let v19 : BitVec 32 := Scalar.muli arg0 c512_i32_7
  let v20 : BitVec 32 := v19
  let v21 : Index := Scalar.indexCast v20
  let c0_8 : Index := 0#32
  ![v21.toNat, 0]
def k1_off2 (i : grid1.Coords) : Fin 2 → Nat :=
  let c0_9 : Index := 0#32
  let arg0 : BitVec 32 := BitVec.ofNat 32 (i 0).val
  let c512_i32_7 : BitVec 32 := 512#32
  let v19 : BitVec 32 := Scalar.muli arg0 c512_i32_7
  let v20 : BitVec 32 := v19
  let v25 : Index := Scalar.indexCast v20
  ![0, v25.toNat]
def k1_mult2 (i : grid1.Coords) : BitVec 32 :=
  let arg0 : BitVec 32 := BitVec.ofNat 32 (i 0).val
  let c1_i32_15 : BitVec 32 := 1#32
  let v57 : BitVec 32 := Scalar.addi arg0 c1_i32_15
  let c16_i32 : BitVec 32 := 16#32
  let c0_i32_16 : BitVec 32 := 0#32
  let v58 : BitVec 1 := Scalar.cmpi .eq c16_i32 c0_i32_16
  let c1_i32_17 : BitVec 32 := 1#32
  let v59 : BitVec 32 := Scalar.select v58 c1_i32_17 c16_i32
  let v60 : BitVec 32 := Scalar.remsi v57 v59
  let c0_i32_19 : BitVec 32 := 0#32
  let v62 : BitVec 1 := Scalar.cmpi .slt v60 c0_i32_19
  let c0_i32_20 : BitVec 32 := 0#32
  let v63 : BitVec 1 := Scalar.cmpi .slt v59 c0_i32_20
  let v64 : BitVec 1 := Scalar.xori v62 v63
  let c0_i32_18 : BitVec 32 := 0#32
  let v61 : BitVec 1 := Scalar.cmpi .ne v60 c0_i32_18
  let v65 : BitVec 1 := Scalar.andi v64 v61
  let v66 : BitVec 32 := Scalar.addi v60 v59
  let v67 : BitVec 32 := Scalar.select v65 v66 v60
  let c512_i32_21 : BitVec 32 := 512#32
  let v68 : BitVec 32 := Scalar.muli v67 c512_i32_21
  v68
def k1_off3 (i : grid1.Coords) : Fin 2 → Nat :=
  let arg0 : BitVec 32 := BitVec.ofNat 32 (i 0).val
  let c1_i32_15 : BitVec 32 := 1#32
  let v57 : BitVec 32 := Scalar.addi arg0 c1_i32_15
  let c16_i32 : BitVec 32 := 16#32
  let c0_i32_16 : BitVec 32 := 0#32
  let v58 : BitVec 1 := Scalar.cmpi .eq c16_i32 c0_i32_16
  let c1_i32_17 : BitVec 32 := 1#32
  let v59 : BitVec 32 := Scalar.select v58 c1_i32_17 c16_i32
  let v60 : BitVec 32 := Scalar.remsi v57 v59
  let c0_i32_19 : BitVec 32 := 0#32
  let v62 : BitVec 1 := Scalar.cmpi .slt v60 c0_i32_19
  let c0_i32_20 : BitVec 32 := 0#32
  let v63 : BitVec 1 := Scalar.cmpi .slt v59 c0_i32_20
  let v64 : BitVec 1 := Scalar.xori v62 v63
  let c0_i32_18 : BitVec 32 := 0#32
  let v61 : BitVec 1 := Scalar.cmpi .ne v60 c0_i32_18
  let v65 : BitVec 1 := Scalar.andi v64 v61
  let v66 : BitVec 32 := Scalar.addi v60 v59
  let v67 : BitVec 32 := Scalar.select v65 v66 v60
  let c512_i32_21 : BitVec 32 := 512#32
  let v68 : BitVec 32 := Scalar.muli v67 c512_i32_21
  let v69 : BitVec 32 := v68
  let v70 : Index := Scalar.indexCast v69
  let c0_22 : Index := 0#32
  ![v70.toNat, 0]
def k1_off4 (i : grid1.Coords) : Fin 2 → Nat :=
  let c0_23 : Index := 0#32
  let arg0 : BitVec 32 := BitVec.ofNat 32 (i 0).val
  let c1_i32_15 : BitVec 32 := 1#32
  let v57 : BitVec 32 := Scalar.addi arg0 c1_i32_15
  let c16_i32 : BitVec 32 := 16#32
  let c0_i32_16 : BitVec 32 := 0#32
  let v58 : BitVec 1 := Scalar.cmpi .eq c16_i32 c0_i32_16
  let c1_i32_17 : BitVec 32 := 1#32
  let v59 : BitVec 32 := Scalar.select v58 c1_i32_17 c16_i32
  let v60 : BitVec 32 := Scalar.remsi v57 v59
  let c0_i32_19 : BitVec 32 := 0#32
  let v62 : BitVec 1 := Scalar.cmpi .slt v60 c0_i32_19
  let c0_i32_20 : BitVec 32 := 0#32
  let v63 : BitVec 1 := Scalar.cmpi .slt v59 c0_i32_20
  let v64 : BitVec 1 := Scalar.xori v62 v63
  let c0_i32_18 : BitVec 32 := 0#32
  let v61 : BitVec 1 := Scalar.cmpi .ne v60 c0_i32_18
  let v65 : BitVec 1 := Scalar.andi v64 v61
  let v66 : BitVec 32 := Scalar.addi v60 v59
  let v67 : BitVec 32 := Scalar.select v65 v66 v60
  let c512_i32_21 : BitVec 32 := 512#32
  let v68 : BitVec 32 := Scalar.muli v67 c512_i32_21
  let v69 : BitVec 32 := v68
  let v74 : Index := Scalar.indexCast v69
  ![0, v74.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8192x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x8192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8192x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![16], ![false]⟩

def k2_mult1 (i : grid2.Coords) : BitVec 32 :=
  let arg0 : BitVec 32 := BitVec.ofNat 32 (i 0).val
  let c512_i32_7 : BitVec 32 := 512#32
  let v19 : BitVec 32 := Scalar.muli arg0 c512_i32_7
  v19
def k2_off1 (i : grid2.Coords) : Fin 2 → Nat :=
  let arg0 : BitVec 32 := BitVec.ofNat 32 (i 0).val
  let c512_i32_7 : BitVec 32 := 512#32
  let v19 : BitVec 32 := Scalar.muli arg0 c512_i32_7
  let v20 : BitVec 32 := v19
  let v21 : Index := Scalar.indexCast v20
  let c0_8 : Index := 0#32
  ![v21.toNat, 0]
def k2_off2 (i : grid2.Coords) : Fin 2 → Nat :=
  let c0_9 : Index := 0#32
  let arg0 : BitVec 32 := BitVec.ofNat 32 (i 0).val
  let c512_i32_7 : BitVec 32 := 512#32
  let v19 : BitVec 32 := Scalar.muli arg0 c512_i32_7
  let v20 : BitVec 32 := v19
  let v25 : Index := Scalar.indexCast v20
  ![0, v25.toNat]
def k2_mult2 (i : grid2.Coords) : BitVec 32 :=
  let arg0 : BitVec 32 := BitVec.ofNat 32 (i 0).val
  let c1_i32_15 : BitVec 32 := 1#32
  let v57 : BitVec 32 := Scalar.addi arg0 c1_i32_15
  let c16_i32 : BitVec 32 := 16#32
  let c0_i32_16 : BitVec 32 := 0#32
  let v58 : BitVec 1 := Scalar.cmpi .eq c16_i32 c0_i32_16
  let c1_i32_17 : BitVec 32 := 1#32
  let v59 : BitVec 32 := Scalar.select v58 c1_i32_17 c16_i32
  let v60 : BitVec 32 := Scalar.remsi v57 v59
  let c0_i32_19 : BitVec 32 := 0#32
  let v62 : BitVec 1 := Scalar.cmpi .slt v60 c0_i32_19
  let c0_i32_20 : BitVec 32 := 0#32
  let v63 : BitVec 1 := Scalar.cmpi .slt v59 c0_i32_20
  let v64 : BitVec 1 := Scalar.xori v62 v63
  let c0_i32_18 : BitVec 32 := 0#32
  let v61 : BitVec 1 := Scalar.cmpi .ne v60 c0_i32_18
  let v65 : BitVec 1 := Scalar.andi v64 v61
  let v66 : BitVec 32 := Scalar.addi v60 v59
  let v67 : BitVec 32 := Scalar.select v65 v66 v60
  let c512_i32_21 : BitVec 32 := 512#32
  let v68 : BitVec 32 := Scalar.muli v67 c512_i32_21
  v68
def k2_off3 (i : grid2.Coords) : Fin 2 → Nat :=
  let arg0 : BitVec 32 := BitVec.ofNat 32 (i 0).val
  let c1_i32_15 : BitVec 32 := 1#32
  let v57 : BitVec 32 := Scalar.addi arg0 c1_i32_15
  let c16_i32 : BitVec 32 := 16#32
  let c0_i32_16 : BitVec 32 := 0#32
  let v58 : BitVec 1 := Scalar.cmpi .eq c16_i32 c0_i32_16
  let c1_i32_17 : BitVec 32 := 1#32
  let v59 : BitVec 32 := Scalar.select v58 c1_i32_17 c16_i32
  let v60 : BitVec 32 := Scalar.remsi v57 v59
  let c0_i32_19 : BitVec 32 := 0#32
  let v62 : BitVec 1 := Scalar.cmpi .slt v60 c0_i32_19
  let c0_i32_20 : BitVec 32 := 0#32
  let v63 : BitVec 1 := Scalar.cmpi .slt v59 c0_i32_20
  let v64 : BitVec 1 := Scalar.xori v62 v63
  let c0_i32_18 : BitVec 32 := 0#32
  let v61 : BitVec 1 := Scalar.cmpi .ne v60 c0_i32_18
  let v65 : BitVec 1 := Scalar.andi v64 v61
  let v66 : BitVec 32 := Scalar.addi v60 v59
  let v67 : BitVec 32 := Scalar.select v65 v66 v60
  let c512_i32_21 : BitVec 32 := 512#32
  let v68 : BitVec 32 := Scalar.muli v67 c512_i32_21
  let v69 : BitVec 32 := v68
  let v70 : Index := Scalar.indexCast v69
  let c0_22 : Index := 0#32
  ![v70.toNat, 0]
def k2_off4 (i : grid2.Coords) : Fin 2 → Nat :=
  let c0_23 : Index := 0#32
  let arg0 : BitVec 32 := BitVec.ofNat 32 (i 0).val
  let c1_i32_15 : BitVec 32 := 1#32
  let v57 : BitVec 32 := Scalar.addi arg0 c1_i32_15
  let c16_i32 : BitVec 32 := 16#32
  let c0_i32_16 : BitVec 32 := 0#32
  let v58 : BitVec 1 := Scalar.cmpi .eq c16_i32 c0_i32_16
  let c1_i32_17 : BitVec 32 := 1#32
  let v59 : BitVec 32 := Scalar.select v58 c1_i32_17 c16_i32
  let v60 : BitVec 32 := Scalar.remsi v57 v59
  let c0_i32_19 : BitVec 32 := 0#32
  let v62 : BitVec 1 := Scalar.cmpi .slt v60 c0_i32_19
  let c0_i32_20 : BitVec 32 := 0#32
  let v63 : BitVec 1 := Scalar.cmpi .slt v59 c0_i32_20
  let v64 : BitVec 1 := Scalar.xori v62 v63
  let c0_i32_18 : BitVec 32 := 0#32
  let v61 : BitVec 1 := Scalar.cmpi .ne v60 c0_i32_18
  let v65 : BitVec 1 := Scalar.andi v64 v61
  let v66 : BitVec 32 := Scalar.addi v60 v59
  let v67 : BitVec 32 := Scalar.select v65 v66 v60
  let c512_i32_21 : BitVec 32 := 512#32
  let v68 : BitVec 32 := Scalar.muli v67 c512_i32_21
  let v69 : BitVec 32 := v68
  let v74 : Index := Scalar.indexCast v69
  ![0, v74.toNat]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8192x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x8192 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8192x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S1024x64_S1024x64_0_0 : ∀ a, (![0, 0] : Fin 2 → Nat) a + S1024x64.size a ≤ S1024x64.size a
  h_S1024x64 : 0 < S1024x64.numel
  inb_S2x64x64_S1x64x64_0_0_0 : ∀ a, (![0, 0, 0] : Fin 3 → Nat) a + S1x64x64.size a ≤ S2x64x64.size a
  h_S1x64x64 : 0 < S1x64x64.numel
  shapeCasts_S1x64x64_S64x64 : S1x64x64.ShapeCasts S64x64
  bitsLt_bf16_f32 : FTy.bits .bf16 < FTy.bits .f32
  inb_S2x64_S1x64_0_0 : ∀ a, (![0, 0] : Fin 2 → Nat) a + S1x64.size a ≤ S2x64.size a
  h_S1x64 : 0 < S1x64.numel
  shapeCasts_S1x64_S64 : S1x64.ShapeCasts S64
  transposes_S64x64_p1_0_S64x64 : S64x64.Transposes [1, 0] S64x64
  shapeCasts_S64_S1x64 : S64.ShapeCasts S1x64
  broadcasts_S1x64_S1024x64 : S1x64.Broadcasts S1024x64
  inb_S2x64x64_S1x64x64_1_0_0 : ∀ a, (![1, 0, 0] : Fin 3 → Nat) a + S1x64x64.size a ≤ S2x64x64.size a
  inb_S2x64_S1x64_1_0 : ∀ a, (![1, 0] : Fin 2 → Nat) a + S1x64.size a ≤ S2x64.size a
  slices_S2x64x64_S1x64x64_0_0_0 : S2x64x64.Slices ![0, 0, 0] S1x64x64
  slices_S2x64_S1x64_0_0 : S2x64.Slices ![0, 0] S1x64
  slices_S2x8192x64_S1x8192x64_0_0_0 : S2x8192x64.Slices ![0, 0, 0] S1x8192x64
  shapeCasts_S1x8192x64_S8192x64 : S1x8192x64.ShapeCasts S8192x64
  slices_S2x8192_S1x8192_0_0 : S2x8192.Slices ![0, 0] S1x8192
  shapeCasts_S1x8192_S8192 : S1x8192.ShapeCasts S8192
  shapeCasts_S8192_S1x8192 : S8192.ShapeCasts S1x8192
  inb_S512x64_S512x64_0_0 : ∀ a, (![0, 0] : Fin 2 → Nat) a + S512x64.size a ≤ S512x64.size a
  h_S512x64 : 0 < S512x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  shapeCasts_S1x64_S1x64 : S1x64.ShapeCasts S1x64
  broadcasts_S1x64_S512x64 : S1x64.Broadcasts S512x64
  iota_S512x512_d0_w32 : S512x512.Iotas .tc 32 [0]
  shapeCasts_S512x64_S512x64 : S512x64.ShapeCasts S512x64
  h_S1x512 : 0 < S1x512.numel
  shapeCasts_S1x512_S1x512 : S1x512.ShapeCasts S1x512
  transposes_S512x64_p1_0_S64x512 : S512x64.Transposes [1, 0] S64x512
  broadcasts_S1x512_S512x512 : S1x512.Broadcasts S512x512
  iota_S512x512_d1_w32 : S512x512.Iotas .tc 32 [1]
  slices_S2x64x64_S1x64x64_1_0_0 : S2x64x64.Slices ![1, 0, 0] S1x64x64
  slices_S2x64_S1x64_1_0 : S2x64.Slices ![1, 0] S1x64
  slices_S2x8192x64_S1x8192x64_1_0_0 : S2x8192x64.Slices ![1, 0, 0] S1x8192x64
  slices_S2x8192_S1x8192_1_0 : S2x8192.Slices ![1, 0] S1x8192
  dot_S1024x64_S64x64_S1024x64_1_0_0_1_n_n_wf : DotDims.WF S1024x64 S64x64 S1024x64 [1] [0] [0] [1] [] []
  dot_S512x64_S64x64_S512x64_1_0_0_1_n_n_wf : DotDims.WF S512x64 S64x64 S512x64 [1] [0] [0] [1] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64x64.size a ≤ S2x64x64.size a
  hwx0_1 : ∀ i : grid0.Coords, EltTy.bits .f32 = 32 ∨ (Rect.block (s := S2x64x64) S2x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x64.size a ≤ S2x64.size a
  hwx0_2 : ∀ i : grid0.Coords, EltTy.bits .f32 = 32 ∨ (Rect.block (s := S2x64) S2x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S512x64.size a ≤ S8192x64.size a
  k1_off2_inb : ∀ i : grid1.Coords, ∀ a, (k1_off2 i) a + S1x512.size a ≤ S1x8192.size a
  k1_mult2_dvd : ∀ i : grid1.Coords, 512 ∣ (k1_mult2 i).toNat
  k1_off3_inb : ∀ i : grid1.Coords, ∀ a, (k1_off3 i) a + S512x64.size a ≤ S8192x64.size a
  k1_off4_inb : ∀ i : grid1.Coords, ∀ a, (k1_off4 i) a + S1x512.size a ≤ S1x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S8192x64.size a
  hwx1_0 : ∀ i : grid1.Coords, EltTy.bits .f32 = 32 ∨ (Rect.block (s := S8192x64) S512x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x64.size a ≤ S8192x64.size a
  hwx1_3 : ∀ i : grid1.Coords, EltTy.bits .f32 = 32 ∨ (Rect.block (s := S8192x64) S8192x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8192.size a ≤ S1x8192.size a
  hwx1_4 : ∀ i : grid1.Coords, EltTy.bits .f32 = 32 ∨ (Rect.block (s := S1x8192) S1x8192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8192x64.size a ≤ S8192x64.size a
  hwx1_5 : ∀ i : grid1.Coords, EltTy.bits .f32 = 32 ∨ (Rect.block (s := S8192x64) S8192x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x64.size a ≤ S8192x64.size a
  hwx1_6 : ∀ i : grid1.Coords, EltTy.bits .f32 = 32 ∨ (Rect.block (s := S8192x64) S512x64.size (cc1_transform_6 i) (hinb1_6 i)).WholeWords (EltTy.packing .f32)
  hrank2 : 0 < grid2.rank
  k2_mult1_dvd : ∀ i : grid2.Coords, 512 ∣ (k2_mult1 i).toNat
  k2_off1_inb : ∀ i : grid2.Coords, ∀ a, (k2_off1 i) a + S512x64.size a ≤ S8192x64.size a
  k2_off2_inb : ∀ i : grid2.Coords, ∀ a, (k2_off2 i) a + S1x512.size a ≤ S1x8192.size a
  k2_mult2_dvd : ∀ i : grid2.Coords, 512 ∣ (k2_mult2 i).toNat
  k2_off3_inb : ∀ i : grid2.Coords, ∀ a, (k2_off3 i) a + S512x64.size a ≤ S8192x64.size a
  k2_off4_inb : ∀ i : grid2.Coords, ∀ a, (k2_off4 i) a + S1x512.size a ≤ S1x8192.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x64.size a ≤ S8192x64.size a
  hwx2_0 : ∀ i : grid2.Coords, EltTy.bits .f32 = 32 ∨ (Rect.block (s := S8192x64) S512x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8192x64.size a ≤ S8192x64.size a
  hwx2_3 : ∀ i : grid2.Coords, EltTy.bits .f32 = 32 ∨ (Rect.block (s := S8192x64) S8192x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x8192.size a ≤ S1x8192.size a
  hwx2_4 : ∀ i : grid2.Coords, EltTy.bits .f32 = 32 ∨ (Rect.block (s := S1x8192) S1x8192.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8192x64.size a ≤ S8192x64.size a
  hwx2_5 : ∀ i : grid2.Coords, EltTy.bits .f32 = 32 ∨ (Rect.block (s := S8192x64) S8192x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x64.size a ≤ S8192x64.size a
  hwx2_6 : ∀ i : grid2.Coords, EltTy.bits .f32 = 32 ∨ (Rect.block (s := S8192x64) S512x64.size (cc2_transform_6 i) (hinb2_6 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S8192x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x8192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0) S8192x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S512x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg0) S512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S8192x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x8192.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11) S8192x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S512x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S8192x64 : Shape := ⟨2, ![8192, 64]⟩
abbrev S2x64x64 : Shape := ⟨3, ![2, 64, 64]⟩
abbrev S2x64 : Shape := ⟨2, ![2, 64]⟩
abbrev S2x8192x64 : Shape := ⟨3, ![2, 8192, 64]⟩
abbrev S2x8192 : Shape := ⟨2, ![2, 8192]⟩
abbrev S8192x8192 : Shape := ⟨2, ![8192, 8192]⟩
abbrev S_ : Shape := ⟨0, ![]⟩
abbrev S8192x1 : Shape := ⟨2, ![8192, 1]⟩
abbrev S8192x8191 : Shape := ⟨2, ![8192, 8191]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1x8192x64 : Shape := ⟨3, ![1, 8192, 64]⟩
abbrev S64x8192 : Shape := ⟨2, ![64, 8192]⟩
abbrev S1x8192 : Shape := ⟨2, ![1, 8192]⟩
abbrev S8192 : Shape := ⟨1, ![8192]⟩

abbrev nBuf : Space → Nat
  | .hbm => 97
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S2x64x64, .f32⟩
  | .hbm, ⟨2, _⟩ => ⟨S2x64, .f32⟩
  | .hbm, ⟨3, _⟩ => ⟨S2x64x64, .f32⟩
  | .hbm, ⟨4, _⟩ => ⟨S2x64, .f32⟩
  | .hbm, ⟨5, _⟩ => ⟨S2x8192x64, .f32⟩
  | .hbm, ⟨6, _⟩ => ⟨S2x8192, .f32⟩
  | .hbm, ⟨7, _⟩ => ⟨S8192x8192, .i32⟩
  | .hbm, ⟨8, _⟩ => ⟨S8192x8192, .i32⟩
  | .hbm, ⟨9, _⟩ => ⟨S_, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S8192x8192, .f32⟩
  | .hbm, ⟨14, _⟩ => ⟨S8192x1, .f32⟩
  | .hbm, ⟨15, _⟩ => ⟨S8192x8191, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S1x64x64, .f32⟩
  | .hbm, ⟨22, _⟩ => ⟨S64x64, .f32⟩
  | .hbm, ⟨23, _⟩ => ⟨S64x64, .f32⟩
  | .hbm, ⟨24, _⟩ => ⟨S8192x64, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S8192x64, .f32⟩
  | .hbm, ⟨29, _⟩ => ⟨S8192x64, .f32⟩
  | .hbm, ⟨30, _⟩ => ⟨S_, .f32⟩
  | .hbm, ⟨31, _⟩ => ⟨S8192x64, .f32⟩
  | .hbm, ⟨32, _⟩ => ⟨S8192x64, .f32⟩
  | .hbm, ⟨33, _⟩ => ⟨S1x64x64, .f32⟩
  | .hbm, ⟨34, _⟩ => ⟨S64x64, .f32⟩
  | .hbm, ⟨35, _⟩ => ⟨S64x64, .f32⟩
  | .hbm, ⟨36, _⟩ => ⟨S8192x64, .f32⟩
  | .hbm, ⟨37, _⟩ => ⟨S1x64, .f32⟩
  | .hbm, ⟨38, _⟩ => ⟨S64, .f32⟩
  | .hbm, ⟨39, _⟩ => ⟨S1x64, .f32⟩
  | .hbm, ⟨40, _⟩ => ⟨S8192x64, .f32⟩
  | .hbm, ⟨41, _⟩ => ⟨S8192x64, .f32⟩
  | .hbm, ⟨42, _⟩ => ⟨S_, .f32⟩
  | .hbm, ⟨43, _⟩ => ⟨S8192x64, .f32⟩
  | .hbm, ⟨44, _⟩ => ⟨S8192x64, .f32⟩
  | .hbm, ⟨45, _⟩ => ⟨S1x64x64, .f32⟩
  | .hbm, ⟨46, _⟩ => ⟨S64x64, .f32⟩
  | .hbm, ⟨47, _⟩ => ⟨S64x64, .f32⟩
  | .hbm, ⟨48, _⟩ => ⟨S8192x64, .f32⟩
  | .hbm, ⟨49, _⟩ => ⟨S1x64, .f32⟩
  | .hbm, ⟨50, _⟩ => ⟨S64, .f32⟩
  | .hbm, ⟨51, _⟩ => ⟨S1x64, .f32⟩
  | .hbm, ⟨52, _⟩ => ⟨S8192x64, .f32⟩
  | .hbm, ⟨53, _⟩ => ⟨S8192x64, .f32⟩
  | .hbm, ⟨54, _⟩ => ⟨S_, .f32⟩
  | .hbm, ⟨55, _⟩ => ⟨S8192x64, .f32⟩
  | .hbm, ⟨56, _⟩ => ⟨S8192x64, .f32⟩
  | .hbm, ⟨57, _⟩ => ⟨S1x8192x64, .f32⟩
  | .hbm, ⟨58, _⟩ => ⟨S8192x64, .f32⟩
  | .hbm, ⟨59, _⟩ => ⟨S64x8192, .f32⟩
  | .hbm, ⟨60, _⟩ => ⟨S8192x8192, .f32⟩
  | .hbm, ⟨61, _⟩ => ⟨S1x8192, .f32⟩
  | .hbm, ⟨62, _⟩ => ⟨S8192, .f32⟩
  | .hbm, ⟨63, _⟩ => ⟨S1x8192, .f32⟩
  | .hbm, ⟨64, _⟩ => ⟨S8192x8192, .f32⟩
  | .hbm, ⟨65, _⟩ => ⟨S8192x8192, .f32⟩
  | .hbm, ⟨66, _⟩ => ⟨S_, .f32⟩
  | .hbm, ⟨67, _⟩ => ⟨S8192x8192, .f32⟩
  | .hbm, ⟨68, _⟩ => ⟨S8192x8192, .f32⟩
  | .hbm, ⟨69, _⟩ => ⟨S8192x8192, .f32⟩
  | .hbm, ⟨70, _⟩ => ⟨S8192x64, .f32⟩
  | .hbm, ⟨71, _⟩ => ⟨S1x64x64, .f32⟩
  | .hbm, ⟨72, _⟩ => ⟨S64x64, .f32⟩
  | .hbm, ⟨73, _⟩ => ⟨S64x64, .f32⟩
  | .hbm, ⟨74, _⟩ => ⟨S8192x64, .f32⟩
  | .hbm, ⟨75, _⟩ => ⟨S1x64, .f32⟩
  | .hbm, ⟨76, _⟩ => ⟨S64, .f32⟩
  | .hbm, ⟨77, _⟩ => ⟨S1x64, .f32⟩
  | .hbm, ⟨78, _⟩ => ⟨S8192x64, .f32⟩
  | .hbm, ⟨79, _⟩ => ⟨S8192x64, .f32⟩
  | .hbm, ⟨80, _⟩ => ⟨S_, .f32⟩
  | .hbm, ⟨81, _⟩ => ⟨S8192x64, .f32⟩
  | .hbm, ⟨82, _⟩ => ⟨S8192x64, .f32⟩
  | .hbm, ⟨83, _⟩ => ⟨S1x8192x64, .f32⟩
  | .hbm, ⟨84, _⟩ => ⟨S8192x64, .f32⟩
  | .hbm, ⟨85, _⟩ => ⟨S64x8192, .f32⟩
  | .hbm, ⟨86, _⟩ => ⟨S8192x8192, .f32⟩
  | .hbm, ⟨87, _⟩ => ⟨S1x8192, .f32⟩
  | .hbm, ⟨88, _⟩ => ⟨S8192, .f32⟩
  | .hbm, ⟨89, _⟩ => ⟨S1x8192, .f32⟩
  | .hbm, ⟨90, _⟩ => ⟨S8192x8192, .f32⟩
  | .hbm, ⟨91, _⟩ => ⟨S8192x8192, .f32⟩
  | .hbm, ⟨92, _⟩ => ⟨S_, .f32⟩
  | .hbm, ⟨93, _⟩ => ⟨S8192x8192, .f32⟩
  | .hbm, ⟨94, _⟩ => ⟨S8192x8192, .f32⟩
  | .hbm, ⟨95, _⟩ => ⟨S8192x8192, .f32⟩
  | .hbm, ⟨96, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call1_cst : Ref sig .tc := ⟨.hbm, 30, rfl⟩
abbrev main_call1_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call2_cst : Ref sig .tc := ⟨.hbm, 42, rfl⟩
abbrev main_call2_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call3_cst : Ref sig .tc := ⟨.hbm, 54, rfl⟩
abbrev main_call3_v0 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call4_cst : Ref sig .tc := ⟨.hbm, 66, rfl⟩
abbrev main_call4_v0 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_call5_cst : Ref sig .tc := ⟨.hbm, 80, rfl⟩
abbrev main_call5_v0 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_call6_cst : Ref sig .tc := ⟨.hbm, 92, rfl⟩
abbrev main_call6_v0 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  slices_S8192x8192_S8192x1_0_8191 : S8192x8192.Slices ![0, 8191] S8192x1
  slices_S8192x8192_S8192x8191_0_0 : S8192x8192.Slices ![0, 0] S8192x8191
  concatenates_S8192x1_S8192x8191_S8192x8192_d1 : Shape.Concatenates [S8192x1, S8192x8191] S8192x8192 1
  slices_S2x64x64_S1x64x64_0_0_0 : S2x64x64.Slices ![0, 0, 0] S1x64x64
  shapeCasts_S1x64x64_S64x64 : S1x64x64.ShapeCasts S64x64
  transposes_S64x64_S64x64_1_0 : S64x64.Transposes [1, 0] S64x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  slices_S2x64x64_S1x64x64_1_0_0 : S2x64x64.Slices ![1, 0, 0] S1x64x64
  slices_S2x64_S1x64_1_0 : S2x64.Slices ![1, 0] S1x64
  slices_S2x8192x64_S1x8192x64_0_0_0 : S2x8192x64.Slices ![0, 0, 0] S1x8192x64
  shapeCasts_S1x8192x64_S8192x64 : S1x8192x64.ShapeCasts S8192x64
  transposes_S8192x64_S64x8192_1_0 : S8192x64.Transposes [1, 0] S64x8192
  slices_S2x8192_S1x8192_0_0 : S2x8192.Slices ![0, 0] S1x8192
  shapeCasts_S1x8192_S8192 : S1x8192.ShapeCasts S8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S2x8192x64_S1x8192x64_1_0_0 : S2x8192x64.Slices ![1, 0, 0] S1x8192x64
  slices_S2x8192_S1x8192_1_0 : S2x8192.Slices ![1, 0] S1x8192
  dot_S8192x64_S64x64_S8192x64_1_0_0_1_n_n_wf : DotDims.WF S8192x64 S64x64 S8192x64 [1] [0] [0] [1] [] []
  dot_S8192x64_S64x8192_S8192x8192_1_0_0_1_n_n_wf : DotDims.WF S8192x64 S64x8192 S8192x8192 [1] [0] [0] [1] [] []
  dot_S8192x8192_S8192x64_S8192x64_1_0_0_1_n_n_wf : DotDims.WF S8192x8192 S8192x64 S8192x64 [1] [0] [0] [1] [] []

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.KRun.lean ====
/-
  The idealized kernel's run with its result array NAMED: every weakly fair execution of the three regions and the
  host operations between them terminates, nothing faults, the seven argument arrays end as launched, and the result
  buffer ends at what the last region's write-backs leave in it — the last stage of the fold of buffer contents through
  the program's segments.
-/
import proofs.«102228_j3375844295380_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the segments from the launch memory, read at the result buffer and at the arguments: the thread state
    after the last region holds every unscoped buffer at the last stage of the fold, and the final state is read
    against it. -/
theorem run_named : θ_run defs (onTc (τ := τ) (main (F := F))) ⟨m, fun _ => 0, ρ⟩ (fun r => ∀ c : Dev nD,
      r.2.mem ((c.tc : Thread nD τ).loc main_v22) = W5 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v22 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Named

end
-- ==== Proof.ChordSpec.lean ====
/-
  The function both programs compute, over the extended reals, with every array written as a
  function of its coordinates.

  * `dense x w b` is one linear layer followed by a rectifier: row `r`, column `h` holds
    `max (∑ k, x r k * w h k + b h) 0`.
  * `chord S V` is the product of a score matrix `S`, masked to its diagonal and its cyclic
    superdiagonal, with `V`: only two entries of a row of the mask are one — column `r` and
    column `(r + 1) mod 8192` — so row `r` of the product is
    `S r r * V r h + S r (r+1) * V (r+1) h`.
  * `layer` builds the score matrix by two dense layers from `X` and applies `chord`.
  * `net` is two dense layers on `X` followed by two `layer`s.
-/
import Idealize.ShloMosaic.PureOps.Ideal
import Idealize.ShloMosaic.Lib.ValueIdx

noncomputable section

open scoped BigOperators

namespace Cert.Chord

open Idealize.ShloMosaic Idealize.ShloMosaic.ValueIdx

/-- A linear layer followed by a rectifier. -/
def dense {R K H : Nat} (x : Fin R → Fin K → EReal) (w : Fin H → Fin K → EReal) (b : Fin H → EReal) :
    Fin R → Fin H → EReal :=
  fun r h => max ((∑ k : Fin K, x r k * w h k) + b h) 0

/-- The cyclic successor of a row number. -/
def nxt (r : Fin 8192) : Fin 8192 := ⟨(r.val + 1) % 8192, Nat.mod_lt _ (by norm_num)⟩

theorem nxt_val (r : Fin 8192) : (nxt r).val = (r.val + 1) % 8192 := rfl

theorem nxt_ne (r : Fin 8192) : nxt r ≠ r := by
  intro h
  have h' := congrArg Fin.val h
  rw [nxt_val] at h'
  have := r.isLt
  omega

/-- A score matrix masked to the diagonal and the cyclic superdiagonal, times `V`. -/
def chord (S : Fin 8192 → Fin 8192 → EReal) (V : Fin 8192 → Fin 64 → EReal) : Fin 8192 → Fin 64 → EReal :=
  fun r h => S r r * V r h + S r (nxt r) * V (nxt r) h

/-- One chord layer: the scores are two dense layers of `X`. -/
def layer (X : Fin 8192 → Fin 64 → EReal) (f0w : Fin 64 → Fin 64 → EReal) (f0b : Fin 64 → EReal)
    (flw : Fin 8192 → Fin 64 → EReal) (flb : Fin 8192 → EReal) (V : Fin 8192 → Fin 64 → EReal) :
    Fin 8192 → Fin 64 → EReal :=
  chord (dense (dense X f0w f0b) flw flb) V

/-- The value stack: two dense layers of `X`. -/
def stack (X : Fin 8192 → Fin 64 → EReal) (gw : Fin 2 → Fin 64 → Fin 64 → EReal) (gb : Fin 2 → Fin 64 → EReal) :
    Fin 8192 → Fin 64 → EReal :=
  dense (dense X (gw 0) (gb 0)) (gw 1) (gb 1)

/-- The whole network. -/
def net (X : Fin 8192 → Fin 64 → EReal) (gw : Fin 2 → Fin 64 → Fin 64 → EReal) (gb : Fin 2 → Fin 64 → EReal)
    (f0w : Fin 2 → Fin 64 → Fin 64 → EReal) (f0b : Fin 2 → Fin 64 → EReal)
    (flw : Fin 2 → Fin 8192 → Fin 64 → EReal) (flb : Fin 2 → Fin 8192 → EReal) : Fin 8192 → Fin 64 → EReal :=
  layer X (f0w 1) (f0b 1) (flw 1) (flb 1) (layer X (f0w 0) (f0b 0) (flw 0) (flb 0) (stack X gw gb))

/-! ## Arrays as functions of their coordinates -/

/-- A rank-2 array by its coordinates. -/
def cur2 {a b : Nat} (x : (⟨2, ![a, b]⟩ : Shape).Idx → EReal) : Fin a → Fin b → EReal := fun p q => x (ix2 p q)
/-- A rank-3 array by its coordinates. -/
def cur3 {a b c : Nat} (x : (⟨3, ![a, b, c]⟩ : Shape).Idx → EReal) : Fin a → Fin b → Fin c → EReal :=
  fun p q s => x (ix3 p q s)

/-- A function of two coordinates as a rank-2 array. -/
def arr2 {a b : Nat} (f : Fin a → Fin b → EReal) : (⟨2, ![a, b]⟩ : Shape).Idx → EReal := fun i => f (i 0) (i 1)

theorem arr2_ix2 {a b : Nat} (f : Fin a → Fin b → EReal) (p : Fin a) (q : Fin b) : arr2 f (ix2 p q) = f p q := rfl

/-- The network of the seven argument arrays, read at an index of the result. -/
def G (x0 : (⟨2, ![8192, 64]⟩ : Shape).Idx → EReal) (x1 : (⟨3, ![2, 64, 64]⟩ : Shape).Idx → EReal)
    (x2 : (⟨2, ![2, 64]⟩ : Shape).Idx → EReal) (x3 : (⟨3, ![2, 64, 64]⟩ : Shape).Idx → EReal)
    (x4 : (⟨2, ![2, 64]⟩ : Shape).Idx → EReal) (x5 : (⟨3, ![2, 8192, 64]⟩ : Shape).Idx → EReal)
    (x6 : (⟨2, ![2, 8192]⟩ : Shape).Idx → EReal) : (⟨2, ![8192, 64]⟩ : Shape).Idx → EReal :=
  fun i => net (cur2 x0) (cur3 x1) (cur2 x2) (cur3 x3) (cur2 x4) (cur3 x5) (cur2 x6) (i 0) (i 1)

theorem G_ix2 (x0 x1 x2 x3 x4 x5 x6) (r : Fin 8192) (h : Fin 64) :
    G x0 x1 x2 x3 x4 x5 x6 (ix2 r h) = net (cur2 x0) (cur3 x1) (cur2 x2) (cur3 x3) (cur2 x4) (cur3 x5) (cur2 x6) r h := rfl

/-! ## A sum with two live terms -/

/-- A sum over the rows all of whose terms vanish except at `a` and `b ≠ a`. -/
theorem sum_two {n : Nat} (f : Fin n → EReal) (a b : Fin n) (hab : a ≠ b)
    (h0 : ∀ j, j ≠ a → j ≠ b → f j = 0) : ∑ j : Fin n, f j = f a + f b :=
  Finset.sum_eq_add a b hab (fun c _ hc => h0 c hc.1 hc.2) (fun h => absurd (Finset.mem_univ _) h)
    (fun h => absurd (Finset.mem_univ _) h)

/-- A sum over the rows all of whose terms vanish except at `a`. -/
theorem sum_one {n : Nat} (f : Fin n → EReal) (a : Fin n) (h0 : ∀ j, j ≠ a → f j = 0) : ∑ j : Fin n, f j = f a :=
  Finset.sum_eq_single a (fun c _ hc => h0 c hc) (fun h => absurd (Finset.mem_univ _) h)

end Cert.Chord

end
-- ==== Proof.KStackPay.lean ====
/-
  One row tile of the value stack, read entry by entry.

  The tile program takes a block of 1024 rows of the input, the two weight matrices (each stored with a leading unit
  axis) and the two bias rows, and applies twice: contract the rows against the transposed weight matrix, add the bias
  row to every row, and take the maximum with zero. Over the extended reals the narrowing of the operands is the identity
  and the contraction is a plain finite sum, so the tile's entry (p, h) is the two-layer rectified linear map of
  ChordSpec at (p, h).
-/
import proofs.«102228_j3375844295380_2_alg».proof.Proof.Gen.KernelIdeal.Skeleton
import proofs.«102228_j3375844295380_2_alg».proof.Proof.ChordSpec
import Idealize.ShloMosaic.PureOps.Ideal.Laws
import Idealize.ShloMosaic.Lib.ValueIdx
import Idealize.ShloMosaic.Lib.ValueLayout

noncomputable section

open scoped BigOperators

namespace Cert.KStack

open Idealize.ShloMosaic Idealize.ShloMosaic.ValueIdx
open Cert.KernelIdeal Cert.KernelIdeal.Gen

/-- The contraction record of the tile's two products: rows of a 1024 × 64 block against rows of a 64 × 64 matrix
    already transposed, one contracted axis of extent 64. -/
abbrev D := dot_S1024x64_S64x64_S1024x64_1_0_0_1_n_n

/-- The left operand's row is the output's row: axis 0 of the left operand is not contracted. -/
theorem lhs_row (i : S1024x64.Idx) (q : D.contr.Idx) : (D.lhsIdx i q 0).val = (i 0).val := by
  unfold DotDims.lhsIdx
  rw [dif_neg (show ¬(0 : Fin S1024x64.rank) ∈ D.lhsBatch by decide), dif_pos (show (0 : Fin S1024x64.rank) ∈ D.lhsNonContracting by decide)]
  rfl

/-- The right operand's column is the output's column: axis 1 of the right operand is not contracted. -/
theorem rhs_col (i : S1024x64.Idx) (q : D.contr.Idx) : (D.rhsIdx i q 1).val = (i 1).val := by
  unfold DotDims.rhsIdx
  rw [dif_neg (show ¬(1 : Fin S64x64.rank) ∈ D.rhsBatch by decide), dif_pos (show (1 : Fin S64x64.rank) ∈ D.rhsNonContracting by decide)]
  rfl

/-- The left operand's index: row of the output, contracted coordinate. -/
theorem lhs_ix (p : Fin 1024) (h : Fin 64) (k : Fin 64) :
    D.lhsIdx (ix2 p h) ((contrEquiv1 D 64 rfl rfl).symm k) = ix2 p k := by
  funext a
  apply Fin.ext
  match a with
  | ⟨0, _⟩ => exact lhs_row _ _
  | ⟨1, _⟩ => exact (D.lhsIdx_val_of_single rfl (ix2 p h) _).trans (contrEquiv1_symm_val D 64 rfl rfl k)

/-- The right operand's index: contracted coordinate, column of the output. -/
theorem rhs_ix (p : Fin 1024) (h : Fin 64) (k : Fin 64) :
    D.rhsIdx (ix2 p h) ((contrEquiv1 D 64 rfl rfl).symm k) = ix2 k h := by
  funext a
  apply Fin.ext
  match a with
  | ⟨0, _⟩ => exact (D.rhsIdx_val_of_single rfl (ix2 p h) _).trans (contrEquiv1_symm_val D 64 rfl rfl k)
  | ⟨1, _⟩ => exact rhs_col _ _

/-- One layer of the tile program as a function of its three operands. -/
def tileLayer (x : FVec Ideal S1024x64 .f32) (w : FVec Ideal S1x64x64 .f32) (b : FVec Ideal S1x64 .f32) : FVec Ideal S1024x64 .f32 :=
  maximumf
    (addf
      (matmul D none (truncf .bf16 x bitsLt_bf16_f32)
        (transpose S64x64 [1, 0] (truncf .bf16 (shapeCast S64x64 w shapeCasts_S1x64x64_S64x64) bitsLt_bf16_f32) transposes_S64x64_p1_0_S64x64)
        (constant (F := Ideal) S1024x64 .f32 0x00000000#32))
      (broadcastTo S1024x64 (shapeCast S1x64 (shapeCast S64 b shapeCasts_S1x64_S64) shapeCasts_S64_S1x64) broadcasts_S1x64_S1024x64))
    (broadcast S1024x64 (Scalar.ofBits (F := Ideal) .f32 0x00000000#32))

/-- The product of a block with the transposed weight matrix, at an entry: the sum over the 64 contracted coordinates. -/
theorem product_apply (x : FVec Ideal S1024x64 .f32) (w : FVec Ideal S1x64x64 .f32) (p : Fin 1024) (h : Fin 64) :
    matmul D none (truncf .bf16 x bitsLt_bf16_f32)
        (transpose S64x64 [1, 0] (truncf .bf16 (shapeCast S64x64 w shapeCasts_S1x64x64_S64x64) bitsLt_bf16_f32) transposes_S64x64_p1_0_S64x64)
        (constant (F := Ideal) S1024x64 .f32 0x00000000#32) (ix2 p h)
      = ∑ k : Fin 64, x (ix2 p k) * w (ix3 (0 : Fin 1) h k) := by
  refine (Ideal.matmul_constant_zero_apply D none _ _ (ix2 p h)).trans ?_
  rw [← Equiv.sum_comp (contrEquiv1 D 64 rfl rfl).symm]
  refine Finset.sum_congr rfl fun k _ => ?_
  rw [lhs_ix p h k, rhs_ix p h k]
  refine congrArg (x (ix2 p k) * ·) ?_
  refine (transpose_ix2_apply (truncf .bf16 (shapeCast S64x64 w shapeCasts_S1x64x64_S64x64) bitsLt_bf16_f32) transposes_S64x64_p1_0_S64x64 k h).trans ?_
  exact shapeCast_1ab_ab_apply w shapeCasts_S1x64x64_S64x64 h k

/-- The bias row spread over the block, at an entry: the bias of the column. -/
theorem bias_apply (b : FVec Ideal S1x64 .f32) (p : Fin 1024) (h : Fin 64) :
    broadcastTo S1024x64 (shapeCast S1x64 (shapeCast S64 b shapeCasts_S1x64_S64) shapeCasts_S64_S1x64) broadcasts_S1x64_S1024x64 (ix2 p h)
      = b (ix2 (0 : Fin 1) h) := by
  refine (broadcastTo_1b_ab_apply _ broadcasts_S1x64_S1024x64 p h).trans ?_
  refine (shapeCast_a_1a_apply _ shapeCasts_S64_S1x64 (0 : Fin 1) h).trans ?_
  exact shapeCast_1a_a_apply b shapeCasts_S1x64_S64 h

/-- One layer of the tile program at an entry is the rectified linear map. -/
theorem tileLayer_apply (x : FVec Ideal S1024x64 .f32) (w : FVec Ideal S1x64x64 .f32) (b : FVec Ideal S1x64 .f32) (p : Fin 1024) (h : Fin 64) :
    tileLayer x w b (ix2 p h)
      = Chord.dense (fun r k => x (ix2 r k)) (fun a k => w (ix3 (0 : Fin 1) a k)) (fun a => b (ix2 (0 : Fin 1) a)) p h := by
  unfold tileLayer Chord.dense
  show max (_ + _) (Ideal.ofBits .f32 0x00000000#32) = _
  rw [Ideal.ofBits_zero_f32, product_apply, bias_apply]

/-- The tile program is two layers, the second on the first's result. -/
theorem pay_eq_layers (x0 : Vec Ideal S1024x64 .f32) (w0 : Vec Ideal S1x64x64 .f32) (b0 : Vec Ideal S1x64 .f32)
    (w1 : Vec Ideal S1x64x64 .f32) (b1 : Vec Ideal S1x64 .f32) :
    k0_pay1 (F := Ideal) x0 w0 b0 w1 b1 = tileLayer (tileLayer x0 w0 b0) w1 b1 := rfl

/-- THE TILE AT AN ENTRY: the two-layer rectified linear map of the block's rows. -/
theorem pay_apply (x0 : Vec Ideal S1024x64 .f32) (w0 : Vec Ideal S1x64x64 .f32) (b0 : Vec Ideal S1x64 .f32)
    (w1 : Vec Ideal S1x64x64 .f32) (b1 : Vec Ideal S1x64 .f32) (p : Fin 1024) (h : Fin 64) :
    k0_pay1 (F := Ideal) x0 w0 b0 w1 b1 (ix2 p h)
      = Chord.dense (Chord.dense (fun r k => x0 (ix2 r k)) (fun a k => w0 (ix3 (0 : Fin 1) a k)) (fun a => b0 (ix2 (0 : Fin 1) a)))
          (fun a k => w1 (ix3 (0 : Fin 1) a k)) (fun a => b1 (ix2 (0 : Fin 1) a)) p h := by
  rw [pay_eq_layers]
  refine (tileLayer_apply (tileLayer x0 w0 b0) w1 b1 p h).trans ?_
  refine congrArg (fun f => Chord.dense f (fun a k => w1 (ix3 (0 : Fin 1) a k)) (fun a => b1 (ix2 (0 : Fin 1) a)) p h) ?_
  funext r k
  exact tileLayer_apply x0 w0 b0 r k

end Cert.KStack

end
-- ==== Proof.KStackTile.lean ====
/-
  One row tile of the value stack against the whole arrays.

  The tile's five loads are the whole input block, the two slices of the weight array and the two rows of the bias
  array. A row of a rectified linear layer depends only on the same row of its input, so if row p of the input block is
  row r of the input array, entry (p, h) of the tile's result is entry (r, h) of the value stack of the whole arrays.
-/
import proofs.«102228_j3375844295380_2_alg».proof.Proof.Gen.KernelIdeal.Frame
import proofs.«102228_j3375844295380_2_alg».proof.Proof.ChordSpec
import proofs.«102228_j3375844295380_2_alg».proof.Proof.KStackPay
import Idealize.ShloMosaic.Lib.Pipeline.Value

set_option maxRecDepth 16384

noncomputable section

open scoped BigOperators

namespace Cert.KStack

open Idealize.ShloMosaic Idealize.ShloMosaic.TcCoe Idealize.ShloMosaic.ValueIdx
open Idealize.ShloMosaic.Pipeline (Dat)
open Cert.KernelIdeal Cert.KernelIdeal.Gen

/-! ## A row of a layer depends on the same row of its input -/

theorem dense_row {R R' K H : Nat} (x : Fin R → Fin K → EReal) (x' : Fin R' → Fin K → EReal)
    (w : Fin H → Fin K → EReal) (b : Fin H → EReal) (r : Fin R) (r' : Fin R') (h : Fin H)
    (e : ∀ k, x r k = x' r' k) : Chord.dense x w b r h = Chord.dense x' w b r' h := by
  unfold Chord.dense
  exact congrArg (fun s => max (s + b h) 0) (Finset.sum_congr rfl fun k _ => by rw [e k])

/-! ## The tile's loads -/

theorem zero_offsets : (![0, 0] : Fin 2 → Nat) = fun _ => 0 := funext fun a => by fin_cases a <;> rfl

/-- The first weight matrix is slice 0 of the weight array. -/
theorem ld_w0 (W : Vec Ideal S2x64x64 .f32) :
    (fun (a : Fin 64) (k : Fin 64) => View.ld W r0_1 (ix3 (0 : Fin 1) a k)) = Chord.cur3 W 0 := by
  funext a k
  show W _ = W _
  refine congrArg W (funext fun ax => Fin.ext ?_)
  match ax with
  | ⟨0, _⟩ => rfl
  | ⟨1, _⟩ => show 0 + 1 * a.val = a.val; omega
  | ⟨2, _⟩ => show 0 + 1 * k.val = k.val; omega

/-- The second weight matrix is slice 1 of the weight array. -/
theorem ld_w1 (W : Vec Ideal S2x64x64 .f32) :
    (fun (a : Fin 64) (k : Fin 64) => View.ld W r0_3 (ix3 (0 : Fin 1) a k)) = Chord.cur3 W 1 := by
  funext a k
  show W _ = W _
  refine congrArg W (funext fun ax => Fin.ext ?_)
  match ax with
  | ⟨0, _⟩ => rfl
  | ⟨1, _⟩ => show 0 + 1 * a.val = a.val; omega
  | ⟨2, _⟩ => show 0 + 1 * k.val = k.val; omega

/-- The first bias row is row 0 of the bias array. -/
theorem ld_b0 (B : Vec Ideal S2x64 .f32) :
    (fun (a : Fin 64) => View.ld B r0_2 (ix2 (0 : Fin 1) a)) = Chord.cur2 B 0 := by
  funext a
  show B _ = B _
  refine congrArg B (funext fun ax => Fin.ext ?_)
  match ax with
  | ⟨0, _⟩ => rfl
  | ⟨1, _⟩ => show 0 + 1 * a.val = a.val; omega

/-- The second bias row is row 1 of the bias array. -/
theorem ld_b1 (B : Vec Ideal S2x64 .f32) :
    (fun (a : Fin 64) => View.ld B r0_4 (ix2 (0 : Fin 1) a)) = Chord.cur2 B 1 := by
  funext a
  show B _ = B _
  refine congrArg B (funext fun ax => Fin.ext ?_)
  match ax with
  | ⟨0, _⟩ => rfl
  | ⟨1, _⟩ => show 0 + 1 * a.val = a.val; omega

/-! ## One entry of one tile -/

/-- If row p of the tile's input block is row r of the input array, entry (p, h) of the tile's result is entry (r, h)
    of the value stack of the whole arrays. -/
theorem tile_entry (X : Vec Ideal S8192x64 .f32) (W : Vec Ideal S2x64x64 .f32) (B : Vec Ideal S2x64 .f32)
    (x0 : Vec Ideal S1024x64 .f32) (r : Fin 8192) (p : Fin 1024) (h : Fin 64)
    (hx : ∀ k : Fin 64, x0 (ix2 p k) = X (ix2 r k)) :
    k0_pay1 (F := Ideal) (View.ld x0 r0_0) (View.ld W r0_1) (View.ld B r0_2) (View.ld W r0_3) (View.ld B r0_4) (ix2 p h)
      = Chord.stack (Chord.cur2 X) (Chord.cur3 W) (Chord.cur2 B) r h := by
  refine (pay_apply _ _ _ _ _ p h).trans ?_
  rw [ld_w0, ld_w1, ld_b0, ld_b1, View.ld_unit_zero (S := S1024x64) zero_offsets]
  unfold Chord.stack
  refine dense_row _ _ _ _ p r h fun k => ?_
  refine dense_row _ _ _ _ p r k fun k' => ?_
  exact hx k'

/-- The same with the tile's entry and the array's index given by their coordinates' values: the array's row is
    1024 · q + the tile's row. -/
theorem tile_point (X : Vec Ideal S8192x64 .f32) (W : Vec Ideal S2x64x64 .f32) (B : Vec Ideal S2x64 .f32)
    (x0 : Vec Ideal S1024x64 .f32) (x1 : Vec Ideal S2x64x64 .f32) (x2 : Vec Ideal S2x64 .f32) (q : Nat)
    (h0 : ∀ (y : S1024x64.Idx) (k : S8192x64.Idx), (k 0).val = q * 1024 + (y 0).val → (k 1).val = (y 1).val → x0 y = X k)
    (h1 : x1 = W) (h2 : x2 = B) (j : S1024x64.Idx) (i : S8192x64.Idx)
    (hi0 : (i 0).val = q * 1024 + (j 0).val) (hi1 : (i 1).val = (j 1).val) :
    k0_pay1 (F := Ideal) (View.ld x0 r0_0) (View.ld x1 r0_1) (View.ld x2 r0_2) (View.ld x1 r0_3) (View.ld x2 r0_4) j
      = Chord.arr2 (Chord.stack (Chord.cur2 X) (Chord.cur3 W) (Chord.cur2 B)) i := by
  subst h1 h2
  obtain ⟨p, h, rfl⟩ : ∃ (p : Fin 1024) (h : Fin 64), j = ix2 p h := ⟨j 0, j 1, eq_ix2 j⟩
  obtain ⟨r, h', rfl⟩ : ∃ (r : Fin 8192) (h' : Fin 64), i = ix2 r h' := ⟨i 0, i 1, eq_ix2 i⟩
  obtain rfl : h = h' := (Fin.ext hi1).symm
  rw [Chord.arr2_ix2]
  exact tile_entry X x1 x2 x0 r p h fun k => h0 (ix2 p k) (ix2 r k) hi0 rfl

end Cert.KStack

end
-- ==== Proof.KStack.lean ====
/-
  The value stack after the first region, as one function of the three arrays the region reads.

  The region walks eight row tiles of 1024 rows. At tile t it reads rows 1024·t … 1024·t + 1023 of the input, the whole
  weight array and the whole bias array, computes the two-layer rectified linear map of those rows and writes the result
  back to the same rows of the output. A row of the two-layer map depends only on the same row of the input, so every
  tile's result is the restriction to its rows of ONE whole-array function — the value stack of ChordSpec — and, the
  eight tiles covering all 8192 rows, the output array ends holding that function whatever it held before.
-/
import proofs.«102228_j3375844295380_2_alg».proof.Proof.Gen.KernelIdeal.Frame
import proofs.«102228_j3375844295380_2_alg».proof.Proof.ChordSpec
import proofs.«102228_j3375844295380_2_alg».proof.Proof.KStackTile
import Idealize.ShloMosaic.Lib.Pipeline.Value

set_option maxRecDepth 16384

noncomputable section

open scoped BigOperators

namespace Cert.KStack

open Idealize.ShloMosaic Idealize.ShloMosaic.TcCoe Idealize.ShloMosaic.ValueIdx
open Idealize.ShloMosaic.Pipeline (Dat)
open Cert.KernelIdeal Cert.KernelIdeal.Gen

/-! ## The tiles' places in the arrays -/

/-- The block numbers of the four windows at grid point t: the input and the output move with t along the rows, the
    weight and bias arrays are read whole; there are eight points. -/
theorem block_numbers : ∀ t : Fin cfg0.N, t.val < 8
    ∧ win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block of rows is some grid point's. -/
theorem blocks_onto : ∀ q : Fin 8, ∃ t : Fin cfg0.N, win0_3.index t = ![q.val, 0] :=
  (by decide +kernel : ∀ q : Fin 8, ∃ t : Fin grid0.N, win0_3.index t = ![q.val, 0])

section Region
variable (V : (c : Dev nD) → (b : Ref sig .tc) → Buf (Elt Ideal) ((c : Thread nD τ).loc b))

/-- The input window's block at point t is rows 1024·t … 1024·t + 1023 of the input array. -/
theorem iblk_x (c : Dev nD) (t : Fin cfg0.N) (y : S1024x64.Idx) (k : S8192x64.Idx)
    (hk0 : (k 0).val = t.val * 1024 + (y 0).val) (hk1 : (k 1).val = (y 1).val) :
    (iblk0 V c 0 t : Vec Ideal S1024x64 .f32) y = (V c main_arg0 : Vec Ideal S8192x64 .f32) k := by
  obtain ⟨-, e00, e01, -⟩ := block_numbers t
  unfold iblk0
  rw [View.read_apply]
  show V c main_arg0 _ = V c main_arg0 _
  congr 1
  funext a
  apply Fin.ext
  match a with
  | ⟨0, _⟩ => show win0_0.index t 0 * 1024 + 1 * (y 0).val = (k 0).val; rw [e00, hk0]; omega
  | ⟨1, _⟩ => show win0_0.index t 1 * 64 + 1 * (y 1).val = (k 1).val; rw [e01, hk1]; omega

/-- The weight window's block at any point is the whole weight array. -/
theorem iblk_w (c : Dev nD) (t : Fin cfg0.N) :
    (iblk0 V c 1 t : Vec Ideal S2x64x64 .f32) = (V c main_arg1 : Vec Ideal S2x64x64 .f32) := by
  obtain ⟨-, -, -, e10, e11, e12, -⟩ := block_numbers t
  funext y
  unfold iblk0
  rw [View.read_apply]
  show V c main_arg1 _ = V c main_arg1 _
  congr 1
  funext a
  apply Fin.ext
  match a with
  | ⟨0, _⟩ => show win0_1.index t 0 * 2 + 1 * (y 0).val = (y 0).val; rw [e10]; omega
  | ⟨1, _⟩ => show win0_1.index t 1 * 64 + 1 * (y 1).val = (y 1).val; rw [e11]; omega
  | ⟨2, _⟩ => show win0_1.index t 2 * 64 + 1 * (y 2).val = (y 2).val; rw [e12]; omega

/-- The bias window's block at any point is the whole bias array. -/
theorem iblk_b (c : Dev nD) (t : Fin cfg0.N) :
    (iblk0 V c 2 t : Vec Ideal S2x64 .f32) = (V c main_arg2 : Vec Ideal S2x64 .f32) := by
  obtain ⟨-, -, -, -, -, -, e20, e21, -⟩ := block_numbers t
  funext y
  unfold iblk0
  rw [View.read_apply]
  show V c main_arg2 _ = V c main_arg2 _
  congr 1
  funext a
  apply Fin.ext
  match a with
  | ⟨0, _⟩ => show win0_2.index t 0 * 2 + 1 * (y 0).val = (y 0).val; rw [e20]; omega
  | ⟨1, _⟩ => show win0_2.index t 1 * 64 + 1 * (y 1).val = (y 1).val; rw [e21]; omega

/-- The value stack of the three arrays as the region finds them. -/
abbrev stackOf (c : Dev nD) : Vec Ideal S8192x64 .f32 :=
  Chord.arr2 (Chord.stack (Chord.cur2 (V c main_arg0)) (Chord.cur3 (V c main_arg1)) (Chord.cur2 (V c main_arg2)))

/-- WHAT POINT t WRITES BACK is its block of rows of the value stack. -/
theorem written_back (c : Dev nD) (t : Fin cfg0.N) :
    (dat0 (F := Ideal) V c).flushed 3 t = ((cfg0.win 3).blk t).view.read (Elt Ideal) (stackOf V c) := by
  show (cfg0.win 3).cut (grid0.coords t) ((dat0 (F := Ideal) V c).after 3 t) = _
  rw [after0_3]
  unfold out0_3
  rw [View.canon_unit_zero zero_offsets]
  obtain ⟨-, -, -, -, -, -, -, -, e30, e31⟩ := block_numbers t
  funext j
  refine tile_point (V c main_arg0) (V c main_arg1) (V c main_arg2) (iblk0 V c 0 t) (iblk0 V c 1 t) (iblk0 V c 2 t) t.val
    (fun y k hk0 hk1 => iblk_x V c t y k hk0 hk1) (iblk_w V c t) (iblk_b V c t) j (((cfg0.win 3).blk t).view.emb j) ?_ ?_
  · show win0_3.index t 0 * 1024 + 1 * (j 0).val = t.val * 1024 + (j 0).val
    rw [e30]; omega
  · show win0_3.index t 1 * 64 + 1 * (j 1).val = (j 1).val
    rw [e31]; omega

/-- A row and column are in point t's block iff each is in the block's range on its axis. -/
theorem mem_rows (t : Fin cfg0.N) (i : S8192x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v0).slice (win0_3.rect t)).set ↔ _
  rw [View.set_slice_whole, Rect.mem_set_unit]
  exact Iff.rfl

/-- Every entry of the output array is in some point's block: row r is in block r / 1024. -/
theorem rows_covered (i : S8192x64.Idx) :
    ∃ t : Fin cfg0.N, (cfg0.win 3).flush t = true ∧ i ∈ ((cfg0.win 3).blk t).view.set := by
  have hi0 : (i 0).val < 8192 := (i 0).isLt
  have hi1 : (i 1).val < 64 := (i 1).isLt
  obtain ⟨t, ht⟩ := blocks_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_rows]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 64 ≤ (i 1).val ∧ (i 1).val < win0_3.index t (1 : Fin 2) * 64 + 64; omega

/-- THE OUTPUT ARRAY AFTER THE REGION is the value stack of the three arrays the region reads, whatever the arrays
    held when the region was entered. -/
theorem stack_final (c : Dev nD) :
    (Gen.dat0 (F := Ideal) V c).arrAt 3 cfg0.N
      = Cert.Chord.arr2 (Cert.Chord.stack (Cert.Chord.cur2 (V c main_arg0)) (Cert.Chord.cur3 (V c main_arg1)) (Cert.Chord.cur2 (V c main_arg2))) :=
  (Gen.dat0 (F := Ideal) V c).arrAt_eq_of_cover 3 _ (fun t _ => written_back V c t) rows_covered

end Region

end Cert.KStack

end
-- ==== Proof.KTile1.lean ====
/-
  What one grid point of chord layer one leaves in its output block, as a pure function of the
  blocks it is given: the row tile of `X`, the first layer's weights and bias, the whole second-layer weight and bias
  arrays and the whole array of values — the body reads two 512-row chunks of each of the last three, at row offsets
  computed from the grid coordinate.
-/
import proofs.«102228_j3375844295380_2_alg».proof.Proof.Gen.KernelIdeal.Frame
import Idealize.ShloMosaic.Lib.Pipeline.Value

set_option maxRecDepth 16384

noncomputable section

namespace Cert.KTile1

open Cert.KernelIdeal Cert.KernelIdeal.Gen
open Idealize.ShloMosaic Idealize.ShloMosaic.TcCoe Idealize.ShloMosaic.Tactic
open Idealize.SL Idealize.SL.Sem

variable {F : FTy → Type} [FloatOps F]

/-- The chunk of 512 rows of a 8192×64 array at the row offsets `off`. -/
abbrev rows (off : Fin 2 → Nat) (h : ∀ a, off a + S512x64.size a ≤ S8192x64.size a) : Rect S8192x64 :=
  Rect.unit (s := S8192x64) off S512x64.size h
/-- The chunk of 512 columns of a 1×8192 array at the column offsets `off`. -/
abbrev cols (off : Fin 2 → Nat) (h : ∀ a, off a + S1x512.size a ≤ S1x8192.size a) : Rect S1x8192 :=
  Rect.unit (s := S1x8192) off S1x512.size h

/-- The output block of a grid point: the masked scores of the diagonal chunk times its values, plus the masked scores of
    the next chunk times its values. -/
def tile (i : grid1.Coords) (x0 : Vec F S512x64 .f32) (x1 : Vec F S64x64 .f32) (x2 : Vec F S1x64 .f32)
    (x3 : Vec F S8192x64 .f32) (x4 : Vec F S1x8192 .f32) (x5 : Vec F S8192x64 .f32) : FVec F S512x64 .f32 :=
  k1_pay1 (k1_pay3 i)
    (k1_pay10 (k1_pay3 i) k1_pay4
      (k1_pay5 x0 x1 x2 (View.ld x3 (rows (k1_off1 i) (k1_off1_inb i))) (View.ld x4 (cols (k1_off2 i) (k1_off2_inb i))))
      (k1_pay6 i) (k1_pay7 i) (k1_pay8 i) k1_pay9 (View.ld x5 (rows (k1_off1 i) (k1_off1_inb i))))
    (k1_pay11 (k1_pay2 x0 x1 x2) (View.ld x3 (rows (k1_off3 i) (k1_off3_inb i))) (View.ld x4 (cols (k1_off4 i) (k1_off4_inb i))))
    (k1_pay12 (BitVec.ofNat 32 (i 0).val))
    (View.ld x5 (rows (k1_off3 i) (k1_off3_inb i)))

theorem hz : (![0, 0] : Fin 2 → Nat) = fun _ => 0 := funext fun a => by fin_cases a <;> rfl

/-- The body's one store, through the whole output block, leaves `tile` of the blocks it read. -/
theorem out_eq (c : Dev nD) (i : grid1.Coords) (arg1 : Memref sig .tc .vmem S512x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S8192x64 .f32) (harg4 : arg4.IsWhole) (arg5 : Memref sig .tc .vmem S1x8192 .f32) (harg5 : arg5.IsWhole) (arg6 : Memref sig .tc .vmem S8192x64 .f32) (harg6 : arg6.IsWhole) (arg7 : Memref sig .tc .vmem S512x64 .f32) (harg7 : arg7.IsWhole)
    (x0 : Vec F S512x64 .f32) (x1 : Vec F S64x64 .f32) (x2 : Vec F S1x64 .f32) (x3 : Vec F S8192x64 .f32) (x4 : Vec F S1x8192 .f32) (x5 : Vec F S8192x64 .f32) :
    out1_A_6 c i arg1 harg1 arg2 harg2 arg3 harg3 arg4 harg4 arg5 harg5 arg6 harg6 arg7 harg7 x0 x1 x2 x3 x4 x5
      = tile i x0 x1 x2 x3 x4 x5 := by
  unfold out1_A_6
  rw [View.read_writes_eq_canon _ _ _ (cover1_A_6 c i arg1 harg1 arg2 harg2 arg3 harg3 arg4 harg4 arg5 harg5 arg6 harg6 arg7 harg7 x0 x1 x2 x3 x4 x5)]
  unfold kernelRun1_A
  dsimp only
  sl_unfold_run_names
  rw [View.canon_unit_zero hz]
  simp only [View.readAt_eq_ld, harg1.read_unread, harg2.read_unread, harg3.read_unread, harg4.read_unread, harg5.read_unread, harg6.read_unread,
    View.ld_unit_zero (S := S512x64) hz, View.ld_unit_zero (S := S64x64) hz, View.ld_unit_zero (S := S1x64) hz]
  rfl

end Cert.KTile1

end
-- ==== Proof.LibPlainMatmul.lean ====
/-
  A matrix product into a zero accumulator, read at an entry — for ANY record of dimension numbers that contracts the
  left operand's second axis with the right operand's first axis (one contracted axis, no batch axis).

  `matmul0_plain`: given the record's operand indices in coordinates (the left operand is read at `(r, k)`, the right at
  `(k, c)`, `k` the one coordinate of the contraction index — four facts a concrete record proves by unfolding), entry
  `(r, c)` of the product into the zero constant is `∑ k, a (r, k) * b (k, c)` over the extended reals. General in the
  three extents and the operand formats.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

/-- Entry `(r, c)` of `a · b` accumulated into zero is the sum over the contracted coordinate. -/
theorem matmul0_plain {M K N : Nat} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (prec : Option ContractPrecision) (a : FVec Ideal ⟨2, ![M, K]⟩ φ₁) (b : FVec Ideal ⟨2, ![K, N]⟩ φ₂)
    (r : Fin M) (c : Fin N) :
    matmul D prec a b (constant (F := Ideal) ⟨2, ![M, N]⟩ .f32 0x00000000#32) (ix2 r c)
      = ∑ k : Fin K, a (ix2 r k) * b (ix2 k c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun x => Fin.ext (by
    match x with
    | ⟨0, _⟩ => exact hl0 _ _
    | ⟨1, _⟩ => exact (hl1 _ _).trans hk)
  have er : D.rhsIdx (ix2 r c) ((contrEquiv1 D K hr hs).symm k) = ix2 k c := funext fun x => Fin.ext (by
    match x with
    | ⟨0, _⟩ => exact (hr0 _ _).trans hk
    | ⟨1, _⟩ => exact hr1 _ _)
  rw [el, er]

end Cert.LibPlainMatmul

end
-- ==== Proof.KDot.lean ====
/-
  A matrix product into a zero accumulator, read at an entry.

  For dimension numbers that contract the left operand's columns with the right operand's rows (one contracted axis, no
  batch axis), entry `(r, c)` of the product into a zero accumulator is `∑ k, a (r, k) * b (k, c)` over the extended
  reals: the general lemma is `LibPlainMatmul.matmul0_plain`; here it is stated for the three records the chord layers use.
-/
import proofs.«102228_j3375844295380_2_alg».proof.Proof.Gen.KernelIdeal
import proofs.«102228_j3375844295380_2_alg».proof.Proof.LibPlainMatmul
import Idealize.ShloMosaic.Lib.ValueIdx
import Idealize.ShloMosaic.PureOps.Ideal.Laws

noncomputable section

open scoped BigOperators

namespace Cert.KDot

open Idealize.ShloMosaic Idealize.ShloMosaic.ValueIdx Cert.LibPlainMatmul

open Cert.KernelIdeal Cert.KernelIdeal.Gen

/-- The first dense layer's product: a 512×64 tile times a 64×64 matrix. -/
theorem dot_tile_w {φ₁ φ₂ : FTy} (prec : Option ContractPrecision) (a : FVec Ideal S512x64 φ₁) (b : FVec Ideal S64x64 φ₂)
    (r : Fin 512) (c : Fin 64) :
    matmul dot_S512x64_S64x64_S512x64_1_0_0_1_n_n prec a b (constant (F := Ideal) S512x64 .f32 0x00000000#32) (ix2 r c)
      = ∑ k : Fin 64, a (ix2 r k) * b (ix2 k c) :=
  matmul0_plain dot_S512x64_S64x64_S512x64_1_0_0_1_n_n rfl rfl
    (fun j q => by
      unfold DotDims.lhsIdx
      rw [dif_neg (show ¬(0 : Fin S512x64.rank) ∈ dot_S512x64_S64x64_S512x64_1_0_0_1_n_n.lhsBatch by decide), dif_pos (show (0 : Fin S512x64.rank) ∈ dot_S512x64_S64x64_S512x64_1_0_0_1_n_n.lhsNonContracting by decide)]
      rfl)
    (fun j q => dot_S512x64_S64x64_S512x64_1_0_0_1_n_n.lhsIdx_val_of_single rfl j q)
    (fun j q => dot_S512x64_S64x64_S512x64_1_0_0_1_n_n.rhsIdx_val_of_single rfl j q)
    (fun j q => by
      unfold DotDims.rhsIdx
      rw [dif_neg (show ¬(1 : Fin S64x64.rank) ∈ dot_S512x64_S64x64_S512x64_1_0_0_1_n_n.rhsBatch by decide), dif_pos (show (1 : Fin S64x64.rank) ∈ dot_S512x64_S64x64_S512x64_1_0_0_1_n_n.rhsNonContracting by decide)]
      rfl)
    prec a b r c

/-- The score product: a 512×64 tile times a 64×512 matrix. -/
theorem dot_tile_chunk {φ₁ φ₂ : FTy} (prec : Option ContractPrecision) (a : FVec Ideal S512x64 φ₁) (b : FVec Ideal S64x512 φ₂)
    (r : Fin 512) (c : Fin 512) :
    matmul dot_S512x64_S64x512_S512x512_1_0_0_1_n_n prec a b (constant (F := Ideal) S512x512 .f32 0x00000000#32) (ix2 r c)
      = ∑ k : Fin 64, a (ix2 r k) * b (ix2 k c) :=
  matmul0_plain dot_S512x64_S64x512_S512x512_1_0_0_1_n_n rfl rfl
    (fun j q => by
      unfold DotDims.lhsIdx
      rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
      rfl)
    (fun j q => dot_S512x64_S64x512_S512x512_1_0_0_1_n_n.lhsIdx_val_of_single rfl j q)
    (fun j q => dot_S512x64_S64x512_S512x512_1_0_0_1_n_n.rhsIdx_val_of_single rfl j q)
    (fun j q => by
      unfold DotDims.rhsIdx
      rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
      rfl)
    prec a b r c

/-- The masked scores times a value chunk: a 512×512 tile times a 512×64 matrix. -/
theorem dot_chunk_v {φ₁ φ₂ : FTy} (prec : Option ContractPrecision) (a : FVec Ideal S512x512 φ₁) (b : FVec Ideal S512x64 φ₂)
    (r : Fin 512) (c : Fin 64) :
    matmul dot_S512x512_S512x64_S512x64_1_0_0_1_n_n prec a b (constant (F := Ideal) S512x64 .f32 0x00000000#32) (ix2 r c)
      = ∑ k : Fin 512, a (ix2 r k) * b (ix2 k c) :=
  matmul0_plain dot_S512x512_S512x64_S512x64_1_0_0_1_n_n rfl rfl
    (fun j q => by
      unfold DotDims.lhsIdx
      rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
      rfl)
    (fun j q => dot_S512x512_S512x64_S512x64_1_0_0_1_n_n.lhsIdx_val_of_single rfl j q)
    (fun j q => dot_S512x512_S512x64_S512x64_1_0_0_1_n_n.rhsIdx_val_of_single rfl j q)
    (fun j q => by
      unfold DotDims.rhsIdx
      rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
      rfl)
    prec a b r c

end Cert.KDot

end
-- ==== Proof.ChordTile.lean ====
/-
  One row tile of a chord layer, evaluated from two column chunks.

  Row `r = 512 t + p` of the masked score matrix has its two live entries in columns `r` and `(r + 1) mod 8192`.
  Column `r` lies in column chunk `t` (columns `512 t … 512 t + 511`), at place `p`. Column `r + 1` lies in the same
  chunk, at place `p + 1`, unless `p = 511`; then it is the first column of chunk `(t + 1) mod 16` — for the last tile
  that is column `0`, the cyclic wrap. So the sum over chunk `t` of the entries the mask keeps, plus the sum over chunk
  `(t + 1) mod 16` of the entries it keeps there, is the two-term row of `chord`.

  The mask is computed on 32-bit words; the word facts used (sums and products of small numbers do not wrap, a
  comparison of two such words is the comparison of the numbers) are here too.
-/
import proofs.«102228_j3375844295380_2_alg».proof.Proof.ChordSpec

noncomputable section

open scoped BigOperators

namespace Cert.Chord

open Idealize.ShloMosaic Idealize.ShloMosaic.ValueIdx

/-! ## Words -/

theorem cmpi_eq_one (a b : BitVec 32) : IntOp.cmpi .eq a b = 1#1 ↔ a = b := by
  unfold IntOp.cmpi
  by_cases h : a = b
  · subst h; simp
  · have hb : (a == b) = false := by simpa using h
    simp only [hb]
    exact ⟨fun e => absurd e (by decide), fun e => absurd e h⟩

theorem ori_one (a b : BitVec 1) : IntOp.ori a b = 1#1 ↔ (a = 1#1 ∨ b = 1#1) := by
  unfold IntOp.ori
  rcases BitVec.eq_zero_or_eq_one a with h | h <;> rcases BitVec.eq_zero_or_eq_one b with h' | h' <;> subst h <;> subst h' <;> decide

theorem andi_one (a b : BitVec 1) : IntOp.andi a b = 1#1 ↔ (a = 1#1 ∧ b = 1#1) := by
  unfold IntOp.andi
  rcases BitVec.eq_zero_or_eq_one a with h | h <;> rcases BitVec.eq_zero_or_eq_one b with h' | h' <;> subst h <;> subst h' <;> decide

/-- Two numbers below 2³² are equal as words exactly when they are equal. -/
theorem ofNat_eq_iff (x y : Nat) (hx : x < 4294967296) (hy : y < 4294967296) :
    BitVec.ofNat 32 x = BitVec.ofNat 32 y ↔ x = y := by
  constructor
  · intro h
    have := congrArg BitVec.toNat h
    simp only [BitVec.toNat_ofNat] at this
    omega
  · intro h; rw [h]

/-- `base * 512 + place` on words is the word of the number. -/
theorem word_mul_add (t p : Nat) :
    BitVec.ofNat 32 t * 512#32 + BitVec.ofNat 32 p = BitVec.ofNat 32 (512 * t + p) := by
  apply BitVec.eq_of_toNat_eq
  simp only [BitVec.toNat_add, BitVec.toNat_mul, BitVec.toNat_ofNat]
  omega

theorem word_add (a b : Nat) : BitVec.ofNat 32 a + BitVec.ofNat 32 b = BitVec.ofNat 32 (a + b) := by
  apply BitVec.eq_of_toNat_eq
  simp only [BitVec.toNat_add, BitVec.toNat_ofNat]
  omega

/-- The mask bit from a row word and a column word: diagonal, superdiagonal, or the cyclic wrap (last row, first column). -/
def maskWord (R C : BitVec 32) : BitVec 1 :=
  IntOp.ori (IntOp.ori (IntOp.cmpi .eq R C) (IntOp.cmpi .eq (IntOp.addi R 1#32) C))
    (IntOp.andi (IntOp.cmpi .eq R 8191#32) (IntOp.cmpi .eq C 0#32))

/-- On the words of a row number and a column number below 8192 the mask bit says what it should. -/
theorem maskWord_one (rr cc : Nat) (hr : rr < 8192) (hc : cc < 8192) :
    maskWord (BitVec.ofNat 32 rr) (BitVec.ofNat 32 cc) = 1#1 ↔ (rr = cc ∨ rr + 1 = cc ∨ (rr = 8191 ∧ cc = 0)) := by
  unfold maskWord
  rw [ori_one, ori_one, andi_one, cmpi_eq_one, cmpi_eq_one, cmpi_eq_one, cmpi_eq_one]
  unfold IntOp.addi
  rw [show (1#32 : BitVec 32) = BitVec.ofNat 32 1 from rfl, word_add,
    show (8191#32 : BitVec 32) = BitVec.ofNat 32 8191 from rfl, show (0#32 : BitVec 32) = BitVec.ofNat 32 0 from rfl,
    ofNat_eq_iff rr cc (by omega) (by omega), ofNat_eq_iff (rr + 1) cc (by omega) (by omega),
    ofNat_eq_iff rr 8191 (by omega) (by omega), ofNat_eq_iff cc 0 (by omega) (by omega)]
  exact or_assoc

/-- Within the diagonal chunk of row tile `t`: row `512 t + p`, column `512 t + q`. -/
theorem mask_diag (t p q : Nat) (ht : t < 16) (hp : p < 512) (hq : q < 512) :
    maskWord (BitVec.ofNat 32 (512 * t + p)) (BitVec.ofNat 32 (512 * t + q)) = 1#1 ↔ (q = p ∨ q = p + 1) := by
  rw [maskWord_one _ _ (by omega) (by omega)]
  omega

/-- Within the next chunk: row `512 t + p`, column `512 ((t + 1) mod 16) + q`. -/
theorem mask_next (t p q : Nat) (ht : t < 16) (hp : p < 512) (hq : q < 512) :
    maskWord (BitVec.ofNat 32 (512 * t + p)) (BitVec.ofNat 32 (512 * ((t + 1) % 16) + q)) = 1#1 ↔ (p = 511 ∧ q = 0) := by
  rw [maskWord_one _ _ (by omega) (by omega)]
  omega

/-- A dense layer depends only on the rows it is read at. -/
theorem dense_congr {R R' K H H' : Nat} (x : Fin R → Fin K → EReal) (x' : Fin R' → Fin K → EReal)
    (w : Fin H → Fin K → EReal) (w' : Fin H' → Fin K → EReal) (b : Fin H → EReal) (b' : Fin H' → EReal)
    (r : Fin R) (r' : Fin R') (h : Fin H) (h' : Fin H')
    (hx : ∀ k, x r k = x' r' k) (hw : ∀ k, w h k = w' h' k) (hb : b h = b' h') :
    dense x w b r h = dense x' w' b' r' h' := by
  unfold dense
  rw [hb]
  exact congrArg (fun s => max (s + b' h') 0) (Finset.sum_congr rfl fun k _ => by rw [hx k, hw k])

/-! ## The two chunks of a row tile -/

theorem select_mul_of_ne {c : BitVec 1} (hc : ¬ c = 1#1) (a v : EReal) : Scalar.select c a 0 * v = 0 := by
  have hc' : ¬ c = (1 : BitVec 1) := hc
  unfold Scalar.select; rw [if_neg hc', zero_mul]

theorem select_mul_of_eq {c : BitVec 1} (hc : c = 1#1) (a v : EReal) : Scalar.select c a 0 * v = a * v := by
  have hc' : c = (1 : BitVec 1) := hc
  unfold Scalar.select; rw [if_pos hc']

/-- The row of `chord` at `r = 512 t + p` from the two column chunks a row tile reads: chunk `t` under a mask that
    keeps places `p` and `p + 1`, chunk `(t + 1) mod 16` under a mask that keeps place `0` of the tile's last row. -/
theorem tile_chord (S : Fin 8192 → Fin 8192 → EReal) (V : Fin 8192 → Fin 64 → EReal) (t : Fin 16) (p : Fin 512) (h : Fin 64)
    (m1 m2 : Fin 512 → BitVec 1) (S1 S2 V1 V2 : Fin 512 → EReal)
    (hm1 : ∀ q : Fin 512, m1 q = 1#1 ↔ (q.val = p.val ∨ q.val = p.val + 1))
    (hm2 : ∀ q : Fin 512, m2 q = 1#1 ↔ (p.val = 511 ∧ q.val = 0))
    (hS1 : ∀ q : Fin 512, S1 q = S ⟨512 * t.val + p.val, by omega⟩ ⟨512 * t.val + q.val, by omega⟩)
    (hV1 : ∀ q : Fin 512, V1 q = V ⟨512 * t.val + q.val, by omega⟩ h)
    (hS2 : ∀ q : Fin 512, S2 q = S ⟨512 * t.val + p.val, by omega⟩ ⟨512 * ((t.val + 1) % 16) + q.val, by omega⟩)
    (hV2 : ∀ q : Fin 512, V2 q = V ⟨512 * ((t.val + 1) % 16) + q.val, by omega⟩ h) :
    (0 + ∑ q : Fin 512, Scalar.select (m1 q) (S1 q) 0 * V1 q) + ∑ q : Fin 512, Scalar.select (m2 q) (S2 q) 0 * V2 q
      = chord S V ⟨512 * t.val + p.val, by omega⟩ h := by
  have ht := t.isLt
  have hp := p.isLt
  unfold chord
  by_cases hlast : p.val < 511
  · -- the successor column is in the same chunk
    have e1 : ∑ q : Fin 512, Scalar.select (m1 q) (S1 q) 0 * V1 q
        = S1 p * V1 p + S1 ⟨p.val + 1, by omega⟩ * V1 ⟨p.val + 1, by omega⟩ := by
      rw [sum_two _ p ⟨p.val + 1, by omega⟩ (fun e => by have := congrArg Fin.val e; simp at this)
        (fun j hj hj' => select_mul_of_ne (fun e => by
          rcases (hm1 j).mp e with e' | e'
          · exact hj (Fin.ext e')
          · exact hj' (Fin.ext e')) _ _)]
      rw [select_mul_of_eq ((hm1 p).mpr (Or.inl rfl)), select_mul_of_eq ((hm1 ⟨p.val + 1, by omega⟩).mpr (Or.inr rfl))]
    have e2 : ∑ q : Fin 512, Scalar.select (m2 q) (S2 q) 0 * V2 q = 0 :=
      Finset.sum_eq_zero fun j _ => select_mul_of_ne (fun e => by have := ((hm2 j).mp e).1; omega) _ _
    rw [e1, e2, zero_add, add_zero, hS1, hV1, hS1, hV1]
    have en : nxt ⟨512 * t.val + p.val, by omega⟩ = ⟨512 * t.val + (p.val + 1), by omega⟩ :=
      Fin.ext (by rw [nxt_val]; show (512 * t.val + p.val + 1) % 8192 = 512 * t.val + (p.val + 1); omega)
    rw [en]
  · -- the tile's last row: the successor column opens the next chunk
    have hp511 : p.val = 511 := by omega
    have e1 : ∑ q : Fin 512, Scalar.select (m1 q) (S1 q) 0 * V1 q = S1 p * V1 p := by
      rw [sum_one _ p (fun j hj => select_mul_of_ne (fun e => by
          rcases (hm1 j).mp e with e' | e'
          · exact hj (Fin.ext e')
          · have := j.isLt; omega) _ _)]
      rw [select_mul_of_eq ((hm1 p).mpr (Or.inl rfl))]
    have e2 : ∑ q : Fin 512, Scalar.select (m2 q) (S2 q) 0 * V2 q = S2 ⟨0, by omega⟩ * V2 ⟨0, by omega⟩ := by
      rw [sum_one _ (⟨0, by omega⟩ : Fin 512) (fun j hj => select_mul_of_ne (fun e => hj (Fin.ext ((hm2 j).mp e).2)) _ _)]
      rw [select_mul_of_eq ((hm2 ⟨0, by omega⟩).mpr ⟨hp511, rfl⟩)]
    rw [e1, e2, zero_add, hS1, hV1, hS2, hV2]
    have en : nxt ⟨512 * t.val + p.val, by omega⟩ = ⟨512 * ((t.val + 1) % 16) + 0, by omega⟩ :=
      Fin.ext (by rw [nxt_val]; show (512 * t.val + p.val + 1) % 8192 = 512 * ((t.val + 1) % 16) + 0; omega)
    rw [en]

end Cert.Chord

end
-- ==== Proof.KTile1Val.lean ====
/-
  The output block of a grid point of chord layer one, read at an entry, over the extended reals.

  Grid point `t` owns rows `512 t … 512 t + 511`. The body forms the scores of those rows against column chunk `t` and
  against column chunk `(t + 1) mod 16`, keeps in each the entries on the diagonal, on the superdiagonal and at the cyclic
  wrap, multiplies each masked chunk with the matching chunk of values and adds the two products. At row `512 t + p` the
  first chunk keeps places `p` and `p + 1` and the second keeps place `0` exactly when `p = 511`; so the entry is the
  two-term row of `Chord.chord`.
-/
import proofs.«102228_j3375844295380_2_alg».proof.Proof.KTile1
import proofs.«102228_j3375844295380_2_alg».proof.Proof.KDot
import proofs.«102228_j3375844295380_2_alg».proof.Proof.ChordTile
import Idealize.ShloMosaic.Lib.ValueLayout

set_option maxRecDepth 16384

noncomputable section

open scoped BigOperators

namespace Cert.KTile1

open Cert.KernelIdeal Cert.KernelIdeal.Gen Cert.Chord
open Idealize.ShloMosaic Idealize.ShloMosaic.ValueIdx

/-- The one row of a `[1, n]` array. -/
def row1 {n : Nat} (x : (⟨2, ![1, n]⟩ : Shape).Idx → EReal) : Fin n → EReal := fun a => x (ix2 (0 : Fin 1) a)

theorem scalar_zero : Scalar.ofBits (F := Ideal) .f32 0x00000000#32 = (0 : EReal) := Ideal.ofBits_zero_f32

/-! ## The dense layers -/

/-- The first dense layer of the row tile. -/
theorem pay2_at (v1 : Vec Ideal S512x64 .f32) (v3 : Vec Ideal S64x64 .f32) (v6 : Vec Ideal S1x64 .f32) (p : Fin 512) (k : Fin 64) :
    k1_pay2 (F := Ideal) v1 v3 v6 (ix2 p k) = dense (cur2 v1) (cur2 v3) (row1 v6) p k := by
  unfold k1_pay2
  simp only [truncf_apply, maximumf_apply, addf_apply, broadcast_apply, KDot.dot_tile_w, broadcastTo_1b_ab_apply,
    Idealize.ShloMosaic.shapeCast_self, scalar_zero]
  unfold dense
  refine congrArg (fun s => max (s + v6 (ix2 0 k)) 0) (Finset.sum_congr rfl fun j _ => ?_)
  exact congrArg (v1 (ix2 p j) * ·) (transpose_ix2_apply (a := 64) (b := 64) _ _ j k)

/-- The scores of the row tile against a chunk of 512 columns: the second dense layer, with the chunk's weights and bias. -/
theorem pay5_at (v1 : Vec Ideal S512x64 .f32) (v3 : Vec Ideal S64x64 .f32) (v6 : Vec Ideal S1x64 .f32)
    (v22 : Vec Ideal S512x64 .f32) (v26 : Vec Ideal S1x512 .f32) (p q : Fin 512) :
    k1_pay5 (F := Ideal) v1 v3 v6 v22 v26 (ix2 p q)
      = dense (dense (cur2 v1) (cur2 v3) (row1 v6)) (cur2 v22) (row1 v26) p q := by
  unfold k1_pay5
  simp only [truncf_apply, maximumf_apply, addf_apply, broadcast_apply, KDot.dot_tile_chunk, broadcastTo_1b_ab_apply,
    Idealize.ShloMosaic.shapeCast_self, scalar_zero, pay2_at]
  conv_rhs => unfold dense
  refine congrArg (fun s => max (s + v26 (ix2 0 q)) 0) (Finset.sum_congr rfl fun j _ => ?_)
  exact congrArg (dense (cur2 v1) (cur2 v3) (row1 v6) p j * ·) (transpose_ix2_apply (a := 512) (b := 64) _ _ j q)

theorem pay11_at (v1 : Vec Ideal S512x64 .f32) (v3 : Vec Ideal S64x64 .f32) (v6 : Vec Ideal S1x64 .f32)
    (v71 : Vec Ideal S512x64 .f32) (v75 : Vec Ideal S1x512 .f32) (p q : Fin 512) :
    k1_pay11 (F := Ideal) (k1_pay2 v1 v3 v6) v71 v75 (ix2 p q)
      = dense (dense (cur2 v1) (cur2 v3) (row1 v6)) (cur2 v71) (row1 v75) p q := by
  unfold k1_pay11
  simp only [truncf_apply, maximumf_apply, addf_apply, broadcast_apply, KDot.dot_tile_chunk, broadcastTo_1b_ab_apply,
    Idealize.ShloMosaic.shapeCast_self, scalar_zero, pay2_at]
  conv_rhs => unfold dense
  refine congrArg (fun s => max (s + v75 (ix2 0 q)) 0) (Finset.sum_congr rfl fun j _ => ?_)
  exact congrArg (dense (cur2 v1) (cur2 v3) (row1 v6) p j * ·) (transpose_ix2_apply (a := 512) (b := 64) _ _ j q)

/-! ## The row and column words -/

/-- The row word of entry `(p, q)` of the tile: `512 t + p`. -/
theorem pay3_at (i : grid1.Coords) (p q : Fin 512) :
    k1_pay3 i (ix2 p q) = BitVec.ofNat 32 (512 * (i 0).val + p.val) := by
  show BitVec.ofNat 32 (i 0).val * 512#32 + BitVec.ofNat 32 (0 * 512 + p.val) = _
  rw [Nat.zero_mul, Nat.zero_add]
  exact word_mul_add _ _

/-- The column word of entry `(p, q)` against the diagonal chunk: `512 t + q`. -/
theorem pay6_at (i : grid1.Coords) (p q : Fin 512) :
    k1_pay6 i (ix2 p q) = BitVec.ofNat 32 (512 * (i 0).val + q.val) := by
  show BitVec.ofNat 32 (i 0).val * 512#32 + BitVec.ofNat 32 (0 * 512 + q.val) = _
  rw [Nat.zero_mul, Nat.zero_add]
  exact word_mul_add _ _

/-- The first column of the next chunk, as the body computes it from the grid coordinate. -/
theorem next_base : ∀ i : grid1.Coords, k1_mult2 i = BitVec.ofNat 32 (512 * (((i 0).val + 1) % 16)) := by decide +kernel

/-- The column word of entry `(p, q)` against the next chunk: `512 ((t + 1) mod 16) + q`. -/
theorem pay12_at (i : grid1.Coords) (p q : Fin 512) :
    k1_pay12 (BitVec.ofNat 32 (i 0).val) (ix2 p q) = BitVec.ofNat 32 (512 * (((i 0).val + 1) % 16) + q.val) := by
  show k1_mult2 i + BitVec.ofNat 32 (0 * 512 + q.val) = _
  rw [next_base, Nat.zero_mul, Nat.zero_add]
  exact word_add _ _

theorem off3_eq : ∀ i : grid1.Coords, k1_off3 i = ![512 * (((i 0).val + 1) % 16), 0] := by decide +kernel
theorem off4_eq : ∀ i : grid1.Coords, k1_off4 i = ![0, 512 * (((i 0).val + 1) % 16)] := by decide +kernel

/-! ## The chunks the body loads -/

/-- A chunk of 512 rows starting at row `b`, read at an entry. -/
theorem ld_rows (x : Vec Ideal S8192x64 .f32) (off : Fin 2 → Nat) (hin : ∀ a, off a + S512x64.size a ≤ S8192x64.size a)
    (b : Nat) (hb : b + 512 ≤ 8192) (hoff : off = ![b, 0]) (q : Fin 512) (k : Fin 64) :
    View.ld x (rows off hin) (ix2 q k) = x (ix2 (⟨b + q.val, by omega⟩ : Fin 8192) k) := by
  subst hoff
  refine congrArg x (funext fun a => Fin.ext ?_)
  match a with
  | ⟨0, _⟩ => show b + 1 * q.val = b + q.val; omega
  | ⟨1, _⟩ => show 0 + 1 * k.val = k.val; omega

/-- A chunk of 512 columns starting at column `b`, read at an entry. -/
theorem ld_cols (x : Vec Ideal S1x8192 .f32) (off : Fin 2 → Nat) (hin : ∀ a, off a + S1x512.size a ≤ S1x8192.size a)
    (b : Nat) (hb : b + 512 ≤ 8192) (hoff : off = ![0, b]) (q : Fin 512) :
    View.ld x (cols off hin) (ix2 (0 : Fin 1) q) = x (ix2 (0 : Fin 1) (⟨b + q.val, by omega⟩ : Fin 8192)) := by
  subst hoff
  refine congrArg x (funext fun a => Fin.ext ?_)
  match a with
  | ⟨0, _⟩ => show 0 + 1 * 0 = 0; omega
  | ⟨1, _⟩ => show b + 1 * q.val = b + q.val; omega

/-! ## The output block at an entry -/

/-- The two masked products, with the masks still as words. -/
theorem pay1_at (i : grid1.Coords) (v1 : Vec Ideal S512x64 .f32) (v3 : Vec Ideal S64x64 .f32) (v6 : Vec Ideal S1x64 .f32)
    (v22 : Vec Ideal S512x64 .f32) (v26 : Vec Ideal S1x512 .f32) (v52 : Vec Ideal S512x64 .f32)
    (v71 : Vec Ideal S512x64 .f32) (v75 : Vec Ideal S1x512 .f32) (v101 : Vec Ideal S512x64 .f32) (p : Fin 512) (h : Fin 64) :
    k1_pay1 (F := Ideal) (k1_pay3 i)
        (k1_pay10 (k1_pay3 i) k1_pay4 (k1_pay5 v1 v3 v6 v22 v26) (k1_pay6 i) (k1_pay7 i) (k1_pay8 i) k1_pay9 v52)
        (k1_pay11 (k1_pay2 v1 v3 v6) v71 v75) (k1_pay12 (BitVec.ofNat 32 (i 0).val)) v101 (ix2 p h)
      = (0 + ∑ q : Fin 512, Scalar.select (maskWord (k1_pay3 i (ix2 p q)) (k1_pay6 i (ix2 p q)))
            (dense (dense (cur2 v1) (cur2 v3) (row1 v6)) (cur2 v22) (row1 v26) p q) 0 * v52 (ix2 q h))
        + ∑ q : Fin 512, Scalar.select (maskWord (k1_pay3 i (ix2 p q)) (k1_pay12 (BitVec.ofNat 32 (i 0).val) (ix2 p q)))
            (dense (dense (cur2 v1) (cur2 v3) (row1 v6)) (cur2 v71) (row1 v75) p q) 0 * v101 (ix2 q h) := by
  unfold k1_pay1 k1_pay10 k1_pay4 k1_pay7 k1_pay8 k1_pay9
  simp only [truncf_apply, addf_apply, broadcast_apply, select_apply, KDot.dot_chunk_v, Idealize.ShloMosaic.shapeCast_self,
    scalar_zero, pay5_at, pay11_at]
  rfl

/-- The output block of grid point `t` at entry `(p, h)` is row `512 t + p`, column `h`, of the chord layer of the whole
    arrays: the first dense layer sees row `512 t + p` of `X`, the two loaded chunks of the second layer's weights and
    bias are rows `512 t + q` and `512 ((t + 1) mod 16) + q`, and the two masks keep the diagonal and the cyclic
    superdiagonal. -/
theorem tile_at (i : grid1.Coords) (t : Nat) (ht : t < 16) (hi : (i 0).val = t)
    (x0 : Vec Ideal S512x64 .f32) (x1 : Vec Ideal S64x64 .f32) (x2 : Vec Ideal S1x64 .f32)
    (x3 : Vec Ideal S8192x64 .f32) (x4 : Vec Ideal S1x8192 .f32) (x5 : Vec Ideal S8192x64 .f32)
    (X : Fin 8192 → Fin 64 → EReal)
    (h0 : ∀ (p : Fin 512) (k : Fin 64), x0 (ix2 p k) = X ⟨512 * t + p.val, by omega⟩ k)
    (p : Fin 512) (h : Fin 64) :
    tile i x0 x1 x2 x3 x4 x5 (ix2 p h)
      = layer X (cur2 x1) (row1 x2) (cur2 x3) (row1 x4) (cur2 x5) ⟨512 * t + p.val, by omega⟩ h := by
  unfold tile
  rw [pay1_at]
  unfold layer
  refine tile_chord (dense (dense X (cur2 x1) (row1 x2)) (cur2 x3) (row1 x4)) (cur2 x5) ⟨t, ht⟩ p h _ _ _ _ _ _
    (fun q => ?_) (fun q => ?_) (fun q => ?_) (fun q => ?_) (fun q => ?_) (fun q => ?_)
  · beta_reduce
    rw [pay3_at, pay6_at, hi]
    exact mask_diag t p.val q.val ht p.isLt q.isLt
  · beta_reduce
    rw [pay3_at, pay12_at, hi]
    exact mask_next t p.val q.val ht p.isLt q.isLt
  · refine dense_congr _ _ _ _ _ _ p _ q _ (fun k => ?_) (fun k => ?_) ?_
    · exact dense_congr _ _ _ _ _ _ p _ k k (fun d => h0 p d) (fun d => rfl) rfl
    · exact ld_rows x3 _ _ (512 * t) (by omega) (by rw [k1_off1_eq, hi]) q k
    · exact ld_cols x4 _ _ (512 * t) (by omega) (by rw [k1_off2_eq, hi]) q
  · exact ld_rows x5 _ _ (512 * t) (by omega) (by rw [k1_off1_eq, hi]) q h
  · refine dense_congr _ _ _ _ _ _ p _ q _ (fun k => ?_) (fun k => ?_) ?_
    · exact dense_congr _ _ _ _ _ _ p _ k k (fun d => h0 p d) (fun d => rfl) rfl
    · exact ld_rows x3 _ _ (512 * ((t + 1) % 16)) (by omega) (by rw [off3_eq, hi]) q k
    · exact ld_cols x4 _ _ (512 * ((t + 1) % 16)) (by omega) (by rw [off4_eq, hi]) q
  · exact ld_rows x5 _ _ (512 * ((t + 1) % 16)) (by omega) (by rw [off3_eq, hi]) q h

end Cert.KTile1

end
-- ==== Proof.KLayer1.lean ====
/-
  The array chord layer one leaves, as ONE function of the six arrays the region finds.

  Grid point `t` writes back rows `512 t … 512 t + 511` of the result; by the tile lemma its block is those rows of the
  chord layer of the whole arrays (its `X` window is the same rows of `X`; the other five windows are whole arrays).
  The sixteen blocks tile the result, so the array after the region is the chord layer.
-/
import proofs.«102228_j3375844295380_2_alg».proof.Proof.KTile1Val

set_option maxRecDepth 16384

noncomputable section

namespace Cert.KLayer1

open Cert.KernelIdeal Cert.KernelIdeal.Gen Cert.Chord Cert.KTile1
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- The chord layer of the region's input arrays. -/
def out (c : Dev nD) : S8192x64.Idx → EReal :=
  arr2 (layer (cur2 (V c main_arg0)) (cur2 (V c main_v2)) (row1 (V c main_v5)) (cur2 (V c main_v7))
    (row1 (V c main_v10)) (cur2 (V c main_v0)))

theorem N16 : grid1.N = 16 := by decide

/-- The printed index maps, decided over the sixteen grid points: the `X` window and the output window move with the
    point along the rows; the other windows stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ (grid1.coords t 0).val = t.val :=
  (by decide +kernel : ∀ t : Fin grid1.N, _)

/-! ## The blocks the point is given -/

theorem blk0 (c : Dev nD) (t : Fin cfg1.N) (ht : t.val < 16) (p : Fin 512) (k : Fin 64) :
    iblk1 V c 0 t (ix2 p k) = V c main_arg0 (ix2 (⟨512 * t.val + p.val, by omega⟩ : Fin 8192) k) := by
  obtain ⟨e00, e01, -⟩ := idx_facts t
  show V c main_arg0 (((cfg1.win 0).blk t).view.emb (ix2 p k)) = _
  refine congrArg (V c main_arg0) (funext fun a => Fin.ext ?_)
  match a with
  | ⟨0, _⟩ => show win1_0.index t (0 : Fin 2) * 512 + 1 * p.val = 512 * t.val + p.val; omega
  | ⟨1, _⟩ => show win1_0.index t (1 : Fin 2) * 64 + 1 * k.val = k.val; omega

theorem blk1 (c : Dev nD) (t : Fin cfg1.N) (a k : Fin 64) :
    iblk1 V c 1 t (ix2 a k) = V c main_v2 (ix2 a k) := by
  obtain ⟨-, -, e10, e11, -⟩ := idx_facts t
  show V c main_v2 (((cfg1.win 1).blk t).view.emb (ix2 a k)) = _
  refine congrArg (V c main_v2) (funext fun x => Fin.ext ?_)
  match x with
  | ⟨0, _⟩ => show win1_1.index t (0 : Fin 2) * 64 + 1 * a.val = a.val; omega
  | ⟨1, _⟩ => show win1_1.index t (1 : Fin 2) * 64 + 1 * k.val = k.val; omega

theorem blk2 (c : Dev nD) (t : Fin cfg1.N) (k : Fin 64) :
    iblk1 V c 2 t (ix2 (0 : Fin 1) k) = V c main_v5 (ix2 (0 : Fin 1) k) := by
  obtain ⟨-, -, -, -, e20, e21, -⟩ := idx_facts t
  show V c main_v5 (((cfg1.win 2).blk t).view.emb (ix2 (0 : Fin 1) k)) = _
  refine congrArg (V c main_v5) (funext fun x => Fin.ext ?_)
  match x with
  | ⟨0, _⟩ => show win1_2.index t (0 : Fin 2) * 1 + 1 * 0 = 0; omega
  | ⟨1, _⟩ => show win1_2.index t (1 : Fin 2) * 64 + 1 * k.val = k.val; omega

theorem blk3 (c : Dev nD) (t : Fin cfg1.N) (r : Fin 8192) (k : Fin 64) :
    iblk1 V c 3 t (ix2 r k) = V c main_v7 (ix2 r k) := by
  obtain ⟨-, -, -, -, -, -, e30, e31, -⟩ := idx_facts t
  show V c main_v7 (((cfg1.win 3).blk t).view.emb (ix2 r k)) = _
  refine congrArg (V c main_v7) (funext fun x => Fin.ext ?_)
  match x with
  | ⟨0, _⟩ => show win1_3.index t (0 : Fin 2) * 8192 + 1 * r.val = r.val; omega
  | ⟨1, _⟩ => show win1_3.index t (1 : Fin 2) * 64 + 1 * k.val = k.val; omega

theorem blk4 (c : Dev nD) (t : Fin cfg1.N) (j : Fin 8192) :
    iblk1 V c 4 t (ix2 (0 : Fin 1) j) = V c main_v10 (ix2 (0 : Fin 1) j) := by
  obtain ⟨-, -, -, -, -, -, -, -, e40, e41, -⟩ := idx_facts t
  show V c main_v10 (((cfg1.win 4).blk t).view.emb (ix2 (0 : Fin 1) j)) = _
  refine congrArg (V c main_v10) (funext fun x => Fin.ext ?_)
  match x with
  | ⟨0, _⟩ => show win1_4.index t (0 : Fin 2) * 1 + 1 * 0 = 0; omega
  | ⟨1, _⟩ => show win1_4.index t (1 : Fin 2) * 8192 + 1 * j.val = j.val; omega

theorem blk5 (c : Dev nD) (t : Fin cfg1.N) (r : Fin 8192) (k : Fin 64) :
    iblk1 V c 5 t (ix2 r k) = V c main_v0 (ix2 r k) := by
  obtain ⟨-, -, -, -, -, -, -, -, -, -, e50, e51, -⟩ := idx_facts t
  show V c main_v0 (((cfg1.win 5).blk t).view.emb (ix2 r k)) = _
  refine congrArg (V c main_v0) (funext fun x => Fin.ext ?_)
  match x with
  | ⟨0, _⟩ => show win1_5.index t (0 : Fin 2) * 8192 + 1 * r.val = r.val; omega
  | ⟨1, _⟩ => show win1_5.index t (1 : Fin 2) * 64 + 1 * k.val = k.val; omega

/-! ## What a point writes back, and the cover -/

/-- The block of the result at point `t`, entry `(p, h)`, is row `512 t + p`. -/
theorem emb6 (t : Fin cfg1.N) (ht : t.val < 16) (p : Fin 512) (h : Fin 64) :
    ((cfg1.win 6).blk t).view.emb (ix2 p h) = ix2 (⟨512 * t.val + p.val, by omega⟩ : Fin 8192) h := by
  obtain ⟨-, -, -, -, -, -, -, -, -, -, -, -, e60, e61, -⟩ := idx_facts t
  refine funext fun x => Fin.ext ?_
  match x with
  | ⟨0, _⟩ => show win1_6.index t (0 : Fin 2) * 512 + 1 * p.val = 512 * t.val + p.val; omega
  | ⟨1, _⟩ => show win1_6.index t (1 : Fin 2) * 64 + 1 * h.val = h.val; omega

/-- WHAT POINT `t` WRITES BACK is block `t` of the chord layer of the arrays the region finds. -/
theorem flushed_eq (c : Dev nD) (t : Fin cfg1.N) :
    (dat1 V c).flushed 6 t = ((cfg1.win 6).blk t).view.read (Elt Ideal) (out V c) := by
  have ht : t.val < 16 := lt_of_lt_of_eq t.isLt (show cfg1.N = 16 from N16)
  show (cfg1.win 6).cut (grid1.coords t) ((dat1 V c).after 6 t) = _
  rw [after1_6]
  unfold outsAt1
  rw [out_eq]
  funext j
  obtain ⟨p, h, rfl⟩ : ∃ (p : Fin 512) (h : Fin 64), j = ix2 p h := ⟨j 0, j 1, eq_ix2 j⟩
  show tile (grid1.coords t) (iblk1 V c 0 t) (iblk1 V c 1 t) (iblk1 V c 2 t) (iblk1 V c 3 t) (iblk1 V c 4 t) (iblk1 V c 5 t) (ix2 p h)
    = out V c (((cfg1.win 6).blk t).view.emb (ix2 p h))
  rw [emb6 t ht p h]
  have hc : (grid1.coords t 0).val = t.val := (idx_facts t).2.2.2.2.2.2.2.2.2.2.2.2.2.2
  rw [tile_at (grid1.coords t) t.val ht hc _ _ _ _ _ _ (cur2 (V c main_arg0)) (fun p k => blk0 V c t ht p k) p h]
  unfold out
  rw [arr2_ix2]
  unfold layer
  refine congrArg₂ (fun S W => chord S W (⟨512 * t.val + p.val, by omega⟩ : Fin 8192) h) ?_ ?_
  · funext r j
    refine dense_congr _ _ _ _ _ _ r r j j (fun k => ?_) (fun k => blk3 V c t j k) (blk4 V c t j)
    exact dense_congr _ _ _ _ _ _ r r k k (fun d => rfl) (fun d => blk1 V c t k d) (blk2 V c t k)
  · funext r k
    exact blk5 V c t r k

/-- An index of the result is in point `t`'s block iff its row is among the point's 512 rows. -/
theorem mem_blk (t : Fin cfg1.N) (i : S8192x64.Idx) :
    i ∈ ((cfg1.win 6).blk t).view.set ↔ ∀ a : Fin 2, win1_6.index t a * S512x64.size a ≤ (i a).val ∧ (i a).val < win1_6.index t a * S512x64.size a + S512x64.size a := by
  show i ∈ ((View.whole main_v11).slice (win1_6.rect t)).set ↔ _
  rw [View.set_slice_whole, Rect.mem_set_unit]
  exact Iff.rfl

/-- Every index of the result is in the block of the point that owns its row. -/
theorem cover (i : S8192x64.Idx) : ∃ t : Fin cfg1.N, (cfg1.win 6).flush t = true ∧ i ∈ ((cfg1.win 6).blk t).view.set := by
  have hi0 : (i 0).val < 8192 := (i 0).isLt
  have hi1 : (i 1).val < 64 := (i 1).isLt
  refine ⟨⟨(i 0).val / 512, by rw [show cfg1.N = 16 from N16]; omega⟩, flush1_6 _, ?_⟩
  rw [mem_blk]
  obtain ⟨-, -, -, -, -, -, -, -, -, -, -, -, e60, e61, -⟩ := idx_facts ⟨(i 0).val / 512, by rw [show cfg1.N = 16 from N16]; omega⟩
  intro a
  match a with
  | ⟨0, _⟩ =>
    show win1_6.index _ (0 : Fin 2) * 512 ≤ (i 0).val ∧ (i 0).val < win1_6.index _ (0 : Fin 2) * 512 + 512
    rw [e60]; show (i 0).val / 512 * 512 ≤ (i 0).val ∧ (i 0).val < (i 0).val / 512 * 512 + 512; omega
  | ⟨1, _⟩ =>
    show win1_6.index _ (1 : Fin 2) * 64 ≤ (i 1).val ∧ (i 1).val < win1_6.index _ (1 : Fin 2) * 64 + 64
    rw [e61]; omega

/-- THE ARRAY after the region: the chord layer of the arrays the region finds. -/
theorem final (c : Dev nD) : (dat1 V c).arrAt 6 cfg1.N = out V c :=
  (dat1 V c).arrAt_eq_of_cover 6 (out V c) (fun t _ => flushed_eq V c t) cover

end Cert.KLayer1

end
-- ==== Proof.KTile2.lean ====
/-
  What one grid point of chord layer two leaves in its output block, as a pure function of the
  blocks it is given: the row tile of `X`, the first layer's weights and bias, the whole second-layer weight and bias
  arrays and the whole array of values — the body reads two 512-row chunks of each of the last three, at row offsets
  computed from the grid coordinate.
-/
import proofs.«102228_j3375844295380_2_alg».proof.Proof.Gen.KernelIdeal.Frame
import Idealize.ShloMosaic.Lib.Pipeline.Value

set_option maxRecDepth 16384

noncomputable section

namespace Cert.KTile2

open Cert.KernelIdeal Cert.KernelIdeal.Gen
open Idealize.ShloMosaic Idealize.ShloMosaic.TcCoe Idealize.ShloMosaic.Tactic
open Idealize.SL Idealize.SL.Sem

variable {F : FTy → Type} [FloatOps F]

/-- The chunk of 512 rows of a 8192×64 array at the row offsets `off`. -/
abbrev rows (off : Fin 2 → Nat) (h : ∀ a, off a + S512x64.size a ≤ S8192x64.size a) : Rect S8192x64 :=
  Rect.unit (s := S8192x64) off S512x64.size h
/-- The chunk of 512 columns of a 1×8192 array at the column offsets `off`. -/
abbrev cols (off : Fin 2 → Nat) (h : ∀ a, off a + S1x512.size a ≤ S1x8192.size a) : Rect S1x8192 :=
  Rect.unit (s := S1x8192) off S1x512.size h

/-- The output block of a grid point: the masked scores of the diagonal chunk times its values, plus the masked scores of
    the next chunk times its values. -/
def tile (i : grid2.Coords) (x0 : Vec F S512x64 .f32) (x1 : Vec F S64x64 .f32) (x2 : Vec F S1x64 .f32)
    (x3 : Vec F S8192x64 .f32) (x4 : Vec F S1x8192 .f32) (x5 : Vec F S8192x64 .f32) : FVec F S512x64 .f32 :=
  k2_pay1 (k2_pay3 i)
    (k2_pay10 (k2_pay3 i) k2_pay4
      (k2_pay5 x0 x1 x2 (View.ld x3 (rows (k2_off1 i) (k2_off1_inb i))) (View.ld x4 (cols (k2_off2 i) (k2_off2_inb i))))
      (k2_pay6 i) (k2_pay7 i) (k2_pay8 i) k2_pay9 (View.ld x5 (rows (k2_off1 i) (k2_off1_inb i))))
    (k2_pay11 (k2_pay2 x0 x1 x2) (View.ld x3 (rows (k2_off3 i) (k2_off3_inb i))) (View.ld x4 (cols (k2_off4 i) (k2_off4_inb i))))
    (k2_pay12 (BitVec.ofNat 32 (i 0).val))
    (View.ld x5 (rows (k2_off3 i) (k2_off3_inb i)))

theorem hz : (![0, 0] : Fin 2 → Nat) = fun _ => 0 := funext fun a => by fin_cases a <;> rfl

/-- The body's one store, through the whole output block, leaves `tile` of the blocks it read. -/
theorem out_eq (c : Dev nD) (i : grid2.Coords) (arg1 : Memref sig .tc .vmem S512x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S8192x64 .f32) (harg4 : arg4.IsWhole) (arg5 : Memref sig .tc .vmem S1x8192 .f32) (harg5 : arg5.IsWhole) (arg6 : Memref sig .tc .vmem S8192x64 .f32) (harg6 : arg6.IsWhole) (arg7 : Memref sig .tc .vmem S512x64 .f32) (harg7 : arg7.IsWhole)
    (x0 : Vec F S512x64 .f32) (x1 : Vec F S64x64 .f32) (x2 : Vec F S1x64 .f32) (x3 : Vec F S8192x64 .f32) (x4 : Vec F S1x8192 .f32) (x5 : Vec F S8192x64 .f32) :
    out2_A_6 c i arg1 harg1 arg2 harg2 arg3 harg3 arg4 harg4 arg5 harg5 arg6 harg6 arg7 harg7 x0 x1 x2 x3 x4 x5
      = tile i x0 x1 x2 x3 x4 x5 := by
  unfold out2_A_6
  rw [View.read_writes_eq_canon _ _ _ (cover2_A_6 c i arg1 harg1 arg2 harg2 arg3 harg3 arg4 harg4 arg5 harg5 arg6 harg6 arg7 harg7 x0 x1 x2 x3 x4 x5)]
  unfold kernelRun2_A
  dsimp only
  sl_unfold_run_names
  rw [View.canon_unit_zero hz]
  simp only [View.readAt_eq_ld, harg1.read_unread, harg2.read_unread, harg3.read_unread, harg4.read_unread, harg5.read_unread, harg6.read_unread,
    View.ld_unit_zero (S := S512x64) hz, View.ld_unit_zero (S := S64x64) hz, View.ld_unit_zero (S := S1x64) hz]
  rfl

end Cert.KTile2

end
-- ==== Proof.KTile2Val.lean ====
/-
  The output block of a grid point of chord layer two, read at an entry, over the extended reals.

  Grid point `t` owns rows `512 t … 512 t + 511`. The body forms the scores of those rows against column chunk `t` and
  against column chunk `(t + 1) mod 16`, keeps in each the entries on the diagonal, on the superdiagonal and at the cyclic
  wrap, multiplies each masked chunk with the matching chunk of values and adds the two products. At row `512 t + p` the
  first chunk keeps places `p` and `p + 1` and the second keeps place `0` exactly when `p = 511`; so the entry is the
  two-term row of `Chord.chord`.
-/
import proofs.«102228_j3375844295380_2_alg».proof.Proof.KTile2
import proofs.«102228_j3375844295380_2_alg».proof.Proof.KDot
import proofs.«102228_j3375844295380_2_alg».proof.Proof.ChordTile
import Idealize.ShloMosaic.Lib.ValueLayout

set_option maxRecDepth 16384

noncomputable section

open scoped BigOperators

namespace Cert.KTile2

open Cert.KernelIdeal Cert.KernelIdeal.Gen Cert.Chord
open Idealize.ShloMosaic Idealize.ShloMosaic.ValueIdx

/-- The one row of a `[1, n]` array. -/
def row1 {n : Nat} (x : (⟨2, ![1, n]⟩ : Shape).Idx → EReal) : Fin n → EReal := fun a => x (ix2 (0 : Fin 1) a)

theorem scalar_zero : Scalar.ofBits (F := Ideal) .f32 0x00000000#32 = (0 : EReal) := Ideal.ofBits_zero_f32

/-! ## The dense layers -/

/-- The first dense layer of the row tile. -/
theorem pay2_at (v1 : Vec Ideal S512x64 .f32) (v3 : Vec Ideal S64x64 .f32) (v6 : Vec Ideal S1x64 .f32) (p : Fin 512) (k : Fin 64) :
    k2_pay2 (F := Ideal) v1 v3 v6 (ix2 p k) = dense (cur2 v1) (cur2 v3) (row1 v6) p k := by
  unfold k2_pay2
  simp only [truncf_apply, maximumf_apply, addf_apply, broadcast_apply, KDot.dot_tile_w, broadcastTo_1b_ab_apply,
    Idealize.ShloMosaic.shapeCast_self, scalar_zero]
  unfold dense
  refine congrArg (fun s => max (s + v6 (ix2 0 k)) 0) (Finset.sum_congr rfl fun j _ => ?_)
  exact congrArg (v1 (ix2 p j) * ·) (transpose_ix2_apply (a := 64) (b := 64) _ _ j k)

/-- The scores of the row tile against a chunk of 512 columns: the second dense layer, with the chunk's weights and bias. -/
theorem pay5_at (v1 : Vec Ideal S512x64 .f32) (v3 : Vec Ideal S64x64 .f32) (v6 : Vec Ideal S1x64 .f32)
    (v22 : Vec Ideal S512x64 .f32) (v26 : Vec Ideal S1x512 .f32) (p q : Fin 512) :
    k2_pay5 (F := Ideal) v1 v3 v6 v22 v26 (ix2 p q)
      = dense (dense (cur2 v1) (cur2 v3) (row1 v6)) (cur2 v22) (row1 v26) p q := by
  unfold k2_pay5
  simp only [truncf_apply, maximumf_apply, addf_apply, broadcast_apply, KDot.dot_tile_chunk, broadcastTo_1b_ab_apply,
    Idealize.ShloMosaic.shapeCast_self, scalar_zero, pay2_at]
  conv_rhs => unfold dense
  refine congrArg (fun s => max (s + v26 (ix2 0 q)) 0) (Finset.sum_congr rfl fun j _ => ?_)
  exact congrArg (dense (cur2 v1) (cur2 v3) (row1 v6) p j * ·) (transpose_ix2_apply (a := 512) (b := 64) _ _ j q)

theorem pay11_at (v1 : Vec Ideal S512x64 .f32) (v3 : Vec Ideal S64x64 .f32) (v6 : Vec Ideal S1x64 .f32)
    (v71 : Vec Ideal S512x64 .f32) (v75 : Vec Ideal S1x512 .f32) (p q : Fin 512) :
    k2_pay11 (F := Ideal) (k2_pay2 v1 v3 v6) v71 v75 (ix2 p q)
      = dense (dense (cur2 v1) (cur2 v3) (row1 v6)) (cur2 v71) (row1 v75) p q := by
  unfold k2_pay11
  simp only [truncf_apply, maximumf_apply, addf_apply, broadcast_apply, KDot.dot_tile_chunk, broadcastTo_1b_ab_apply,
    Idealize.ShloMosaic.shapeCast_self, scalar_zero, pay2_at]
  conv_rhs => unfold dense
  refine congrArg (fun s => max (s + v75 (ix2 0 q)) 0) (Finset.sum_congr rfl fun j _ => ?_)
  exact congrArg (dense (cur2 v1) (cur2 v3) (row1 v6) p j * ·) (transpose_ix2_apply (a := 512) (b := 64) _ _ j q)

/-! ## The row and column words -/

/-- The row word of entry `(p, q)` of the tile: `512 t + p`. -/
theorem pay3_at (i : grid2.Coords) (p q : Fin 512) :
    k2_pay3 i (ix2 p q) = BitVec.ofNat 32 (512 * (i 0).val + p.val) := by
  show BitVec.ofNat 32 (i 0).val * 512#32 + BitVec.ofNat 32 (0 * 512 + p.val) = _
  rw [Nat.zero_mul, Nat.zero_add]
  exact word_mul_add _ _

/-- The column word of entry `(p, q)` against the diagonal chunk: `512 t + q`. -/
theorem pay6_at (i : grid2.Coords) (p q : Fin 512) :
    k2_pay6 i (ix2 p q) = BitVec.ofNat 32 (512 * (i 0).val + q.val) := by
  show BitVec.ofNat 32 (i 0).val * 512#32 + BitVec.ofNat 32 (0 * 512 + q.val) = _
  rw [Nat.zero_mul, Nat.zero_add]
  exact word_mul_add _ _

/-- The first column of the next chunk, as the body computes it from the grid coordinate. -/
theorem next_base : ∀ i : grid2.Coords, k2_mult2 i = BitVec.ofNat 32 (512 * (((i 0).val + 1) % 16)) := by decide +kernel

/-- The column word of entry `(p, q)` against the next chunk: `512 ((t + 1) mod 16) + q`. -/
theorem pay12_at (i : grid2.Coords) (p q : Fin 512) :
    k2_pay12 (BitVec.ofNat 32 (i 0).val) (ix2 p q) = BitVec.ofNat 32 (512 * (((i 0).val + 1) % 16) + q.val) := by
  show k2_mult2 i + BitVec.ofNat 32 (0 * 512 + q.val) = _
  rw [next_base, Nat.zero_mul, Nat.zero_add]
  exact word_add _ _

theorem off3_eq : ∀ i : grid2.Coords, k2_off3 i = ![512 * (((i 0).val + 1) % 16), 0] := by decide +kernel
theorem off4_eq : ∀ i : grid2.Coords, k2_off4 i = ![0, 512 * (((i 0).val + 1) % 16)] := by decide +kernel

/-! ## The chunks the body loads -/

/-- A chunk of 512 rows starting at row `b`, read at an entry. -/
theorem ld_rows (x : Vec Ideal S8192x64 .f32) (off : Fin 2 → Nat) (hin : ∀ a, off a + S512x64.size a ≤ S8192x64.size a)
    (b : Nat) (hb : b + 512 ≤ 8192) (hoff : off = ![b, 0]) (q : Fin 512) (k : Fin 64) :
    View.ld x (rows off hin) (ix2 q k) = x (ix2 (⟨b + q.val, by omega⟩ : Fin 8192) k) := by
  subst hoff
  refine congrArg x (funext fun a => Fin.ext ?_)
  match a with
  | ⟨0, _⟩ => show b + 1 * q.val = b + q.val; omega
  | ⟨1, _⟩ => show 0 + 1 * k.val = k.val; omega

/-- A chunk of 512 columns starting at column `b`, read at an entry. -/
theorem ld_cols (x : Vec Ideal S1x8192 .f32) (off : Fin 2 → Nat) (hin : ∀ a, off a + S1x512.size a ≤ S1x8192.size a)
    (b : Nat) (hb : b + 512 ≤ 8192) (hoff : off = ![0, b]) (q : Fin 512) :
    View.ld x (cols off hin) (ix2 (0 : Fin 1) q) = x (ix2 (0 : Fin 1) (⟨b + q.val, by omega⟩ : Fin 8192)) := by
  subst hoff
  refine congrArg x (funext fun a => Fin.ext ?_)
  match a with
  | ⟨0, _⟩ => show 0 + 1 * 0 = 0; omega
  | ⟨1, _⟩ => show b + 1 * q.val = b + q.val; omega

/-! ## The output block at an entry -/

/-- The two masked products, with the masks still as words. -/
theorem pay1_at (i : grid2.Coords) (v1 : Vec Ideal S512x64 .f32) (v3 : Vec Ideal S64x64 .f32) (v6 : Vec Ideal S1x64 .f32)
    (v22 : Vec Ideal S512x64 .f32) (v26 : Vec Ideal S1x512 .f32) (v52 : Vec Ideal S512x64 .f32)
    (v71 : Vec Ideal S512x64 .f32) (v75 : Vec Ideal S1x512 .f32) (v101 : Vec Ideal S512x64 .f32) (p : Fin 512) (h : Fin 64) :
    k2_pay1 (F := Ideal) (k2_pay3 i)
        (k2_pay10 (k2_pay3 i) k2_pay4 (k2_pay5 v1 v3 v6 v22 v26) (k2_pay6 i) (k2_pay7 i) (k2_pay8 i) k2_pay9 v52)
        (k2_pay11 (k2_pay2 v1 v3 v6) v71 v75) (k2_pay12 (BitVec.ofNat 32 (i 0).val)) v101 (ix2 p h)
      = (0 + ∑ q : Fin 512, Scalar.select (maskWord (k2_pay3 i (ix2 p q)) (k2_pay6 i (ix2 p q)))
            (dense (dense (cur2 v1) (cur2 v3) (row1 v6)) (cur2 v22) (row1 v26) p q) 0 * v52 (ix2 q h))
        + ∑ q : Fin 512, Scalar.select (maskWord (k2_pay3 i (ix2 p q)) (k2_pay12 (BitVec.ofNat 32 (i 0).val) (ix2 p q)))
            (dense (dense (cur2 v1) (cur2 v3) (row1 v6)) (cur2 v71) (row1 v75) p q) 0 * v101 (ix2 q h) := by
  unfold k2_pay1 k2_pay10 k2_pay4 k2_pay7 k2_pay8 k2_pay9
  simp only [truncf_apply, addf_apply, broadcast_apply, select_apply, KDot.dot_chunk_v, Idealize.ShloMosaic.shapeCast_self,
    scalar_zero, pay5_at, pay11_at]
  rfl

/-- The output block of grid point `t` at entry `(p, h)` is row `512 t + p`, column `h`, of the chord layer of the whole
    arrays: the first dense layer sees row `512 t + p` of `X`, the two loaded chunks of the second layer's weights and
    bias are rows `512 t + q` and `512 ((t + 1) mod 16) + q`, and the two masks keep the diagonal and the cyclic
    superdiagonal. -/
theorem tile_at (i : grid2.Coords) (t : Nat) (ht : t < 16) (hi : (i 0).val = t)
    (x0 : Vec Ideal S512x64 .f32) (x1 : Vec Ideal S64x64 .f32) (x2 : Vec Ideal S1x64 .f32)
    (x3 : Vec Ideal S8192x64 .f32) (x4 : Vec Ideal S1x8192 .f32) (x5 : Vec Ideal S8192x64 .f32)
    (X : Fin 8192 → Fin 64 → EReal)
    (h0 : ∀ (p : Fin 512) (k : Fin 64), x0 (ix2 p k) = X ⟨512 * t + p.val, by omega⟩ k)
    (p : Fin 512) (h : Fin 64) :
    tile i x0 x1 x2 x3 x4 x5 (ix2 p h)
      = layer X (cur2 x1) (row1 x2) (cur2 x3) (row1 x4) (cur2 x5) ⟨512 * t + p.val, by omega⟩ h := by
  unfold tile
  rw [pay1_at]
  unfold layer
  refine tile_chord (dense (dense X (cur2 x1) (row1 x2)) (cur2 x3) (row1 x4)) (cur2 x5) ⟨t, ht⟩ p h _ _ _ _ _ _
    (fun q => ?_) (fun q => ?_) (fun q => ?_) (fun q => ?_) (fun q => ?_) (fun q => ?_)
  · beta_reduce
    rw [pay3_at, pay6_at, hi]
    exact mask_diag t p.val q.val ht p.isLt q.isLt
  · beta_reduce
    rw [pay3_at, pay12_at, hi]
    exact mask_next t p.val q.val ht p.isLt q.isLt
  · refine dense_congr _ _ _ _ _ _ p _ q _ (fun k => ?_) (fun k => ?_) ?_
    · exact dense_congr _ _ _ _ _ _ p _ k k (fun d => h0 p d) (fun d => rfl) rfl
    · exact ld_rows x3 _ _ (512 * t) (by omega) (by rw [k2_off1_eq, hi]) q k
    · exact ld_cols x4 _ _ (512 * t) (by omega) (by rw [k2_off2_eq, hi]) q
  · exact ld_rows x5 _ _ (512 * t) (by omega) (by rw [k2_off1_eq, hi]) q h
  · refine dense_congr _ _ _ _ _ _ p _ q _ (fun k => ?_) (fun k => ?_) ?_
    · exact dense_congr _ _ _ _ _ _ p _ k k (fun d => h0 p d) (fun d => rfl) rfl
    · exact ld_rows x3 _ _ (512 * ((t + 1) % 16)) (by omega) (by rw [off3_eq, hi]) q k
    · exact ld_cols x4 _ _ (512 * ((t + 1) % 16)) (by omega) (by rw [off4_eq, hi]) q
  · exact ld_rows x5 _ _ (512 * ((t + 1) % 16)) (by omega) (by rw [off3_eq, hi]) q h

end Cert.KTile2

end
-- ==== Proof.KLayer2.lean ====
/-
  The array chord layer two leaves, as ONE function of the six arrays the region finds.

  Grid point `t` writes back rows `512 t … 512 t + 511` of the result; by the tile lemma its block is those rows of the
  chord layer of the whole arrays (its `X` window is the same rows of `X`; the other five windows are whole arrays).
  The sixteen blocks tile the result, so the array after the region is the chord layer.
-/
import proofs.«102228_j3375844295380_2_alg».proof.Proof.KTile2Val

set_option maxRecDepth 16384

noncomputable section

namespace Cert.KLayer2

open Cert.KernelIdeal Cert.KernelIdeal.Gen Cert.Chord Cert.KTile2
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- The chord layer of the region's input arrays. -/
def out (c : Dev nD) : S8192x64.Idx → EReal :=
  arr2 (layer (cur2 (V c main_arg0)) (cur2 (V c main_v13)) (row1 (V c main_v16)) (cur2 (V c main_v18))
    (row1 (V c main_v21)) (cur2 (V c main_v11)))

theorem N16 : grid2.N = 16 := by decide

/-- The printed index maps, decided over the sixteen grid points: the `X` window and the output window move with the
    point along the rows; the other windows stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ (grid2.coords t 0).val = t.val :=
  (by decide +kernel : ∀ t : Fin grid2.N, _)

/-! ## The blocks the point is given -/

theorem blk0 (c : Dev nD) (t : Fin cfg2.N) (ht : t.val < 16) (p : Fin 512) (k : Fin 64) :
    iblk2 V c 0 t (ix2 p k) = V c main_arg0 (ix2 (⟨512 * t.val + p.val, by omega⟩ : Fin 8192) k) := by
  obtain ⟨e00, e01, -⟩ := idx_facts t
  show V c main_arg0 (((cfg2.win 0).blk t).view.emb (ix2 p k)) = _
  refine congrArg (V c main_arg0) (funext fun a => Fin.ext ?_)
  match a with
  | ⟨0, _⟩ => show win2_0.index t (0 : Fin 2) * 512 + 1 * p.val = 512 * t.val + p.val; omega
  | ⟨1, _⟩ => show win2_0.index t (1 : Fin 2) * 64 + 1 * k.val = k.val; omega

theorem blk1 (c : Dev nD) (t : Fin cfg2.N) (a k : Fin 64) :
    iblk2 V c 1 t (ix2 a k) = V c main_v13 (ix2 a k) := by
  obtain ⟨-, -, e10, e11, -⟩ := idx_facts t
  show V c main_v13 (((cfg2.win 1).blk t).view.emb (ix2 a k)) = _
  refine congrArg (V c main_v13) (funext fun x => Fin.ext ?_)
  match x with
  | ⟨0, _⟩ => show win2_1.index t (0 : Fin 2) * 64 + 1 * a.val = a.val; omega
  | ⟨1, _⟩ => show win2_1.index t (1 : Fin 2) * 64 + 1 * k.val = k.val; omega

theorem blk2 (c : Dev nD) (t : Fin cfg2.N) (k : Fin 64) :
    iblk2 V c 2 t (ix2 (0 : Fin 1) k) = V c main_v16 (ix2 (0 : Fin 1) k) := by
  obtain ⟨-, -, -, -, e20, e21, -⟩ := idx_facts t
  show V c main_v16 (((cfg2.win 2).blk t).view.emb (ix2 (0 : Fin 1) k)) = _
  refine congrArg (V c main_v16) (funext fun x => Fin.ext ?_)
  match x with
  | ⟨0, _⟩ => show win2_2.index t (0 : Fin 2) * 1 + 1 * 0 = 0; omega
  | ⟨1, _⟩ => show win2_2.index t (1 : Fin 2) * 64 + 1 * k.val = k.val; omega

theorem blk3 (c : Dev nD) (t : Fin cfg2.N) (r : Fin 8192) (k : Fin 64) :
    iblk2 V c 3 t (ix2 r k) = V c main_v18 (ix2 r k) := by
  obtain ⟨-, -, -, -, -, -, e30, e31, -⟩ := idx_facts t
  show V c main_v18 (((cfg2.win 3).blk t).view.emb (ix2 r k)) = _
  refine congrArg (V c main_v18) (funext fun x => Fin.ext ?_)
  match x with
  | ⟨0, _⟩ => show win2_3.index t (0 : Fin 2) * 8192 + 1 * r.val = r.val; omega
  | ⟨1, _⟩ => show win2_3.index t (1 : Fin 2) * 64 + 1 * k.val = k.val; omega

theorem blk4 (c : Dev nD) (t : Fin cfg2.N) (j : Fin 8192) :
    iblk2 V c 4 t (ix2 (0 : Fin 1) j) = V c main_v21 (ix2 (0 : Fin 1) j) := by
  obtain ⟨-, -, -, -, -, -, -, -, e40, e41, -⟩ := idx_facts t
  show V c main_v21 (((cfg2.win 4).blk t).view.emb (ix2 (0 : Fin 1) j)) = _
  refine congrArg (V c main_v21) (funext fun x => Fin.ext ?_)
  match x with
  | ⟨0, _⟩ => show win2_4.index t (0 : Fin 2) * 1 + 1 * 0 = 0; omega
  | ⟨1, _⟩ => show win2_4.index t (1 : Fin 2) * 8192 + 1 * j.val = j.val; omega

theorem blk5 (c : Dev nD) (t : Fin cfg2.N) (r : Fin 8192) (k : Fin 64) :
    iblk2 V c 5 t (ix2 r k) = V c main_v11 (ix2 r k) := by
  obtain ⟨-, -, -, -, -, -, -, -, -, -, e50, e51, -⟩ := idx_facts t
  show V c main_v11 (((cfg2.win 5).blk t).view.emb (ix2 r k)) = _
  refine congrArg (V c main_v11) (funext fun x => Fin.ext ?_)
  match x with
  | ⟨0, _⟩ => show win2_5.index t (0 : Fin 2) * 8192 + 1 * r.val = r.val; omega
  | ⟨1, _⟩ => show win2_5.index t (1 : Fin 2) * 64 + 1 * k.val = k.val; omega

/-! ## What a point writes back, and the cover -/

/-- The block of the result at point `t`, entry `(p, h)`, is row `512 t + p`. -/
theorem emb6 (t : Fin cfg2.N) (ht : t.val < 16) (p : Fin 512) (h : Fin 64) :
    ((cfg2.win 6).blk t).view.emb (ix2 p h) = ix2 (⟨512 * t.val + p.val, by omega⟩ : Fin 8192) h := by
  obtain ⟨-, -, -, -, -, -, -, -, -, -, -, -, e60, e61, -⟩ := idx_facts t
  refine funext fun x => Fin.ext ?_
  match x with
  | ⟨0, _⟩ => show win2_6.index t (0 : Fin 2) * 512 + 1 * p.val = 512 * t.val + p.val; omega
  | ⟨1, _⟩ => show win2_6.index t (1 : Fin 2) * 64 + 1 * h.val = h.val; omega

/-- WHAT POINT `t` WRITES BACK is block `t` of the chord layer of the arrays the region finds. -/
theorem flushed_eq (c : Dev nD) (t : Fin cfg2.N) :
    (dat2 V c).flushed 6 t = ((cfg2.win 6).blk t).view.read (Elt Ideal) (out V c) := by
  have ht : t.val < 16 := lt_of_lt_of_eq t.isLt (show cfg2.N = 16 from N16)
  show (cfg2.win 6).cut (grid2.coords t) ((dat2 V c).after 6 t) = _
  rw [after2_6]
  unfold outsAt2
  rw [out_eq]
  funext j
  obtain ⟨p, h, rfl⟩ : ∃ (p : Fin 512) (h : Fin 64), j = ix2 p h := ⟨j 0, j 1, eq_ix2 j⟩
  show tile (grid2.coords t) (iblk2 V c 0 t) (iblk2 V c 1 t) (iblk2 V c 2 t) (iblk2 V c 3 t) (iblk2 V c 4 t) (iblk2 V c 5 t) (ix2 p h)
    = out V c (((cfg2.win 6).blk t).view.emb (ix2 p h))
  rw [emb6 t ht p h]
  have hc : (grid2.coords t 0).val = t.val := (idx_facts t).2.2.2.2.2.2.2.2.2.2.2.2.2.2
  rw [tile_at (grid2.coords t) t.val ht hc _ _ _ _ _ _ (cur2 (V c main_arg0)) (fun p k => blk0 V c t ht p k) p h]
  unfold out
  rw [arr2_ix2]
  unfold layer
  refine congrArg₂ (fun S W => chord S W (⟨512 * t.val + p.val, by omega⟩ : Fin 8192) h) ?_ ?_
  · funext r j
    refine dense_congr _ _ _ _ _ _ r r j j (fun k => ?_) (fun k => blk3 V c t j k) (blk4 V c t j)
    exact dense_congr _ _ _ _ _ _ r r k k (fun d => rfl) (fun d => blk1 V c t k d) (blk2 V c t k)
  · funext r k
    exact blk5 V c t r k

/-- An index of the result is in point `t`'s block iff its row is among the point's 512 rows. -/
theorem mem_blk (t : Fin cfg2.N) (i : S8192x64.Idx) :
    i ∈ ((cfg2.win 6).blk t).view.set ↔ ∀ a : Fin 2, win2_6.index t a * S512x64.size a ≤ (i a).val ∧ (i a).val < win2_6.index t a * S512x64.size a + S512x64.size a := by
  show i ∈ ((View.whole main_v22).slice (win2_6.rect t)).set ↔ _
  rw [View.set_slice_whole, Rect.mem_set_unit]
  exact Iff.rfl

/-- Every index of the result is in the block of the point that owns its row. -/
theorem cover (i : S8192x64.Idx) : ∃ t : Fin cfg2.N, (cfg2.win 6).flush t = true ∧ i ∈ ((cfg2.win 6).blk t).view.set := by
  have hi0 : (i 0).val < 8192 := (i 0).isLt
  have hi1 : (i 1).val < 64 := (i 1).isLt
  refine ⟨⟨(i 0).val / 512, by rw [show cfg2.N = 16 from N16]; omega⟩, flush2_6 _, ?_⟩
  rw [mem_blk]
  obtain ⟨-, -, -, -, -, -, -, -, -, -, -, -, e60, e61, -⟩ := idx_facts ⟨(i 0).val / 512, by rw [show cfg2.N = 16 from N16]; omega⟩
  intro a
  match a with
  | ⟨0, _⟩ =>
    show win2_6.index _ (0 : Fin 2) * 512 ≤ (i 0).val ∧ (i 0).val < win2_6.index _ (0 : Fin 2) * 512 + 512
    rw [e60]; show (i 0).val / 512 * 512 ≤ (i 0).val ∧ (i 0).val < (i 0).val / 512 * 512 + 512; omega
  | ⟨1, _⟩ =>
    show win2_6.index _ (1 : Fin 2) * 64 ≤ (i 1).val ∧ (i 1).val < win2_6.index _ (1 : Fin 2) * 64 + 64
    rw [e61]; omega

/-- THE ARRAY after the region: the chord layer of the arrays the region finds. -/
theorem final (c : Dev nD) : (dat2 V c).arrAt 6 cfg2.N = out V c :=
  (dat2 V c).arrAt_eq_of_cover 6 (out V c) (fun t _ => flushed_eq V c t) cover

end Cert.KLayer2

end
-- ==== Proof.KHostArgs.lean ====
/-
  The argument arrays the kernel program never writes, followed through its run.

  The program is three regions with a stretch of host operations before the second and before the third. The
  stacked score weights and biases are arguments no region has as an array and no host operation writes, so at
  every boundary they hold what they held at launch; the input array is an input of the regions, which leave an
  input as they found it.
-/
import proofs.«102228_j3375844295380_2_alg».proof.Proof.Gen.KernelIdeal.Frame
import Idealize.ShloMosaic.Lib.StableHlo.Run
import Idealize.ShloMosaic.Lib.ValueLayout
import Idealize.ShloMosaic.Lib.ValueIdx

noncomputable section

namespace Cert.KHost

open Cert.KernelIdeal Cert.KernelIdeal.Gen Idealize.ShloMosaic Idealize.ShloMosaic.ValueIdx Idealize.ShloMosaic.TcCoe

variable (m : (ℓ : Loc nD τ sig) → Buf (Elt Ideal) ℓ) (ρ : Dev nD → PrngReg) (c : Dev nD)

/-- No operation of either stretch of host operations writes the buffer in question: the buffers they write are
    read off the operations, and each is a different reference. -/
macro "not_written" : tactic => `(tactic| (
  refine List.forall_iff_forall_mem.mp ?_
  simp only [hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## When region 0 ends -/

/-- Region 0 does not touch the score weights and biases: they hold the launch contents when it ends. -/
theorem W1_arg3 : W1 m ρ c (Proc.devRef .tc main_arg3) = m ((c : Thread nD τ).loc main_arg3) :=
  W1_of_ne m ρ c main_arg3 (by decide)
theorem W1_arg4 : W1 m ρ c (Proc.devRef .tc main_arg4) = m ((c : Thread nD τ).loc main_arg4) :=
  W1_of_ne m ρ c main_arg4 (by decide)
theorem W1_arg5 : W1 m ρ c (Proc.devRef .tc main_arg5) = m ((c : Thread nD τ).loc main_arg5) :=
  W1_of_ne m ρ c main_arg5 (by decide)
theorem W1_arg6 : W1 m ρ c (Proc.devRef .tc main_arg6) = m ((c : Thread nD τ).loc main_arg6) :=
  W1_of_ne m ρ c main_arg6 (by decide)

/-! ## When region 1 is entered and when it ends -/

/-- The input array is read by region 0 and written by nothing: it holds the launch contents when region 1 is
    entered. -/
theorem W2_arg0 : W2 m ρ c (Proc.devRef .tc main_arg0) = m ((c : Thread nD τ).loc main_arg0) :=
  calc W2 m ρ c (Proc.devRef .tc main_arg0)
    _ = W1 m ρ c (Proc.devRef .tc main_arg0) :=
        StableHlo.after_of_forall_not_mem (b := Proc.devRef .tc main_arg0) hostOps1 (W1 m ρ c) (by not_written)
    _ = W0 m ρ c (Proc.devRef .tc main_arg0) :=
        (W1_arr m ρ c 0).trans (((dat0 (V0 m ρ) c).arrAt_in 0 rfl _).trans (A_eq0 (V0 m ρ) c 0))
    _ = m ((c : Thread nD τ).loc main_arg0) := rfl

/-- The first stretch of host operations and region 1 do not touch the score weights and biases either. -/
theorem W3_arg3 : W3 m ρ c (Proc.devRef .tc main_arg3) = m ((c : Thread nD τ).loc main_arg3) :=
  (W3_of_ne m ρ c main_arg3 (by decide)).trans
    ((StableHlo.after_of_forall_not_mem (b := Proc.devRef .tc main_arg3) hostOps1 (W1 m ρ c) (by not_written)).trans
      (W1_arg3 m ρ c))
theorem W3_arg4 : W3 m ρ c (Proc.devRef .tc main_arg4) = m ((c : Thread nD τ).loc main_arg4) :=
  (W3_of_ne m ρ c main_arg4 (by decide)).trans
    ((StableHlo.after_of_forall_not_mem (b := Proc.devRef .tc main_arg4) hostOps1 (W1 m ρ c) (by not_written)).trans
      (W1_arg4 m ρ c))
theorem W3_arg5 : W3 m ρ c (Proc.devRef .tc main_arg5) = m ((c : Thread nD τ).loc main_arg5) :=
  (W3_of_ne m ρ c main_arg5 (by decide)).trans
    ((StableHlo.after_of_forall_not_mem (b := Proc.devRef .tc main_arg5) hostOps1 (W1 m ρ c) (by not_written)).trans
      (W1_arg5 m ρ c))
theorem W3_arg6 : W3 m ρ c (Proc.devRef .tc main_arg6) = m ((c : Thread nD τ).loc main_arg6) :=
  (W3_of_ne m ρ c main_arg6 (by decide)).trans
    ((StableHlo.after_of_forall_not_mem (b := Proc.devRef .tc main_arg6) hostOps1 (W1 m ρ c) (by not_written)).trans
      (W1_arg6 m ρ c))

end Cert.KHost

end
-- ==== Proof.KHost1.lean ====
/-
  What the buffers hold when region 1 of the kernel program is entered.

  Before region 1 the program cuts slab 0 out of each stacked weight and bias array and drops the slab's unit axis
  (for a bias, drops it and puts it back, which leaves a one-row matrix). Read at an index, a buffer so made is
  the stacked array at the same index with 0 in front.
-/
import proofs.«102228_j3375844295380_2_alg».proof.Proof.Gen.KernelIdeal.Frame
import proofs.«102228_j3375844295380_2_alg».proof.Proof.KHostArgs
import Idealize.ShloMosaic.Lib.StableHlo.Run
import Idealize.ShloMosaic.Lib.ValueLayout
import Idealize.ShloMosaic.Lib.ValueIdx

noncomputable section

namespace Cert.KHost

open Cert.KernelIdeal Cert.KernelIdeal.Gen Idealize.ShloMosaic Idealize.ShloMosaic.ValueIdx Idealize.ShloMosaic.TcCoe

variable (m : (ℓ : Loc nD τ sig) → Buf (Elt Ideal) ℓ) (ρ : Dev nD → PrngReg) (c : Dev nD)

/-- The input array holds the launch contents. -/
theorem e1_x : Gen.V2 m ρ c main_arg0 = m ((c : Thread nD τ).loc main_arg0) := W2_arg0 m ρ c

/-- The value array is what region 0 leaves in its output: the host operations between do not write it. -/
theorem e1_v : Gen.V2 m ρ c main_v0 = (Gen.dat0 (Gen.V0 m ρ) c).arrAt 3 cfg0.N :=
  (StableHlo.after_of_forall_not_mem (b := Proc.devRef .tc main_v0) hostOps1 (W1 m ρ c) (by not_written)).trans
    (W1_arr m ρ c 3)

/-- The hidden weights of chord layer 0: slab 0 of the stacked hidden weights, its unit axis dropped. -/
theorem e1_w (a k : Fin 64) :
    Gen.V2 m ρ c main_v2 (ix2 a k) = m ((c : Thread nD τ).loc main_arg3) (ix3 (0 : Fin 2) a k) := by
  have e : (Gen.V2 m ρ c main_v2 : S64x64.Idx → EReal)
      = shapeCast S64x64 (extractStridedSlice S1x64x64 ![0, 0, 0] (W1 m ρ c (Proc.devRef .tc main_arg3))
          slices_S2x64x64_S1x64x64_0_0_0) shapeCasts_S1x64x64_S64x64 := by
    show StableHlo.after hostOps1 (W1 m ρ c) (Proc.devRef .tc main_v2) = _
    after_results
    rfl
  rw [e, W1_arg3]
  refine (shapeCast_1ab_ab_apply _ _ a k).trans ?_
  exact extractStridedSlice_apply ![0, 0, 0] _ slices_S2x64x64_S1x64x64_0_0_0 (ix3 (0 : Fin 1) a k)
    (ix3 (0 : Fin 2) a k) (fun ax => by
      match ax with
      | ⟨0, _⟩ => rfl
      | ⟨1, _⟩ => exact (Nat.zero_add _).symm
      | ⟨2, _⟩ => exact (Nat.zero_add _).symm)

/-- The hidden bias of chord layer 0, as a one-row matrix: row 0 of the stacked hidden biases. -/
theorem e1_b (a : Fin 64) :
    Gen.V2 m ρ c main_v5 (ix2 (0 : Fin 1) a) = m ((c : Thread nD τ).loc main_arg4) (ix2 (0 : Fin 2) a) := by
  have e : (Gen.V2 m ρ c main_v5 : S1x64.Idx → EReal)
      = shapeCast S1x64 (shapeCast S64 (extractStridedSlice S1x64 ![0, 0] (W1 m ρ c (Proc.devRef .tc main_arg4))
          slices_S2x64_S1x64_0_0) shapeCasts_S1x64_S64) shapeCasts_S64_S1x64 := by
    show StableHlo.after hostOps1 (W1 m ρ c) (Proc.devRef .tc main_v5) = _
    after_results
    rfl
  rw [e, W1_arg4]
  refine (shapeCast_a_1a_apply _ _ (0 : Fin 1) a).trans ?_
  refine (shapeCast_1a_a_apply _ _ a).trans ?_
  exact slice2_axis0_apply 0 _ slices_S2x64_S1x64_0_0 (0 : Fin 1) a (0 : Fin 2) rfl

/-- The wide weights of chord layer 0: slab 0 of the stacked wide weights, its unit axis dropped. -/
theorem e1_fw (r : Fin 8192) (k : Fin 64) :
    Gen.V2 m ρ c main_v7 (ix2 r k) = m ((c : Thread nD τ).loc main_arg5) (ix3 (0 : Fin 2) r k) := by
  have e : (Gen.V2 m ρ c main_v7 : S8192x64.Idx → EReal)
      = shapeCast S8192x64 (extractStridedSlice S1x8192x64 ![0, 0, 0] (W1 m ρ c (Proc.devRef .tc main_arg5))
          slices_S2x8192x64_S1x8192x64_0_0_0) shapeCasts_S1x8192x64_S8192x64 := by
    show StableHlo.after hostOps1 (W1 m ρ c) (Proc.devRef .tc main_v7) = _
    after_results
    rfl
  rw [e, W1_arg5]
  refine (shapeCast_1ab_ab_apply _ _ r k).trans ?_
  exact extractStridedSlice_apply ![0, 0, 0] _ slices_S2x8192x64_S1x8192x64_0_0_0 (ix3 (0 : Fin 1) r k)
    (ix3 (0 : Fin 2) r k) (fun ax => by
      match ax with
      | ⟨0, _⟩ => rfl
      | ⟨1, _⟩ => exact (Nat.zero_add _).symm
      | ⟨2, _⟩ => exact (Nat.zero_add _).symm)

/-- The wide bias of chord layer 0, as a one-row matrix: row 0 of the stacked wide biases. -/
theorem e1_fb (j : Fin 8192) :
    Gen.V2 m ρ c main_v10 (ix2 (0 : Fin 1) j) = m ((c : Thread nD τ).loc main_arg6) (ix2 (0 : Fin 2) j) := by
  have e : (Gen.V2 m ρ c main_v10 : S1x8192.Idx → EReal)
      = shapeCast S1x8192 (shapeCast S8192 (extractStridedSlice S1x8192 ![0, 0] (W1 m ρ c (Proc.devRef .tc main_arg6))
          slices_S2x8192_S1x8192_0_0) shapeCasts_S1x8192_S8192) shapeCasts_S8192_S1x8192 := by
    show StableHlo.after hostOps1 (W1 m ρ c) (Proc.devRef .tc main_v10) = _
    after_results
    rfl
  rw [e, W1_arg6]
  refine (shapeCast_a_1a_apply _ _ (0 : Fin 1) j).trans ?_
  refine (shapeCast_1a_a_apply _ _ j).trans ?_
  exact slice2_axis0_apply 0 _ slices_S2x8192_S1x8192_0_0 (0 : Fin 1) j (0 : Fin 2) rfl

end Cert.KHost

end
-- ==== Proof.KHost2.lean ====
/-
  What the buffers hold when region 2 of the kernel program is entered.

  Before region 2 the program cuts slab 1 out of each stacked weight and bias array and drops the slab's unit axis
  (for a bias, drops it and puts it back, which leaves a one-row matrix). Read at an index, a buffer so made is
  the stacked array at the same index with 1 in front.
-/
import proofs.«102228_j3375844295380_2_alg».proof.Proof.Gen.KernelIdeal.Frame
import proofs.«102228_j3375844295380_2_alg».proof.Proof.KHostArgs
import Idealize.ShloMosaic.Lib.StableHlo.Run
import Idealize.ShloMosaic.Lib.ValueLayout
import Idealize.ShloMosaic.Lib.ValueIdx

noncomputable section

namespace Cert.KHost

open Cert.KernelIdeal Cert.KernelIdeal.Gen Idealize.ShloMosaic Idealize.ShloMosaic.ValueIdx Idealize.ShloMosaic.TcCoe

variable (m : (ℓ : Loc nD τ sig) → Buf (Elt Ideal) ℓ) (ρ : Dev nD → PrngReg) (c : Dev nD)

/-- The input array holds the launch contents: the second stretch of host operations does not write it and region 1
    only reads it. -/
theorem e2_x : Gen.V4 m ρ c main_arg0 = m ((c : Thread nD τ).loc main_arg0) :=
  calc Gen.V4 m ρ c main_arg0
    _ = W3 m ρ c (Proc.devRef .tc main_arg0) :=
        StableHlo.after_of_forall_not_mem (b := Proc.devRef .tc main_arg0) hostOps2 (W3 m ρ c) (by not_written)
    _ = W2 m ρ c (Proc.devRef .tc main_arg0) :=
        (W3_arr m ρ c 0).trans (((dat1 (V2 m ρ) c).arrAt_in 0 rfl _).trans (A_eq1 (V2 m ρ) c 0))
    _ = m ((c : Thread nD τ).loc main_arg0) := W2_arg0 m ρ c

/-- The value array is what region 1 leaves in its output: the host operations between do not write it. -/
theorem e2_v : Gen.V4 m ρ c main_v11 = (Gen.dat1 (Gen.V2 m ρ) c).arrAt 6 cfg1.N :=
  (StableHlo.after_of_forall_not_mem (b := Proc.devRef .tc main_v11) hostOps2 (W3 m ρ c) (by not_written)).trans
    (W3_arr m ρ c 6)

/-- The hidden weights of chord layer 1: slab 1 of the stacked hidden weights, its unit axis dropped. -/
theorem e2_w (a k : Fin 64) :
    Gen.V4 m ρ c main_v13 (ix2 a k) = m ((c : Thread nD τ).loc main_arg3) (ix3 (1 : Fin 2) a k) := by
  have e : (Gen.V4 m ρ c main_v13 : S64x64.Idx → EReal)
      = shapeCast S64x64 (extractStridedSlice S1x64x64 ![1, 0, 0] (W3 m ρ c (Proc.devRef .tc main_arg3))
          slices_S2x64x64_S1x64x64_1_0_0) shapeCasts_S1x64x64_S64x64 := by
    show StableHlo.after hostOps2 (W3 m ρ c) (Proc.devRef .tc main_v13) = _
    after_results
    rfl
  rw [e, W3_arg3]
  refine (shapeCast_1ab_ab_apply _ _ a k).trans ?_
  exact extractStridedSlice_apply ![1, 0, 0] _ slices_S2x64x64_S1x64x64_1_0_0 (ix3 (0 : Fin 1) a k)
    (ix3 (1 : Fin 2) a k) (fun ax => by
      match ax with
      | ⟨0, _⟩ => rfl
      | ⟨1, _⟩ => exact (Nat.zero_add _).symm
      | ⟨2, _⟩ => exact (Nat.zero_add _).symm)

/-- The hidden bias of chord layer 1, as a one-row matrix: row 1 of the stacked hidden biases. -/
theorem e2_b (a : Fin 64) :
    Gen.V4 m ρ c main_v16 (ix2 (0 : Fin 1) a) = m ((c : Thread nD τ).loc main_arg4) (ix2 (1 : Fin 2) a) := by
  have e : (Gen.V4 m ρ c main_v16 : S1x64.Idx → EReal)
      = shapeCast S1x64 (shapeCast S64 (extractStridedSlice S1x64 ![1, 0] (W3 m ρ c (Proc.devRef .tc main_arg4))
          slices_S2x64_S1x64_1_0) shapeCasts_S1x64_S64) shapeCasts_S64_S1x64 := by
    show StableHlo.after hostOps2 (W3 m ρ c) (Proc.devRef .tc main_v16) = _
    after_results
    rfl
  rw [e, W3_arg4]
  refine (shapeCast_a_1a_apply _ _ (0 : Fin 1) a).trans ?_
  refine (shapeCast_1a_a_apply _ _ a).trans ?_
  exact slice2_axis0_apply 1 _ slices_S2x64_S1x64_1_0 (0 : Fin 1) a (1 : Fin 2) rfl

/-- The wide weights of chord layer 1: slab 1 of the stacked wide weights, its unit axis dropped. -/
theorem e2_fw (r : Fin 8192) (k : Fin 64) :
    Gen.V4 m ρ c main_v18 (ix2 r k) = m ((c : Thread nD τ).loc main_arg5) (ix3 (1 : Fin 2) r k) := by
  have e : (Gen.V4 m ρ c main_v18 : S8192x64.Idx → EReal)
      = shapeCast S8192x64 (extractStridedSlice S1x8192x64 ![1, 0, 0] (W3 m ρ c (Proc.devRef .tc main_arg5))
          slices_S2x8192x64_S1x8192x64_1_0_0) shapeCasts_S1x8192x64_S8192x64 := by
    show StableHlo.after hostOps2 (W3 m ρ c) (Proc.devRef .tc main_v18) = _
    after_results
    rfl
  rw [e, W3_arg5]
  refine (shapeCast_1ab_ab_apply _ _ r k).trans ?_
  exact extractStridedSlice_apply ![1, 0, 0] _ slices_S2x8192x64_S1x8192x64_1_0_0 (ix3 (0 : Fin 1) r k)
    (ix3 (1 : Fin 2) r k) (fun ax => by
      match ax with
      | ⟨0, _⟩ => rfl
      | ⟨1, _⟩ => exact (Nat.zero_add _).symm
      | ⟨2, _⟩ => exact (Nat.zero_add _).symm)

/-- The wide bias of chord layer 1, as a one-row matrix: row 1 of the stacked wide biases. -/
theorem e2_fb (j : Fin 8192) :
    Gen.V4 m ρ c main_v21 (ix2 (0 : Fin 1) j) = m ((c : Thread nD τ).loc main_arg6) (ix2 (1 : Fin 2) j) := by
  have e : (Gen.V4 m ρ c main_v21 : S1x8192.Idx → EReal)
      = shapeCast S1x8192 (shapeCast S8192 (extractStridedSlice S1x8192 ![1, 0] (W3 m ρ c (Proc.devRef .tc main_arg6))
          slices_S2x8192_S1x8192_1_0) shapeCasts_S1x8192_S8192) shapeCasts_S8192_S1x8192 := by
    show StableHlo.after hostOps2 (W3 m ρ c) (Proc.devRef .tc main_v21) = _
    after_results
    rfl
  rw [e, W3_arg6]
  refine (shapeCast_a_1a_apply _ _ (0 : Fin 1) j).trans ?_
  refine (shapeCast_1a_a_apply _ _ j).trans ?_
  exact slice2_axis0_apply 1 _ slices_S2x8192_S1x8192_1_0 (0 : Fin 1) j (1 : Fin 2) rfl

end Cert.KHost

end
-- ==== Proof.KHost.lean ====
/-
  The host side of the kernel program: what every buffer a region reads holds when the region is entered, in terms
  of the launch memory. The statements are in the two modules imported here, one per region entry.
-/
import proofs.«102228_j3375844295380_2_alg».proof.Proof.KHost1
import proofs.«102228_j3375844295380_2_alg».proof.Proof.KHost2
-- ==== Proof.KNet.lean ====
/-
  The result array of the idealized kernel as the network of its seven argument arrays.

  The run leaves the result buffer at what chord layer two writes back. Layer two reads `X`, its weights and biases
  — the second slices of the stacked weight arrays, which the host operations before the region cut out and reshape — and
  the values layer one wrote; layer one likewise reads the first slices and the values the dense stack wrote; the stack
  reads `X` and its own weights. Substituting each stage's array into the next gives `Chord.net`.
-/
import proofs.«102228_j3375844295380_2_alg».proof.Proof.KRun
import proofs.«102228_j3375844295380_2_alg».proof.Proof.KStack
import proofs.«102228_j3375844295380_2_alg».proof.Proof.KLayer1
import proofs.«102228_j3375844295380_2_alg».proof.Proof.KLayer2
import proofs.«102228_j3375844295380_2_alg».proof.Proof.KHost

set_option maxRecDepth 16384

noncomputable section

namespace Cert.KNet

open Cert.KernelIdeal Cert.KernelIdeal.Gen Cert.Chord
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

theorem cur2_arr2 {a b : Nat} (f : Fin a → Fin b → EReal) : cur2 (arr2 f) = f := rfl

/-- The values the dense stack leaves for layer one. -/
theorem values0 (c : Dev nD) :
    cur2 (Gen.V2 m ρ c main_v0)
      = stack (cur2 (m ((c : Thread nD τ).loc main_arg0))) (cur3 (m ((c : Thread nD τ).loc main_arg1)))
          (cur2 (m ((c : Thread nD τ).loc main_arg2))) := by
  rw [Cert.KHost.e1_v, Cert.KStack.stack_final (Gen.V0 m ρ) c, cur2_arr2]

/-- The values layer one leaves for layer two. -/
theorem values1 (c : Dev nD) :
    cur2 (Gen.V4 m ρ c main_v11)
      = layer (cur2 (m ((c : Thread nD τ).loc main_arg0))) (cur3 (m ((c : Thread nD τ).loc main_arg3)) 0)
          (cur2 (m ((c : Thread nD τ).loc main_arg4)) 0) (cur3 (m ((c : Thread nD τ).loc main_arg5)) 0)
          (cur2 (m ((c : Thread nD τ).loc main_arg6)) 0)
          (stack (cur2 (m ((c : Thread nD τ).loc main_arg0))) (cur3 (m ((c : Thread nD τ).loc main_arg1)))
            (cur2 (m ((c : Thread nD τ).loc main_arg2)))) := by
  rw [Cert.KHost.e2_v, Cert.KLayer1.final (Gen.V2 m ρ) c]
  unfold Cert.KLayer1.out
  rw [cur2_arr2, values0, Cert.KHost.e1_x]
  have hw : cur2 (Gen.V2 m ρ c main_v2) = cur3 (m ((c : Thread nD τ).loc main_arg3)) 0 :=
    funext fun a => funext fun k => Cert.KHost.e1_w m ρ c a k
  have hb : Cert.KTile1.row1 (Gen.V2 m ρ c main_v5) = cur2 (m ((c : Thread nD τ).loc main_arg4)) 0 :=
    funext fun a => Cert.KHost.e1_b m ρ c a
  have hfw : cur2 (Gen.V2 m ρ c main_v7) = cur3 (m ((c : Thread nD τ).loc main_arg5)) 0 :=
    funext fun r => funext fun k => Cert.KHost.e1_fw m ρ c r k
  have hfb : Cert.KTile1.row1 (Gen.V2 m ρ c main_v10) = cur2 (m ((c : Thread nD τ).loc main_arg6)) 0 :=
    funext fun j => Cert.KHost.e1_fb m ρ c j
  rw [hw, hb, hfw, hfb]

/-- The result buffer after the run is the network of the launch memory's argument arrays. -/
theorem kernel_value (c : Dev nD) :
    Gen.W5 m ρ c (Proc.devRef .tc main_v22)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (Gen.W5_arr m ρ c 6).trans ?_
  rw [Cert.KLayer2.final (Gen.V4 m ρ) c]
  unfold Cert.KLayer2.out
  rw [values1, Cert.KHost.e2_x]
  have hw : cur2 (Gen.V4 m ρ c main_v13) = cur3 (m ((c : Thread nD τ).loc main_arg3)) 1 :=
    funext fun a => funext fun k => Cert.KHost.e2_w m ρ c a k
  have hb : Cert.KTile2.row1 (Gen.V4 m ρ c main_v16) = cur2 (m ((c : Thread nD τ).loc main_arg4)) 1 :=
    funext fun a => Cert.KHost.e2_b m ρ c a
  have hfw : cur2 (Gen.V4 m ρ c main_v18) = cur3 (m ((c : Thread nD τ).loc main_arg5)) 1 :=
    funext fun r => funext fun k => Cert.KHost.e2_fw m ρ c r k
  have hfb : Cert.KTile2.row1 (Gen.V4 m ρ c main_v21) = cur2 (m ((c : Thread nD τ).loc main_arg6)) 1 :=
    funext fun j => Cert.KHost.e2_fb m ρ c j
  rw [hw, hb, hfw, hfb]
  rfl

end Cert.KNet

end
-- ==== Proof.RefLaw.lean ====
/-
  Two small laws of the extended reals that every layer of the network uses.

  A dense layer is a sum of products plus a bias, rectified: if each term of a sum is the product the layer asks
  for and the added number is the layer's bias, the rectified total is the layer's value.

  A row of a score matrix times the mask has only two live terms, the row's own column and the next one
  cyclically, because the mask is zero in every other column and zero times anything is zero in the extended reals.
-/
import proofs.«102228_j3375844295380_2_alg».proof.Proof.ChordSpec

noncomputable section

open scoped BigOperators

namespace Cert.RefNet

open Cert

/-- A rectified sum of products plus a bias is a dense layer's value. -/
theorem dense_eq {R K H : Nat} (x : Fin R → Fin K → EReal) (w : Fin H → Fin K → EReal) (b : Fin H → EReal)
    (r : Fin R) (h : Fin H) (f : Fin K → EReal) (hf : ∀ k, f k = x r k * w h k) (β : EReal) (hβ : β = b h) :
    max ((∑ k : Fin K, f k) + β) 0 = Chord.dense x w b r h := by
  unfold Chord.dense
  rw [hβ, Finset.sum_congr rfl fun k _ => hf k]

/-- A row of masked scores times a matrix: only the row's own column and the next one contribute. -/
theorem chord_eq (S : Fin 8192 → Fin 8192 → EReal) (V : Fin 8192 → Fin 64 → EReal) (r : Fin 8192) (h : Fin 64)
    (f : Fin 8192 → EReal)
    (hf : ∀ k, f k = (S r k * (if k = r ∨ k = Chord.nxt r then 1 else 0)) * V k h) :
    ∑ k : Fin 8192, f k = Chord.chord S V r h := by
  have h0 : ∀ j, j ≠ r → j ≠ Chord.nxt r → f j = 0 := fun j h1 h2 => by
    rw [hf j, if_neg (fun e => e.elim h1 h2), mul_zero, zero_mul]
  rw [Chord.sum_two f r (Chord.nxt r) (Chord.nxt_ne r).symm h0, hf r, hf (Chord.nxt r), if_pos (Or.inl rfl),
    if_pos (Or.inr rfl), mul_one, mul_one]
  rfl

end Cert.RefNet

end
-- ==== Proof.RefMask.lean ====
/-
  The mask of the reference, read at a row r and a column j.

  The reference builds the identity matrix by comparing a row counter with a column counter, shifts its columns
  cyclically by one place (the last column moves to the front), adds the two and caps the sum at one. Entry
  (r, j) of the identity is one exactly when j = r; entry (r, j) of the shifted matrix is the identity's entry
  (r, j - 1), or (r, 8191) when j = 0, so it is one exactly when j is the cyclic successor of r. Since
  the successor of r is never r, at most one of the two is one, and the capped sum is one exactly on those two
  columns and zero elsewhere.
-/
import proofs.«102228_j3375844295380_2_alg».proof.Proof.Gen.ReferenceIdeal.Read
import proofs.«102228_j3375844295380_2_alg».proof.Proof.ChordSpec

noncomputable section

open scoped BigOperators

namespace Cert.RefNet

open Cert.ReferenceIdeal Cert.ReferenceIdeal.Gen Cert.ReferenceIdeal.Read Idealize.ShloMosaic Idealize.ShloMosaic.ValueIdx

/-- The word of the float one denotes the extended real one. -/
theorem one_f32 : Ideal.ofBits .f32 0x3F800000#32 = 1 := by
  simp [Ideal.ofBits, Ideal.ieee]
  rw [← EReal.coe_mul, ← EReal.coe_one]
  refine congrArg _ ?_
  norm_num

/-- Two counters below 8192, as 32-bit words, compare equal exactly when they are equal numbers. -/
theorem cmp_counters (a b : Nat) (ha : a < 8192) (hb : b < 8192) :
    IntOp.cmpi .eq (IntOp.addi (BitVec.ofNat 32 a) 0#32) (BitVec.ofNat 32 b) = if a = b then 1#1 else 0#1 := by
  unfold IntOp.cmpi IntOp.addi
  rw [BitVec.add_zero]
  by_cases h : a = b
  · subst h; simp
  · rw [if_neg h]
    have hne : ¬ (BitVec.ofNat 32 a = BitVec.ofNat 32 b) := by
      intro e
      have e' := congrArg BitVec.toNat e
      simp only [BitVec.toNat_ofNat] at e'
      omega
    rw [beq_eq_false_iff_ne.mpr hne]
    rfl

/-- The identity matrix of the reference: one on the diagonal, zero off it. -/
theorem eye_apply (r j : Fin 8192) :
    val_main_v5 (F := Ideal) (ix2 r j) = if r = j then 1 else 0 := by
  rw [val_main_v5_apply, val_main_v4_apply, val_main_v3_apply, val_main_v0_apply, val_main_v2_apply,
    val_main_c_apply, val_main_v1_apply]
  show (((IntOp.cmpi .eq (IntOp.addi (BitVec.ofNat 32 r.val) 0#32) (BitVec.ofNat 32 j.val)).toNat : ℝ) : EReal) = _
  rw [cmp_counters r.val j.val r.isLt j.isLt]
  by_cases h : r = j
  · rw [if_pos h, if_pos (congrArg Fin.val h)]; simp
  · rw [if_neg h, if_neg (fun e => h (Fin.ext e))]; simp

/-- The last column number. -/
abbrev lastCol : Fin 8192 := ⟨8191, by norm_num⟩

/-- The shifted identity in column 0 is the identity's last column. -/
theorem roll_zero (r j : Fin 8192) (hj : j.val = 0) :
    val_main_v6 (F := Ideal) (ix2 r j) = val_main_v5 (F := Ideal) (ix2 r lastCol) := by
  unfold val_main_v6
  refine (concatenate_pair_apply_left (t := S8192x8192) (s₁ := S8192x1) (s₂ := S8192x8191) (1 : Fin 2)
    (val_main_call0_v0 (F := Ideal)) (val_main_call0_v1 (F := Ideal)) concatenates_S8192x1_S8192x8191_S8192x8192_d1
    (ix2 r j) rfl (ix2 r (0 : Fin 1)) (fun b => by
      match b with
      | ⟨0, _⟩ => rfl
      | ⟨1, _⟩ => exact hj.symm)).trans ?_
  rw [val_main_call0_v0_apply]
  refine congrArg _ ?_
  funext a
  match a with
  | ⟨0, _⟩ => rfl
  | ⟨1, _⟩ => rfl

/-- The shifted identity in a column j > 0 is the identity's column j - 1. -/
theorem roll_pos (r j : Fin 8192) (hj : 0 < j.val) :
    val_main_v6 (F := Ideal) (ix2 r j)
      = val_main_v5 (F := Ideal) (ix2 r (⟨j.val - 1, by have := j.isLt; omega⟩ : Fin 8192)) := by
  unfold val_main_v6
  refine (concatenate_pair_apply_right (t := S8192x8192) (s₁ := S8192x1) (s₂ := S8192x8191) (1 : Fin 2)
    (val_main_call0_v0 (F := Ideal)) (val_main_call0_v1 (F := Ideal)) concatenates_S8192x1_S8192x8191_S8192x8192_d1
    (ix2 r j) rfl rfl (ix2 r (⟨j.val - 1, by have := j.isLt; omega⟩ : Fin 8191))
    (fun b hb => by
      match b with
      | ⟨0, _⟩ => rfl
      | ⟨1, _⟩ => exact absurd rfl hb)
    (by show (j.val - 1) + 1 = j.val; omega)).trans ?_
  rw [val_main_call0_v1_apply]
  refine congrArg _ ?_
  funext a
  match a with
  | ⟨0, _⟩ => rfl
  | ⟨1, _⟩ => rfl

/-- The shifted identity: one exactly in the column that cyclically follows the row number. -/
theorem roll_apply (r j : Fin 8192) :
    val_main_v6 (F := Ideal) (ix2 r j) = if j = Chord.nxt r then 1 else 0 := by
  by_cases hj : j.val = 0
  · rw [roll_zero r j hj, eye_apply]
    have hiff : (r = lastCol) ↔ (j = Chord.nxt r) := by
      rw [Fin.ext_iff, Fin.ext_iff, Chord.nxt_val]
      show r.val = 8191 ↔ _
      have := r.isLt
      omega
    exact if_congr hiff rfl rfl
  · rw [roll_pos r j (Nat.pos_of_ne_zero hj), eye_apply]
    have hiff : (r = (⟨j.val - 1, by have := j.isLt; omega⟩ : Fin 8192)) ↔ (j = Chord.nxt r) := by
      rw [Fin.ext_iff, Fin.ext_iff, Chord.nxt_val]
      show r.val = j.val - 1 ↔ _
      have := r.isLt
      have := j.isLt
      omega
    exact if_congr hiff rfl rfl

/-- The mask: one in the row's own column and in the next one cyclically, zero elsewhere. -/
theorem mask_apply (r j : Fin 8192) :
    val_main_v9 (F := Ideal) (ix2 r j) = if j = r ∨ j = Chord.nxt r then 1 else 0 := by
  rw [val_main_v9_apply, val_main_v7_apply, val_main_v8_apply, val_main_cst_apply]
  show min (val_main_v5 (F := Ideal) (ix2 r j) + val_main_v6 (F := Ideal) (ix2 r j)) (Ideal.ofBits .f32 0x3F800000#32) = _
  rw [one_f32, eye_apply, roll_apply]
  by_cases h1 : j = r
  · have h2 : ¬ j = Chord.nxt r := fun e => Chord.nxt_ne r (e.symm.trans h1)
    rw [if_pos h1.symm, if_neg h2, if_pos (Or.inl h1), add_zero, min_self]
  · by_cases h2 : j = Chord.nxt r
    · rw [if_neg (fun e => h1 e.symm), if_pos h2, if_pos (Or.inr h2), zero_add, min_self]
    · rw [if_neg (fun e => h1 e.symm), if_neg h2, if_neg (fun e => e.elim h1 h2), add_zero]
      exact min_eq_left zero_le_one

end Cert.RefNet

end
-- ==== Proof.RefStack.lean ====
/-
  The value stack of the reference: two dense layers of the input.

  Each layer is read stage by stage: the weight matrix is a slice of the stacked weights, reshaped and transposed,
  so its entry (k, h) is the stacked entry (m, h, k); the bias is a slice of the stacked biases spread over the rows;
  the product is a sum over the 64 input features; the rectifier is a maximum with zero.
-/
import proofs.«102228_j3375844295380_2_alg».proof.Proof.Gen.ReferenceIdeal.Read
import proofs.«102228_j3375844295380_2_alg».proof.Proof.ChordSpec
import proofs.«102228_j3375844295380_2_alg».proof.Proof.RefLaw

noncomputable section

open scoped BigOperators

namespace Cert.RefNet

open Cert.ReferenceIdeal Cert.ReferenceIdeal.Gen Cert.ReferenceIdeal.Read Idealize.ShloMosaic Idealize.ShloMosaic.ValueIdx

/-- The weight matrix of this layer, transposed for the product: entry (k, h) is entry (0, h, k) of the stacked weights. -/
theorem w12 (x1 : (⟨S2x64x64, .f32⟩ : BufTy).Contents (Elt Ideal)) (k : Fin 64) (h : Fin 64) :
    val_main_v12 (F := Ideal) x1 (ix2 k h) = x1 (ix3 (0 : Fin 2) h k) := by
  rw [val_main_v12_apply, val_main_v11_apply, val_main_v10_apply]
  refine congrArg x1 (funext fun a => Fin.ext ?_)
  have hh := h.isLt
  have hk := k.isLt
  match a with
  | ⟨0, _⟩ => rfl
  | ⟨1, _⟩ => show (h.val * 64 + k.val) / 64 % 64 = h.val; omega
  | ⟨2, _⟩ => show (h.val * 64 + k.val) % 64 = k.val; omega

/-- The bias of this layer, spread over the rows: entry (r, h) is entry (0, h) of the stacked biases. -/
theorem b17 (x2 : (⟨S2x64, .f32⟩ : BufTy).Contents (Elt Ideal)) (r : Fin 8192) (h : Fin 64) :
    val_main_v17 (F := Ideal) x2 (ix2 r h) = x2 (ix2 (0 : Fin 2) h) := by
  rw [val_main_v17_apply, val_main_v16_apply, val_main_v15_apply, val_main_v14_apply]
  refine congrArg x2 (funext fun a => Fin.ext ?_)
  have hh := h.isLt
  match a with
  | ⟨0, _⟩ => rfl
  | ⟨1, _⟩ => show h.val % 64 = h.val; omega

/-- The first layer of the value stack. -/
theorem stack0_apply (x0 : (⟨S8192x64, .f32⟩ : BufTy).Contents (Elt Ideal)) (x1 : (⟨S2x64x64, .f32⟩ : BufTy).Contents (Elt Ideal)) (x2 : (⟨S2x64, .f32⟩ : BufTy).Contents (Elt Ideal)) (r : Fin 8192) (h : Fin 64) :
    val_main_v19 (F := Ideal) x0 x1 x2 (ix2 r h)
      = Chord.dense (Chord.cur2 (a := 8192) (b := 64) x0) (Chord.cur3 (a := 2) (b := 64) (c := 64) x1 0) (Chord.cur2 (a := 2) (b := 64) x2 0) r h := by
  rw [val_main_v19_apply, val_main_v18_apply, val_main_call1_v0_apply, val_main_call1_cst_apply,
    val_main_v13_apply, Ideal.maximumf_def, Ideal.addf_def, Ideal.ofBits_def, Ideal.ofBits_zero_f32]
  refine dense_eq _ _ _ r h _ (fun k => ?_) _ (b17 x2 r h)
  show x0 (lidx_main_v13 (ix2 r h) k) * val_main_v12 (F := Ideal) x1 (ridx_main_v13 (ix2 r h) k)
    = x0 (ix2 r k) * x1 (ix3 (0 : Fin 2) h k)
  rw [show ridx_main_v13 (ix2 r h) k = ix2 k h from funext fun a => by match a with | ⟨0, _⟩ => rfl | ⟨1, _⟩ => rfl, w12,
    show lidx_main_v13 (ix2 r h) k = ix2 r k from funext fun a => by match a with | ⟨0, _⟩ => rfl | ⟨1, _⟩ => rfl]

/-- The weight matrix of this layer, transposed for the product: entry (k, h) is entry (1, h, k) of the stacked weights. -/
theorem w22 (x1 : (⟨S2x64x64, .f32⟩ : BufTy).Contents (Elt Ideal)) (k : Fin 64) (h : Fin 64) :
    val_main_v22 (F := Ideal) x1 (ix2 k h) = x1 (ix3 (1 : Fin 2) h k) := by
  rw [val_main_v22_apply, val_main_v21_apply, val_main_v20_apply]
  refine congrArg x1 (funext fun a => Fin.ext ?_)
  have hh := h.isLt
  have hk := k.isLt
  match a with
  | ⟨0, _⟩ => rfl
  | ⟨1, _⟩ => show (h.val * 64 + k.val) / 64 % 64 = h.val; omega
  | ⟨2, _⟩ => show (h.val * 64 + k.val) % 64 = k.val; omega

/-- The bias of this layer, spread over the rows: entry (r, h) is entry (1, h) of the stacked biases. -/
theorem b27 (x2 : (⟨S2x64, .f32⟩ : BufTy).Contents (Elt Ideal)) (r : Fin 8192) (h : Fin 64) :
    val_main_v27 (F := Ideal) x2 (ix2 r h) = x2 (ix2 (1 : Fin 2) h) := by
  rw [val_main_v27_apply, val_main_v26_apply, val_main_v25_apply, val_main_v24_apply]
  refine congrArg x2 (funext fun a => Fin.ext ?_)
  have hh := h.isLt
  match a with
  | ⟨0, _⟩ => rfl
  | ⟨1, _⟩ => show h.val % 64 = h.val; omega

/-- The value stack: the second layer applied to the first. -/
theorem stack_apply (x0 : (⟨S8192x64, .f32⟩ : BufTy).Contents (Elt Ideal)) (x1 : (⟨S2x64x64, .f32⟩ : BufTy).Contents (Elt Ideal)) (x2 : (⟨S2x64, .f32⟩ : BufTy).Contents (Elt Ideal)) (r : Fin 8192) (h : Fin 64) :
    val_main_v29 (F := Ideal) x0 x1 x2 (ix2 r h)
      = Chord.stack (Chord.cur2 (a := 8192) (b := 64) x0) (Chord.cur3 (a := 2) (b := 64) (c := 64) x1) (Chord.cur2 (a := 2) (b := 64) x2) r h := by
  rw [val_main_v29_apply, val_main_v28_apply, val_main_call2_v0_apply, val_main_call2_cst_apply,
    val_main_v23_apply, Ideal.maximumf_def, Ideal.addf_def, Ideal.ofBits_def, Ideal.ofBits_zero_f32]
  unfold Chord.stack
  refine dense_eq _ _ _ r h _ (fun k => ?_) _ (b27 x2 r h)
  show val_main_v19 (F := Ideal) x0 x1 x2 (lidx_main_v23 (ix2 r h) k) * val_main_v22 (F := Ideal) x1 (ridx_main_v23 (ix2 r h) k)
    = (Chord.dense (Chord.cur2 (a := 8192) (b := 64) x0) (Chord.cur3 (a := 2) (b := 64) (c := 64) x1 0) (Chord.cur2 (a := 2) (b := 64) x2 0)) r k * x1 (ix3 (1 : Fin 2) h k)
  rw [show ridx_main_v23 (ix2 r h) k = ix2 k h from funext fun a => by match a with | ⟨0, _⟩ => rfl | ⟨1, _⟩ => rfl, w22,
    show lidx_main_v23 (ix2 r h) k = ix2 r k from funext fun a => by match a with | ⟨0, _⟩ => rfl | ⟨1, _⟩ => rfl, stack0_apply]

end Cert.RefNet

end
-- ==== Proof.RefScore0.lean ====
/-
  The score matrix of chord layer 0 of the reference: two dense layers of the input, the second one 8192 wide.

  As in the value stack, each layer is read stage by stage: the weight matrix is a slice of the stacked weights,
  reshaped and transposed, so its entry (k, h) is the stacked entry (0, h, k); the bias is a slice of the stacked
  biases spread over the rows; the product is a sum over the 64 input features; the rectifier is a maximum with zero.
-/
import proofs.«102228_j3375844295380_2_alg».proof.Proof.Gen.ReferenceIdeal.Read
import proofs.«102228_j3375844295380_2_alg».proof.Proof.ChordSpec
import proofs.«102228_j3375844295380_2_alg».proof.Proof.RefLaw

noncomputable section

open scoped BigOperators

namespace Cert.RefNet

open Cert.ReferenceIdeal Cert.ReferenceIdeal.Gen Cert.ReferenceIdeal.Read Idealize.ShloMosaic Idealize.ShloMosaic.ValueIdx

/-- The weight matrix of this layer, transposed for the product: entry (k, h) is entry (0, h, k) of the stacked weights. -/
theorem w32 (x3 : (⟨S2x64x64, .f32⟩ : BufTy).Contents (Elt Ideal)) (k : Fin 64) (h : Fin 64) :
    val_main_v32 (F := Ideal) x3 (ix2 k h) = x3 (ix3 (0 : Fin 2) h k) := by
  rw [val_main_v32_apply, val_main_v31_apply, val_main_v30_apply]
  refine congrArg x3 (funext fun a => Fin.ext ?_)
  have hh := h.isLt
  have hk := k.isLt
  match a with
  | ⟨0, _⟩ => rfl
  | ⟨1, _⟩ => show (h.val * 64 + k.val) / 64 % 64 = h.val; omega
  | ⟨2, _⟩ => show (h.val * 64 + k.val) % 64 = k.val; omega

/-- The bias of this layer, spread over the rows: entry (r, h) is entry (0, h) of the stacked biases. -/
theorem b37 (x4 : (⟨S2x64, .f32⟩ : BufTy).Contents (Elt Ideal)) (r : Fin 8192) (h : Fin 64) :
    val_main_v37 (F := Ideal) x4 (ix2 r h) = x4 (ix2 (0 : Fin 2) h) := by
  rw [val_main_v37_apply, val_main_v36_apply, val_main_v35_apply, val_main_v34_apply]
  refine congrArg x4 (funext fun a => Fin.ext ?_)
  have hh := h.isLt
  match a with
  | ⟨0, _⟩ => rfl
  | ⟨1, _⟩ => show h.val % 64 = h.val; omega

/-- The hidden layer of the scores of chord layer 0. -/
theorem hidden0_apply (x0 : (⟨S8192x64, .f32⟩ : BufTy).Contents (Elt Ideal)) (x3 : (⟨S2x64x64, .f32⟩ : BufTy).Contents (Elt Ideal)) (x4 : (⟨S2x64, .f32⟩ : BufTy).Contents (Elt Ideal)) (r : Fin 8192) (h : Fin 64) :
    val_main_v39 (F := Ideal) x0 x3 x4 (ix2 r h)
      = Chord.dense (Chord.cur2 (a := 8192) (b := 64) x0) (Chord.cur3 (a := 2) (b := 64) (c := 64) x3 0) (Chord.cur2 (a := 2) (b := 64) x4 0) r h := by
  rw [val_main_v39_apply, val_main_v38_apply, val_main_call3_v0_apply, val_main_call3_cst_apply,
    val_main_v33_apply, Ideal.maximumf_def, Ideal.addf_def, Ideal.ofBits_def, Ideal.ofBits_zero_f32]
  refine dense_eq _ _ _ r h _ (fun k => ?_) _ (b37 x4 r h)
  show x0 (lidx_main_v33 (ix2 r h) k) * val_main_v32 (F := Ideal) x3 (ridx_main_v33 (ix2 r h) k)
    = x0 (ix2 r k) * x3 (ix3 (0 : Fin 2) h k)
  rw [show ridx_main_v33 (ix2 r h) k = ix2 k h from funext fun a => by match a with | ⟨0, _⟩ => rfl | ⟨1, _⟩ => rfl, w32,
    show lidx_main_v33 (ix2 r h) k = ix2 r k from funext fun a => by match a with | ⟨0, _⟩ => rfl | ⟨1, _⟩ => rfl]

/-- The weight matrix of this layer, transposed for the product: entry (k, h) is entry (0, h, k) of the stacked weights. -/
theorem w42 (x5 : (⟨S2x8192x64, .f32⟩ : BufTy).Contents (Elt Ideal)) (k : Fin 64) (h : Fin 8192) :
    val_main_v42 (F := Ideal) x5 (ix2 k h) = x5 (ix3 (0 : Fin 2) h k) := by
  rw [val_main_v42_apply, val_main_v41_apply, val_main_v40_apply]
  refine congrArg x5 (funext fun a => Fin.ext ?_)
  have hh := h.isLt
  have hk := k.isLt
  match a with
  | ⟨0, _⟩ => rfl
  | ⟨1, _⟩ => show (h.val * 64 + k.val) / 64 % 8192 = h.val; omega
  | ⟨2, _⟩ => show (h.val * 64 + k.val) % 64 = k.val; omega

/-- The bias of this layer, spread over the rows: entry (r, h) is entry (0, h) of the stacked biases. -/
theorem b47 (x6 : (⟨S2x8192, .f32⟩ : BufTy).Contents (Elt Ideal)) (r : Fin 8192) (h : Fin 8192) :
    val_main_v47 (F := Ideal) x6 (ix2 r h) = x6 (ix2 (0 : Fin 2) h) := by
  rw [val_main_v47_apply, val_main_v46_apply, val_main_v45_apply, val_main_v44_apply]
  refine congrArg x6 (funext fun a => Fin.ext ?_)
  have hh := h.isLt
  match a with
  | ⟨0, _⟩ => rfl
  | ⟨1, _⟩ => show h.val % 8192 = h.val; omega

/-- The scores of chord layer 0: the wide layer applied to the hidden one. -/
theorem score0_apply (x0 : (⟨S8192x64, .f32⟩ : BufTy).Contents (Elt Ideal)) (x3 : (⟨S2x64x64, .f32⟩ : BufTy).Contents (Elt Ideal)) (x4 : (⟨S2x64, .f32⟩ : BufTy).Contents (Elt Ideal)) (x5 : (⟨S2x8192x64, .f32⟩ : BufTy).Contents (Elt Ideal)) (x6 : (⟨S2x8192, .f32⟩ : BufTy).Contents (Elt Ideal)) (r : Fin 8192) (h : Fin 8192) :
    val_main_v49 (F := Ideal) x0 x3 x4 x5 x6 (ix2 r h)
      = Chord.dense (Chord.dense (Chord.cur2 (a := 8192) (b := 64) x0) (Chord.cur3 (a := 2) (b := 64) (c := 64) x3 0) (Chord.cur2 (a := 2) (b := 64) x4 0)) (Chord.cur3 (a := 2) (b := 8192) (c := 64) x5 0) (Chord.cur2 (a := 2) (b := 8192) x6 0) r h := by
  rw [val_main_v49_apply, val_main_v48_apply, val_main_call4_v0_apply, val_main_call4_cst_apply,
    val_main_v43_apply, Ideal.maximumf_def, Ideal.addf_def, Ideal.ofBits_def, Ideal.ofBits_zero_f32]
  refine dense_eq _ _ _ r h _ (fun k => ?_) _ (b47 x6 r h)
  show val_main_v39 (F := Ideal) x0 x3 x4 (lidx_main_v43 (ix2 r h) k) * val_main_v42 (F := Ideal) x5 (ridx_main_v43 (ix2 r h) k)
    = (Chord.dense (Chord.cur2 (a := 8192) (b := 64) x0) (Chord.cur3 (a := 2) (b := 64) (c := 64) x3 0) (Chord.cur2 (a := 2) (b := 64) x4 0)) r k * x5 (ix3 (0 : Fin 2) h k)
  rw [show ridx_main_v43 (ix2 r h) k = ix2 k h from funext fun a => by match a with | ⟨0, _⟩ => rfl | ⟨1, _⟩ => rfl, w42,
    show lidx_main_v43 (ix2 r h) k = ix2 r k from funext fun a => by match a with | ⟨0, _⟩ => rfl | ⟨1, _⟩ => rfl, hidden0_apply]

end Cert.RefNet

end
-- ==== Proof.RefScore1.lean ====
/-
  The score matrix of chord layer 1 of the reference: two dense layers of the input, the second one 8192 wide.

  As in the value stack, each layer is read stage by stage: the weight matrix is a slice of the stacked weights,
  reshaped and transposed, so its entry (k, h) is the stacked entry (1, h, k); the bias is a slice of the stacked
  biases spread over the rows; the product is a sum over the 64 input features; the rectifier is a maximum with zero.
-/
import proofs.«102228_j3375844295380_2_alg».proof.Proof.Gen.ReferenceIdeal.Read
import proofs.«102228_j3375844295380_2_alg».proof.Proof.ChordSpec
import proofs.«102228_j3375844295380_2_alg».proof.Proof.RefLaw

noncomputable section

open scoped BigOperators

namespace Cert.RefNet

open Cert.ReferenceIdeal Cert.ReferenceIdeal.Gen Cert.ReferenceIdeal.Read Idealize.ShloMosaic Idealize.ShloMosaic.ValueIdx

/-- The weight matrix of this layer, transposed for the product: entry (k, h) is entry (1, h, k) of the stacked weights. -/
theorem w54 (x3 : (⟨S2x64x64, .f32⟩ : BufTy).Contents (Elt Ideal)) (k : Fin 64) (h : Fin 64) :
    val_main_v54 (F := Ideal) x3 (ix2 k h) = x3 (ix3 (1 : Fin 2) h k) := by
  rw [val_main_v54_apply, val_main_v53_apply, val_main_v52_apply]
  refine congrArg x3 (funext fun a => Fin.ext ?_)
  have hh := h.isLt
  have hk := k.isLt
  match a with
  | ⟨0, _⟩ => rfl
  | ⟨1, _⟩ => show (h.val * 64 + k.val) / 64 % 64 = h.val; omega
  | ⟨2, _⟩ => show (h.val * 64 + k.val) % 64 = k.val; omega

/-- The bias of this layer, spread over the rows: entry (r, h) is entry (1, h) of the stacked biases. -/
theorem b59 (x4 : (⟨S2x64, .f32⟩ : BufTy).Contents (Elt Ideal)) (r : Fin 8192) (h : Fin 64) :
    val_main_v59 (F := Ideal) x4 (ix2 r h) = x4 (ix2 (1 : Fin 2) h) := by
  rw [val_main_v59_apply, val_main_v58_apply, val_main_v57_apply, val_main_v56_apply]
  refine congrArg x4 (funext fun a => Fin.ext ?_)
  have hh := h.isLt
  match a with
  | ⟨0, _⟩ => rfl
  | ⟨1, _⟩ => show h.val % 64 = h.val; omega

/-- The hidden layer of the scores of chord layer 1. -/
theorem hidden1_apply (x0 : (⟨S8192x64, .f32⟩ : BufTy).Contents (Elt Ideal)) (x3 : (⟨S2x64x64, .f32⟩ : BufTy).Contents (Elt Ideal)) (x4 : (⟨S2x64, .f32⟩ : BufTy).Contents (Elt Ideal)) (r : Fin 8192) (h : Fin 64) :
    val_main_v61 (F := Ideal) x0 x3 x4 (ix2 r h)
      = Chord.dense (Chord.cur2 (a := 8192) (b := 64) x0) (Chord.cur3 (a := 2) (b := 64) (c := 64) x3 1) (Chord.cur2 (a := 2) (b := 64) x4 1) r h := by
  rw [val_main_v61_apply, val_main_v60_apply, val_main_call5_v0_apply, val_main_call5_cst_apply,
    val_main_v55_apply, Ideal.maximumf_def, Ideal.addf_def, Ideal.ofBits_def, Ideal.ofBits_zero_f32]
  refine dense_eq _ _ _ r h _ (fun k => ?_) _ (b59 x4 r h)
  show x0 (lidx_main_v55 (ix2 r h) k) * val_main_v54 (F := Ideal) x3 (ridx_main_v55 (ix2 r h) k)
    = x0 (ix2 r k) * x3 (ix3 (1 : Fin 2) h k)
  rw [show ridx_main_v55 (ix2 r h) k = ix2 k h from funext fun a => by match a with | ⟨0, _⟩ => rfl | ⟨1, _⟩ => rfl, w54,
    show lidx_main_v55 (ix2 r h) k = ix2 r k from funext fun a => by match a with | ⟨0, _⟩ => rfl | ⟨1, _⟩ => rfl]

/-- The weight matrix of this layer, transposed for the product: entry (k, h) is entry (1, h, k) of the stacked weights. -/
theorem w64 (x5 : (⟨S2x8192x64, .f32⟩ : BufTy).Contents (Elt Ideal)) (k : Fin 64) (h : Fin 8192) :
    val_main_v64 (F := Ideal) x5 (ix2 k h) = x5 (ix3 (1 : Fin 2) h k) := by
  rw [val_main_v64_apply, val_main_v63_apply, val_main_v62_apply]
  refine congrArg x5 (funext fun a => Fin.ext ?_)
  have hh := h.isLt
  have hk := k.isLt
  match a with
  | ⟨0, _⟩ => rfl
  | ⟨1, _⟩ => show (h.val * 64 + k.val) / 64 % 8192 = h.val; omega
  | ⟨2, _⟩ => show (h.val * 64 + k.val) % 64 = k.val; omega

/-- The bias of this layer, spread over the rows: entry (r, h) is entry (1, h) of the stacked biases. -/
theorem b69 (x6 : (⟨S2x8192, .f32⟩ : BufTy).Contents (Elt Ideal)) (r : Fin 8192) (h : Fin 8192) :
    val_main_v69 (F := Ideal) x6 (ix2 r h) = x6 (ix2 (1 : Fin 2) h) := by
  rw [val_main_v69_apply, val_main_v68_apply, val_main_v67_apply, val_main_v66_apply]
  refine congrArg x6 (funext fun a => Fin.ext ?_)
  have hh := h.isLt
  match a with
  | ⟨0, _⟩ => rfl
  | ⟨1, _⟩ => show h.val % 8192 = h.val; omega

/-- The scores of chord layer 1: the wide layer applied to the hidden one. -/
theorem score1_apply (x0 : (⟨S8192x64, .f32⟩ : BufTy).Contents (Elt Ideal)) (x3 : (⟨S2x64x64, .f32⟩ : BufTy).Contents (Elt Ideal)) (x4 : (⟨S2x64, .f32⟩ : BufTy).Contents (Elt Ideal)) (x5 : (⟨S2x8192x64, .f32⟩ : BufTy).Contents (Elt Ideal)) (x6 : (⟨S2x8192, .f32⟩ : BufTy).Contents (Elt Ideal)) (r : Fin 8192) (h : Fin 8192) :
    val_main_v71 (F := Ideal) x0 x3 x4 x5 x6 (ix2 r h)
      = Chord.dense (Chord.dense (Chord.cur2 (a := 8192) (b := 64) x0) (Chord.cur3 (a := 2) (b := 64) (c := 64) x3 1) (Chord.cur2 (a := 2) (b := 64) x4 1)) (Chord.cur3 (a := 2) (b := 8192) (c := 64) x5 1) (Chord.cur2 (a := 2) (b := 8192) x6 1) r h := by
  rw [val_main_v71_apply, val_main_v70_apply, val_main_call6_v0_apply, val_main_call6_cst_apply,
    val_main_v65_apply, Ideal.maximumf_def, Ideal.addf_def, Ideal.ofBits_def, Ideal.ofBits_zero_f32]
  refine dense_eq _ _ _ r h _ (fun k => ?_) _ (b69 x6 r h)
  show val_main_v61 (F := Ideal) x0 x3 x4 (lidx_main_v65 (ix2 r h) k) * val_main_v64 (F := Ideal) x5 (ridx_main_v65 (ix2 r h) k)
    = (Chord.dense (Chord.cur2 (a := 8192) (b := 64) x0) (Chord.cur3 (a := 2) (b := 64) (c := 64) x3 1) (Chord.cur2 (a := 2) (b := 64) x4 1)) r k * x5 (ix3 (1 : Fin 2) h k)
  rw [show ridx_main_v65 (ix2 r h) k = ix2 k h from funext fun a => by match a with | ⟨0, _⟩ => rfl | ⟨1, _⟩ => rfl, w64,
    show lidx_main_v65 (ix2 r h) k = ix2 r k from funext fun a => by match a with | ⟨0, _⟩ => rfl | ⟨1, _⟩ => rfl, hidden1_apply]

end Cert.RefNet

end
-- ==== Proof.RefNet.lean ====
/-
  The reference computes the network of the specification.

  The two chord layers are read alike: the product of the masked scores with the values is a sum over 8192 columns
  whose terms are score times mask times value; the mask is one in the row's own column and in the next one
  cyclically and zero elsewhere, so the sum is the two-term expression of the specification. The first chord layer
  takes the value stack, the second the first layer's result.
-/
import proofs.«102228_j3375844295380_2_alg».proof.Proof.Gen.ReferenceIdeal.Read
import proofs.«102228_j3375844295380_2_alg».proof.Proof.ChordSpec
import proofs.«102228_j3375844295380_2_alg».proof.Proof.RefLaw
import proofs.«102228_j3375844295380_2_alg».proof.Proof.RefMask
import proofs.«102228_j3375844295380_2_alg».proof.Proof.RefStack
import proofs.«102228_j3375844295380_2_alg».proof.Proof.RefScore0
import proofs.«102228_j3375844295380_2_alg».proof.Proof.RefScore1

noncomputable section

open scoped BigOperators

namespace Cert.RefNet

open Cert.ReferenceIdeal Cert.ReferenceIdeal.Gen Cert.ReferenceIdeal.Read Idealize.ShloMosaic Idealize.ShloMosaic.ValueIdx

/-- The first chord layer of the reference. -/
theorem layer0_apply (x0 : (⟨S8192x64, .f32⟩ : BufTy).Contents (Elt Ideal)) (x1 : (⟨S2x64x64, .f32⟩ : BufTy).Contents (Elt Ideal)) (x2 : (⟨S2x64, .f32⟩ : BufTy).Contents (Elt Ideal)) (x3 : (⟨S2x64x64, .f32⟩ : BufTy).Contents (Elt Ideal)) (x4 : (⟨S2x64, .f32⟩ : BufTy).Contents (Elt Ideal)) (x5 : (⟨S2x8192x64, .f32⟩ : BufTy).Contents (Elt Ideal)) (x6 : (⟨S2x8192, .f32⟩ : BufTy).Contents (Elt Ideal)) (r : Fin 8192) (h : Fin 64) :
    val_main_v51 (F := Ideal) x0 x1 x2 x3 x4 x5 x6 (ix2 r h)
      = (Chord.layer (Chord.cur2 (a := 8192) (b := 64) x0) (Chord.cur3 (a := 2) (b := 64) (c := 64) x3 0) (Chord.cur2 (a := 2) (b := 64) x4 0) (Chord.cur3 (a := 2) (b := 8192) (c := 64) x5 0) (Chord.cur2 (a := 2) (b := 8192) x6 0) (Chord.stack (Chord.cur2 (a := 8192) (b := 64) x0) (Chord.cur3 (a := 2) (b := 64) (c := 64) x1) (Chord.cur2 (a := 2) (b := 64) x2))) r h := by
  rw [val_main_v51_apply]
  unfold Chord.layer
  refine chord_eq _ _ r h _ (fun k => ?_)
  show val_main_v50 (F := Ideal) x0 x3 x4 x5 x6 (lidx_main_v51 (ix2 r h) k) * val_main_v29 (F := Ideal) x0 x1 x2 (ridx_main_v51 (ix2 r h) k)
    = ((Chord.dense (Chord.dense (Chord.cur2 (a := 8192) (b := 64) x0) (Chord.cur3 (a := 2) (b := 64) (c := 64) x3 0) (Chord.cur2 (a := 2) (b := 64) x4 0)) (Chord.cur3 (a := 2) (b := 8192) (c := 64) x5 0) (Chord.cur2 (a := 2) (b := 8192) x6 0)) r k * (if k = r ∨ k = Chord.nxt r then 1 else 0)) * (Chord.stack (Chord.cur2 (a := 8192) (b := 64) x0) (Chord.cur3 (a := 2) (b := 64) (c := 64) x1) (Chord.cur2 (a := 2) (b := 64) x2)) k h
  rw [show lidx_main_v51 (ix2 r h) k = ix2 r k from funext fun a => by match a with | ⟨0, _⟩ => rfl | ⟨1, _⟩ => rfl,
    show ridx_main_v51 (ix2 r h) k = ix2 k h from funext fun a => by match a with | ⟨0, _⟩ => rfl | ⟨1, _⟩ => rfl,
    val_main_v50_apply, Ideal.mulf_def, score0_apply, mask_apply, stack_apply]

/-- The reference's result is the network of the seven argument arrays. -/
theorem ref_is_net (x0 : (⟨Cert.ReferenceIdeal.S8192x64, .f32⟩ : BufTy).Contents (Elt Ideal)) (x1 : (⟨Cert.ReferenceIdeal.S2x64x64, .f32⟩ : BufTy).Contents (Elt Ideal)) (x2 : (⟨Cert.ReferenceIdeal.S2x64, .f32⟩ : BufTy).Contents (Elt Ideal)) (x3 : (⟨Cert.ReferenceIdeal.S2x64x64, .f32⟩ : BufTy).Contents (Elt Ideal)) (x4 : (⟨Cert.ReferenceIdeal.S2x64, .f32⟩ : BufTy).Contents (Elt Ideal)) (x5 : (⟨Cert.ReferenceIdeal.S2x8192x64, .f32⟩ : BufTy).Contents (Elt Ideal)) (x6 : (⟨Cert.ReferenceIdeal.S2x8192, .f32⟩ : BufTy).Contents (Elt Ideal)) :
    Cert.ReferenceIdeal.Read.val_main_v73 (F := Ideal) x0 x1 x2 x3 x4 x5 x6 = Cert.Chord.G x0 x1 x2 x3 x4 x5 x6 := by
  funext i
  obtain ⟨r, h, rfl⟩ : ∃ (r : Fin 8192) (h : Fin 64), i = ix2 r h := ⟨i 0, i 1, eq_ix2 i⟩
  rw [Chord.G_ix2, val_main_v73_apply]
  unfold Chord.net
  refine (chord_eq (Chord.dense (Chord.dense (Chord.cur2 (a := 8192) (b := 64) x0) (Chord.cur3 (a := 2) (b := 64) (c := 64) x3 1) (Chord.cur2 (a := 2) (b := 64) x4 1)) (Chord.cur3 (a := 2) (b := 8192) (c := 64) x5 1) (Chord.cur2 (a := 2) (b := 8192) x6 1)) (Chord.layer (Chord.cur2 (a := 8192) (b := 64) x0) (Chord.cur3 (a := 2) (b := 64) (c := 64) x3 0) (Chord.cur2 (a := 2) (b := 64) x4 0) (Chord.cur3 (a := 2) (b := 8192) (c := 64) x5 0) (Chord.cur2 (a := 2) (b := 8192) x6 0) (Chord.stack (Chord.cur2 (a := 8192) (b := 64) x0) (Chord.cur3 (a := 2) (b := 64) (c := 64) x1) (Chord.cur2 (a := 2) (b := 64) x2))) r h _ (fun k => ?_)).trans rfl
  show val_main_v72 (F := Ideal) x0 x3 x4 x5 x6 (lidx_main_v73 (ix2 r h) k) * val_main_v51 (F := Ideal) x0 x1 x2 x3 x4 x5 x6 (ridx_main_v73 (ix2 r h) k)
    = ((Chord.dense (Chord.dense (Chord.cur2 (a := 8192) (b := 64) x0) (Chord.cur3 (a := 2) (b := 64) (c := 64) x3 1) (Chord.cur2 (a := 2) (b := 64) x4 1)) (Chord.cur3 (a := 2) (b := 8192) (c := 64) x5 1) (Chord.cur2 (a := 2) (b := 8192) x6 1)) r k * (if k = r ∨ k = Chord.nxt r then 1 else 0)) * (Chord.layer (Chord.cur2 (a := 8192) (b := 64) x0) (Chord.cur3 (a := 2) (b := 64) (c := 64) x3 0) (Chord.cur2 (a := 2) (b := 64) x4 0) (Chord.cur3 (a := 2) (b := 8192) (c := 64) x5 0) (Chord.cur2 (a := 2) (b := 8192) x6 0) (Chord.stack (Chord.cur2 (a := 8192) (b := 64) x0) (Chord.cur3 (a := 2) (b := 64) (c := 64) x1) (Chord.cur2 (a := 2) (b := 64) x2))) k h
  rw [show lidx_main_v73 (ix2 r h) k = ix2 r k from funext fun a => by match a with | ⟨0, _⟩ => rfl | ⟨1, _⟩ => rfl,
    show ridx_main_v73 (ix2 r h) k = ix2 k h from funext fun a => by match a with | ⟨0, _⟩ => rfl | ⟨1, _⟩ => rfl,
    val_main_v72_apply, Ideal.mulf_def, score1_apply, mask_apply, layer0_apply]

end Cert.RefNet

end
-- ==== Proof.lean ====
/-
  The certificate: a dense stack and two chord layers as three kernels, against the dense reference.

  Over the extended reals both programs compute `Chord.net` of the seven argument arrays (ChordSpec.lean):
  two rectified linear layers of `X` give the values `V`; then, twice, an 8192×8192 score matrix — two more rectified
  linear layers of `X` — is masked to its diagonal and its cyclic superdiagonal and multiplied with `V`.

  The reference forms the whole masked matrix and contracts all 8192 columns; every column but `r` and
  `(r + 1) mod 8192` contributes `score * 0 * value = 0`, so row `r` of the product is the two-term sum (RefNet.lean).
  The kernel never forms the matrix: the row tile of rows `512 t …` scores its rows against column chunk `t` and column
  chunk `(t + 1) mod 16` only, masks each chunk by comparing row and column numbers, and adds the two small products;
  the first chunk holds the diagonal entry and, except for the tile's last row, the superdiagonal entry, and the second
  chunk holds the last row's superdiagonal entry — for the last tile that is column 0, the wrap (ChordTile.lean,
  KTile*Val.lean). Only `0 * x = 0`, `1 * x = x` and the commutative-monoid laws of sums are used, so the finiteness of
  the inputs is never needed. The three regions' results are chained through the host operations between them
  (KHost.lean, KNet.lean), and the run of the three regions names the result buffer (KRun.lean).

  The idealization rewrote nothing, so `preserves` is trivial; the frames of the two kernel programs are the generated
  ones, and the reference's frame is its generated run with the result dropped.
-/
import proofs.«102228_j3375844295380_2_alg».proof.Defs
import proofs.«102228_j3375844295380_2_alg».proof.Proof.Gen.Kernel
import proofs.«102228_j3375844295380_2_alg».proof.Proof.Gen.Kernel.Skeleton
import proofs.«102228_j3375844295380_2_alg».proof.Proof.Gen.Kernel.Launch
import proofs.«102228_j3375844295380_2_alg».proof.Proof.Gen.Kernel.Points
import proofs.«102228_j3375844295380_2_alg».proof.Proof.Gen.Kernel.Frame
import proofs.«102228_j3375844295380_2_alg».proof.Proof.Gen.KernelIdeal
import proofs.«102228_j3375844295380_2_alg».proof.Proof.Gen.KernelIdeal.Skeleton
import proofs.«102228_j3375844295380_2_alg».proof.Proof.Gen.KernelIdeal.Launch
import proofs.«102228_j3375844295380_2_alg».proof.Proof.Gen.KernelIdeal.Points
import proofs.«102228_j3375844295380_2_alg».proof.Proof.Gen.KernelIdeal.Frame
import proofs.«102228_j3375844295380_2_alg».proof.Proof.Gen.ReferenceIdeal
import proofs.«102228_j3375844295380_2_alg».proof.Proof.Gen.Pre_finite_inputs
import proofs.«102228_j3375844295380_2_alg».proof.Proof.Gen.ReferenceIdeal.Run
import proofs.«102228_j3375844295380_2_alg».proof.Proof.Gen.ReferenceIdeal.Read
import proofs.«102228_j3375844295380_2_alg».proof.Proof.KNet
import proofs.«102228_j3375844295380_2_alg».proof.Proof.RefNet
import Idealize.ShloMosaic.Adequacy
import Idealize.ShloMosaic.Init

noncomputable section

namespace Cert.Proof

open Idealize.ShloMosaic Idealize.ShloMosaic.TcCoe Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference's frame: its run, with the result forgotten. -/
theorem frame_referenceIdeal : Cert.frame_ReferenceIdeal :=
  fun m ρ _ =>
    (θ_run Cert.ReferenceIdeal.defs _ _).mono (fun _ h c => (h c).2) (Cert.ReferenceIdeal.Value.run (F := Ideal) m ρ)

/-- Both runs end with the result buffer at `Chord.G` of the (agreeing) argument arrays. -/
theorem algebraic : Cert.algebraic_KernelIdeal_ReferenceIdeal := by
  intro m ρ m' ρ' _ hagree
  refine ⟨fun c => Cert.Chord.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KNet.kernel_value m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v73_eq, Cert.RefNet.ref_is_net,
      (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
